-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x16x32x32 : Shape := ⟨5, ![16, 16, 16, 32, 32]⟩
abbrev S16x432 : Shape := ⟨2, ![16, 432]⟩
abbrev S16x1 : Shape := ⟨2, ![16, 1]⟩
abbrev S27x16384 : Shape := ⟨2, ![27, 16384]⟩
abbrev S16 : Shape := ⟨1, ![16]⟩
abbrev S_ : Shape := ⟨0, ![]⟩
abbrev S3x3x3x16x32x32 : Shape := ⟨6, ![3, 3, 3, 16, 32, 32]⟩

class Facts : Prop where
  bcast_S_S16x16x16x32x32 : S_.BroadcastsInDim S16x16x16x32x32 (![] : Fin 0 → Fin S16x16x16x32x32.rank)
  reducesTo_S16x16x16x32x32_S_d0_1_2_3_4 : S16x16x16x32x32.ReducesTo [0, 1, 2, 3, 4] S_
  h_S_ : 0 < S_.numel
  bcast_S_S16x432 : S_.BroadcastsInDim S16x432 (![] : Fin 0 → Fin S16x432.rank)
  reducesTo_S16x432_S_d0_1 : S16x432.ReducesTo [0, 1] S_
  bcast_S_S16x1 : S_.BroadcastsInDim S16x1 (![] : Fin 0 → Fin S16x1.rank)
  reducesTo_S16x1_S_d0_1 : S16x1.ReducesTo [0, 1] S_
  bcast_S_S27x16384 : S_.BroadcastsInDim S27x16384 (![] : Fin 0 → Fin S27x16384.rank)
  reducesTo_S27x16384_S_d0_1 : S27x16384.ReducesTo [0, 1] S_
  bcast_S_S16 : S_.BroadcastsInDim S16 (![] : Fin 0 → Fin S16.rank)
  reducesTo_S16_S_d0 : S16.ReducesTo [0] S_
  bcast_S_S3x3x3x16x32x32 : S_.BroadcastsInDim S3x3x3x16x32x32 (![] : Fin 0 → Fin S3x3x3x16x32x32.rank)
  shapeCasts_S3x3x3x16x32x32_S27x16384 : S3x3x3x16x32x32.ShapeCasts S27x16384

variable [Facts]

def fn_part3 {F : FTy → Type} [FloatOps F] (main_arg3 : FVec F S27x16384 .f32) (main_v28 : IVec S_ 1) (main_v53 : IVec S3x3x3x16x32x32 1) (main_v54 : IVec S3x3x3x16x32x32 32) : IVec S_ 1 :=
  let main_c_15 : IVec S_ 32 := constantI S_ 32 32#32
  let main_v55 : IVec S3x3x3x16x32x32 32 := broadcastInDim S3x3x3x16x32x32 ![] bcast_S_S3x3x3x16x32x32 main_c_15
  let main_v56 : IVec S3x3x3x16x32x32 1 := cmpi .sle main_v54 main_v55
  let main_v57 : IVec S3x3x3x16x32x32 1 := andi main_v53 main_v56
  let main_v58 : FVec F S3x3x3x16x32x32 .f32 := uitofp .f32 main_v57
  let main_v59 : FVec F S27x16384 .f32 := shapeCast S27x16384 main_v58 shapeCasts_S3x3x3x16x32x32_S27x16384
  let main_v60 : IVec S27x16384 1 := cmpf .oeq main_arg3 main_v59
  let main_c_16 : IVec S_ 1 := constantI S_ 1 1#1
  let main_v61 : IVec S_ 1 := (fun x v => Host.reduce IntOp.andi x v reducesTo_S27x16384_S_d0_1 h_S_) main_v60 main_c_16
  let main_v62 : IVec S_ 1 := andi main_v28 main_v61
  main_v62

def fn_part2 {F : FTy → Type} [FloatOps F] (main_arg3 : FVec F S27x16384 .f32) (main_v28 : IVec S_ 1) (main_v29 : IVec S3x3x3x16x32x32 32) (main_v30 : IVec S3x3x3x16x32x32 32) (main_v31 : IVec S3x3x3x16x32x32 32) (main_v32 : IVec S3x3x3x16x32x32 32) (main_v33 : IVec S3x3x3x16x32x32 32) (main_v34 : IVec S3x3x3x16x32x32 32) (main_v35 : IVec S3x3x3x16x32x32 32) : IVec S_ 1 :=
  let main_c_10 : IVec S_ 32 := constantI S_ 32 1#32
  let main_v36 : IVec S3x3x3x16x32x32 32 := broadcastInDim S3x3x3x16x32x32 ![] bcast_S_S3x3x3x16x32x32 main_c_10
  let main_v37 : IVec S3x3x3x16x32x32 1 := cmpi .sge main_v35 main_v36
  let main_v38 : IVec S3x3x3x16x32x32 32 := addi main_v32 main_v29
  let main_c_11 : IVec S_ 32 := constantI S_ 32 16#32
  let main_v39 : IVec S3x3x3x16x32x32 32 := broadcastInDim S3x3x3x16x32x32 ![] bcast_S_S3x3x3x16x32x32 main_c_11
  let main_v40 : IVec S3x3x3x16x32x32 1 := cmpi .sle main_v38 main_v39
  let main_v41 : IVec S3x3x3x16x32x32 1 := andi main_v37 main_v40
  let main_v42 : IVec S3x3x3x16x32x32 32 := addi main_v33 main_v30
  let main_c_12 : IVec S_ 32 := constantI S_ 32 1#32
  let main_v43 : IVec S3x3x3x16x32x32 32 := broadcastInDim S3x3x3x16x32x32 ![] bcast_S_S3x3x3x16x32x32 main_c_12
  let main_v44 : IVec S3x3x3x16x32x32 1 := cmpi .sge main_v42 main_v43
  let main_v45 : IVec S3x3x3x16x32x32 1 := andi main_v41 main_v44
  let main_v46 : IVec S3x3x3x16x32x32 32 := addi main_v33 main_v30
  let main_c_13 : IVec S_ 32 := constantI S_ 32 32#32
  let main_v47 : IVec S3x3x3x16x32x32 32 := broadcastInDim S3x3x3x16x32x32 ![] bcast_S_S3x3x3x16x32x32 main_c_13
  let main_v48 : IVec S3x3x3x16x32x32 1 := cmpi .sle main_v46 main_v47
  let main_v49 : IVec S3x3x3x16x32x32 1 := andi main_v45 main_v48
  let main_v50 : IVec S3x3x3x16x32x32 32 := addi main_v34 main_v31
  let main_c_14 : IVec S_ 32 := constantI S_ 32 1#32
  let main_v51 : IVec S3x3x3x16x32x32 32 := broadcastInDim S3x3x3x16x32x32 ![] bcast_S_S3x3x3x16x32x32 main_c_14
  let main_v52 : IVec S3x3x3x16x32x32 1 := cmpi .sge main_v50 main_v51
  let main_v53 : IVec S3x3x3x16x32x32 1 := andi main_v49 main_v52
  let main_v54 : IVec S3x3x3x16x32x32 32 := addi main_v34 main_v31
  fn_part3 (F := F) main_arg3 main_v28 main_v53 main_v54

def fn_part1 {F : FTy → Type} [FloatOps F] (main_arg3 : FVec F S27x16384 .f32) (main_arg4 : FVec F S16 .f32) (main_arg5 : FVec F S16 .f32) (main_v13 : IVec S_ 1) (main_v16 : IVec S27x16384 1) : IVec S_ 1 :=
  let main_c_5 : IVec S_ 1 := constantI S_ 1 1#1
  let main_v17 : IVec S_ 1 := (fun x v => Host.reduce IntOp.andi x v reducesTo_S27x16384_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : IVec S3x3x3x16x32x32 32 := iotaInDim S3x3x3x16x32x32 32 0
  let main_v30 : IVec S3x3x3x16x32x32 32 := iotaInDim S3x3x3x16x32x32 32 1
  let main_v31 : IVec S3x3x3x16x32x32 32 := iotaInDim S3x3x3x16x32x32 32 2
  let main_v32 : IVec S3x3x3x16x32x32 32 := iotaInDim S3x3x3x16x32x32 32 3
  let main_v33 : IVec S3x3x3x16x32x32 32 := iotaInDim S3x3x3x16x32x32 32 4
  let main_v34 : IVec S3x3x3x16x32x32 32 := iotaInDim S3x3x3x16x32x32 32 5
  let main_v35 : IVec S3x3x3x16x32x32 32 := addi main_v32 main_v29
  fn_part2 (F := F) main_arg3 main_v28 main_v29 main_v30 main_v31 main_v32 main_v33 main_v34 main_v35

def fn {F : FTy → Type} [FloatOps F] (main_arg0 : FVec F S16x16x16x32x32 .f32) (main_arg1 : FVec F S16x432 .f32) (main_arg2 : FVec F S16x1 .f32) (main_arg3 : FVec F S27x16384 .f32) (main_arg4 : FVec F S16 .f32) (main_arg5 : FVec F S16 .f32) : IVec S_ 1 :=
  let main_v0 : FVec F S16x16x16x32x32 .f32 := Host.absf main_arg0
  let main_cst : FVec F S_ .f32 := constant S_ .f32 0x7F800000#32
  let main_v1 : FVec F S16x16x16x32x32 .f32 := broadcastInDim S16x16x16x32x32 ![] bcast_S_S16x16x16x32x32 main_cst
  let main_v2 : IVec S16x16x16x32x32 1 := cmpf .olt main_v0 main_v1
  let main_c : IVec S_ 1 := constantI S_ 1 1#1
  let main_v3 : IVec S_ 1 := (fun x v => Host.reduce IntOp.andi x v reducesTo_S16x16x16x32x32_S_d0_1_2_3_4 h_S_) main_v2 main_c
  let main_v4 : FVec F S16x432 .f32 := Host.absf main_arg1
  let main_cst_0 : FVec F S_ .f32 := constant S_ .f32 0x7F800000#32
  let main_v5 : FVec F S16x432 .f32 := broadcastInDim S16x432 ![] bcast_S_S16x432 main_cst_0
  let main_v6 : IVec S16x432 1 := cmpf .olt main_v4 main_v5
  let main_c_1 : IVec S_ 1 := constantI S_ 1 1#1
  let main_v7 : IVec S_ 1 := (fun x v => Host.reduce IntOp.andi x v reducesTo_S16x432_S_d0_1 h_S_) main_v6 main_c_1
  let main_v8 : IVec S_ 1 := andi main_v3 main_v7
  let main_v9 : FVec F S16x1 .f32 := Host.absf main_arg2
  let main_cst_2 : FVec F S_ .f32 := constant S_ .f32 0x7F800000#32
  let main_v10 : FVec F S16x1 .f32 := broadcastInDim S16x1 ![] bcast_S_S16x1 main_cst_2
  let main_v11 : IVec S16x1 1 := cmpf .olt main_v9 main_v10
  let main_c_3 : IVec S_ 1 := constantI S_ 1 1#1
  let main_v12 : IVec S_ 1 := (fun x v => Host.reduce IntOp.andi x v reducesTo_S16x1_S_d0_1 h_S_) main_v11 main_c_3
  let main_v13 : IVec S_ 1 := andi main_v8 main_v12
  let main_v14 : FVec F S27x16384 .f32 := Host.absf main_arg3
  let main_cst_4 : FVec F S_ .f32 := constant S_ .f32 0x7F800000#32
  let main_v15 : FVec F S27x16384 .f32 := broadcastInDim S27x16384 ![] bcast_S_S27x16384 main_cst_4
  let main_v16 : IVec S27x16384 1 := cmpf .olt main_v14 main_v15
  fn_part1 (F := F) main_arg3 main_arg4 main_arg5 main_v13 main_v16
-- ==== Kernel.lean ====
abbrev S16x16x16x32x32 : Shape := ⟨5, ![16, 16, 16, 32, 32]⟩
abbrev S16x432 : Shape := ⟨2, ![16, 432]⟩
abbrev S16x1 : Shape := ⟨2, ![16, 1]⟩
abbrev S27x16384 : Shape := ⟨2, ![27, 16384]⟩
abbrev S16 : Shape := ⟨1, ![16]⟩
abbrev S16x16x16384 : Shape := ⟨3, ![16, 16, 16384]⟩
abbrev S16x16x1 : Shape := ⟨3, ![16, 16, 1]⟩
abbrev S1x16x16384 : Shape := ⟨3, ![1, 16, 16384]⟩
abbrev S1x16x1 : Shape := ⟨3, ![1, 16, 1]⟩
abbrev S16x16384 : Shape := ⟨2, ![16, 16384]⟩
abbrev S9x1024 : Shape := ⟨2, ![9, 1024]⟩
abbrev S1x9x1x1024 : Shape := ⟨4, ![1, 9, 1, 1024]⟩
abbrev S1x9x18x1024 : Shape := ⟨4, ![1, 9, 18, 1024]⟩
abbrev S9x18432 : Shape := ⟨2, ![9, 18432]⟩
abbrev S16x144 : Shape := ⟨2, ![16, 144]⟩
abbrev S144x18432 : Shape := ⟨2, ![144, 18432]⟩
abbrev S16x1024 : Shape := ⟨2, ![16, 1024]⟩
abbrev S16x18432 : Shape := ⟨2, ![16, 18432]⟩
abbrev S16x33 : Shape := ⟨2, ![16, 33]⟩
abbrev S16x18399 : Shape := ⟨2, ![16, 18399]⟩
abbrev S1x18432 : Shape := ⟨2, ![1, 18432]⟩
abbrev S16x32 : Shape := ⟨2, ![16, 32]⟩
abbrev S16x18400 : Shape := ⟨2, ![16, 18400]⟩
abbrev S16x31 : Shape := ⟨2, ![16, 31]⟩
abbrev S16x18401 : Shape := ⟨2, ![16, 18401]⟩
abbrev S16x18431 : Shape := ⟨2, ![16, 18431]⟩
abbrev S144x16384 : Shape := ⟨2, ![144, 16384]⟩

abbrev nBuf : Space → Nat
  | .hbm => 20
  | .vmem => 20
  | .smem => 0
  | _ => 0

abbrev bufTy : (tb : Table) → Fin (tcTables nBuf tb) → BufTy
  | .hbm, ⟨0, _⟩ => ⟨S16x16x16x32x32, .f32⟩
  | .hbm, ⟨1, _⟩ => ⟨S16x432, .f32⟩
  | .hbm, ⟨2, _⟩ => ⟨S16x1, .f32⟩
  | .hbm, ⟨3, _⟩ => ⟨S27x16384, .f32⟩
  | .hbm, ⟨4, _⟩ => ⟨S16, .f32⟩
  | .hbm, ⟨5, _⟩ => ⟨S16, .f32⟩
  | .hbm, ⟨6, _⟩ => ⟨S16x16x16384, .f32⟩
  | .hbm, ⟨7, _⟩ => ⟨S16x16x1, .f32⟩
  | .hbm, ⟨8, _⟩ => ⟨S16x16x1, .f32⟩
  | .hbm, ⟨9, _⟩ => ⟨S9x1024, .f32⟩
  | .hbm, ⟨10, _⟩ => ⟨S1x9x1x1024, .f32⟩
  | .hbm, ⟨11, _⟩ => ⟨S1x9x18x1024, .f32⟩
  | .hbm, ⟨12, _⟩ => ⟨S9x18432, .f32⟩
  | .hbm, ⟨13, _⟩ => ⟨S16x144, .f32⟩
  | .hbm, ⟨14, _⟩ => ⟨S16x144, .f32⟩
  | .hbm, ⟨15, _⟩ => ⟨S16x144, .f32⟩
  | .hbm, ⟨16, _⟩ => ⟨S16x1, .f32⟩
  | .hbm, ⟨17, _⟩ => ⟨S16x1, .f32⟩
  | .hbm, ⟨18, _⟩ => ⟨S16x16x16384, .f32⟩
  | .hbm, ⟨19, _⟩ => ⟨S16x16x16x32x32, .f32⟩
  | .local _ .vmem, ⟨0, _⟩ => ⟨S1x16x16384, .f32⟩
  | .local _ .vmem, ⟨1, _⟩ => ⟨S1x16x16384, .f32⟩
  | .local _ .vmem, ⟨2, _⟩ => ⟨S1x16x1, .f32⟩
  | .local _ .vmem, ⟨3, _⟩ => ⟨S1x16x1, .f32⟩
  | .local _ .vmem, ⟨4, _⟩ => ⟨S1x16x1, .f32⟩
  | .local _ .vmem, ⟨5, _⟩ => ⟨S1x16x1, .f32⟩
  | .local _ .vmem, ⟨6, _⟩ => ⟨S16x16x1, .f32⟩
  | .local _ .vmem, ⟨7, _⟩ => ⟨S16x16x1, .f32⟩
  | .local _ .vmem, ⟨8, _⟩ => ⟨S16x1, .f32⟩
  | .local _ .vmem, ⟨9, _⟩ => ⟨S16x1, .f32⟩
  | .local _ .vmem, ⟨10, _⟩ => ⟨S1x16x16384, .f32⟩
  | .local _ .vmem, ⟨11, _⟩ => ⟨S1x16x16384, .f32⟩
  | .local _ .vmem, ⟨12, _⟩ => ⟨S16x144, .f32⟩
  | .local _ .vmem, ⟨13, _⟩ => ⟨S16x144, .f32⟩
  | .local _ .vmem, ⟨14, _⟩ => ⟨S16x144, .f32⟩
  | .local _ .vmem, ⟨15, _⟩ => ⟨S16x1, .f32⟩
  | .local _ .vmem, ⟨16, _⟩ => ⟨S9x18432, .f32⟩
  | .local _ .vmem, ⟨17, _⟩ => ⟨S1x16x16384, .f32⟩
  | .local _ .vmem, ⟨18, _⟩ => ⟨S1x16x16384, .f32⟩
  | .local _ .vmem, ⟨19, _⟩ => ⟨S144x18432, .f32⟩
  | _, _ => ⟨S16x16x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg10_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S16x16x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x16x16384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S16x144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x144 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x144 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S9x18432 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x16x16384 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  shapeCasts_S16x16x16x32x32_S16x16x16384 : S16x16x16x32x32.ShapeCasts S16x16x16384
  inb_S1x16x16384_S1x16x16384_0_0_0 : ∀ a, (![0, 0, 0] : Fin 3 → Nat) a + S1x16x16384.size a ≤ S1x16x16384.size a
  h_S1x16x16384 : 0 < S1x16x16384.numel
  shapeCasts_S1x16x16384_S16x16384 : S1x16x16384.ShapeCasts S16x16384
  reduces_S16x16384_S16 : S16x16384.Reduces [1] S16
  shapeCasts_S16_S16x1 : S16.ShapeCasts S16x1
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  slices_S27x16384_S9x1024_9_0 : S27x16384.Slices ![9, 0] S9x1024
  shapeCasts_S9x1024_S1x9x1x1024 : S9x1024.ShapeCasts S1x9x1x1024
  bcast_S1x9x1x1024_S1x9x18x1024_0_1_2_3 : S1x9x1x1024.BroadcastsInDim S1x9x18x1024 (![0, 1, 2, 3] : Fin 4 → Fin S1x9x18x1024.rank)
  shapeCasts_S1x9x18x1024_S9x18432 : S1x9x18x1024.ShapeCasts S9x18432
  slices_S16x432_S16x144_0_0 : S16x432.Slices ![0, 0] S16x144
  slices_S16x432_S16x144_0_144 : S16x432.Slices ![0, 144] S16x144
  slices_S16x432_S16x144_0_288 : S16x432.Slices ![0, 288] S16x144
  inb_S16x16x1_S16x16x1_0_0_0 : ∀ a, (![0, 0, 0] : Fin 3 → Nat) a + S16x16x1.size a ≤ S16x16x1.size a
  h_S16x16x1 : 0 < S16x16x1.numel
  shapeCasts_S16x16x1_S16x16x1 : S16x16x1.ShapeCasts S16x16x1
  reduces_S16x16x1_S16x1 : S16x16x1.Reduces [0] S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  concatenates_S16x1024_S16x16384_S16x1024_S16x18432_d1 : Shape.Concatenates [S16x1024, S16x16384, S16x1024] S16x18432 1
  slices_S16x18432_o0_18399_S16x33 : S16x18432.Slices ![0, 18399] S16x33
  slices_S16x18432_o0_0_S16x18399 : S16x18432.Slices ![0, 0] S16x18399
  concatenates_S16x33_S16x18399_S16x18432_d1 : Shape.Concatenates [S16x33, S16x18399] S16x18432 1
  inb_S9x18432_S1x18432_0_0 : ∀ a, (![0, 0] : Fin 2 → Nat) a + S1x18432.size a ≤ S9x18432.size a
  h_S1x18432 : 0 < S1x18432.numel
  shapeCasts_S1x18432_S1x18432 : S1x18432.ShapeCasts S1x18432
  broadcasts_S1x18432_S16x18432 : S1x18432.Broadcasts S16x18432
  inb_S144x18432_S16x18432_0_0 : ∀ a, (![0, 0] : Fin 2 → Nat) a + S16x18432.size a ≤ S144x18432.size a
  h_S16x18432 : 0 < S16x18432.numel
  shapeCasts_S16x18432_S16x18432 : S16x18432.ShapeCasts S16x18432
  slices_S16x18432_o0_18400_S16x32 : S16x18432.Slices ![0, 18400] S16x32
  slices_S16x18432_o0_0_S16x18400 : S16x18432.Slices ![0, 0] S16x18400
  concatenates_S16x32_S16x18400_S16x18432_d1 : Shape.Concatenates [S16x32, S16x18400] S16x18432 1
  inb_S9x18432_S1x18432_1_0 : ∀ a, (![1, 0] : Fin 2 → Nat) a + S1x18432.size a ≤ S9x18432.size a
  inb_S144x18432_S16x18432_16_0 : ∀ a, (![16, 0] : Fin 2 → Nat) a + S16x18432.size a ≤ S144x18432.size a
  slices_S16x18432_o0_18401_S16x31 : S16x18432.Slices ![0, 18401] S16x31
  slices_S16x18432_o0_0_S16x18401 : S16x18432.Slices ![0, 0] S16x18401
  concatenates_S16x31_S16x18401_S16x18432_d1 : Shape.Concatenates [S16x31, S16x18401] S16x18432 1
  inb_S9x18432_S1x18432_2_0 : ∀ a, (![2, 0] : Fin 2 → Nat) a + S1x18432.size a ≤ S9x18432.size a
  inb_S144x18432_S16x18432_32_0 : ∀ a, (![32, 0] : Fin 2 → Nat) a + S16x18432.size a ≤ S144x18432.size a
  slices_S16x18432_o0_18431_S16x1 : S16x18432.Slices ![0, 18431] S16x1
  slices_S16x18432_o0_0_S16x18431 : S16x18432.Slices ![0, 0] S16x18431
  concatenates_S16x1_S16x18431_S16x18432_d1 : Shape.Concatenates [S16x1, S16x18431] S16x18432 1
  inb_S9x18432_S1x18432_3_0 : ∀ a, (![3, 0] : Fin 2 → Nat) a + S1x18432.size a ≤ S9x18432.size a
  inb_S144x18432_S16x18432_48_0 : ∀ a, (![48, 0] : Fin 2 → Nat) a + S16x18432.size a ≤ S144x18432.size a
  inb_S9x18432_S1x18432_4_0 : ∀ a, (![4, 0] : Fin 2 → Nat) a + S1x18432.size a ≤ S9x18432.size a
  inb_S144x18432_S16x18432_64_0 : ∀ a, (![64, 0] : Fin 2 → Nat) a + S16x18432.size a ≤ S144x18432.size a
  slices_S16x18432_o0_1_S16x18431 : S16x18432.Slices ![0, 1] S16x18431
  slices_S16x18432_o0_0_S16x1 : S16x18432.Slices ![0, 0] S16x1
  concatenates_S16x18431_S16x1_S16x18432_d1 : Shape.Concatenates [S16x18431, S16x1] S16x18432 1
  inb_S9x18432_S1x18432_5_0 : ∀ a, (![5, 0] : Fin 2 → Nat) a + S1x18432.size a ≤ S9x18432.size a
  inb_S144x18432_S16x18432_80_0 : ∀ a, (![80, 0] : Fin 2 → Nat) a + S16x18432.size a ≤ S144x18432.size a
  slices_S16x18432_o0_31_S16x18401 : S16x18432.Slices ![0, 31] S16x18401
  slices_S16x18432_o0_0_S16x31 : S16x18432.Slices ![0, 0] S16x31
  concatenates_S16x18401_S16x31_S16x18432_d1 : Shape.Concatenates [S16x18401, S16x31] S16x18432 1
  inb_S9x18432_S1x18432_6_0 : ∀ a, (![6, 0] : Fin 2 → Nat) a + S1x18432.size a ≤ S9x18432.size a
  inb_S144x18432_S16x18432_96_0 : ∀ a, (![96, 0] : Fin 2 → Nat) a + S16x18432.size a ≤ S144x18432.size a
  slices_S16x18432_o0_32_S16x18400 : S16x18432.Slices ![0, 32] S16x18400
  slices_S16x18432_o0_0_S16x32 : S16x18432.Slices ![0, 0] S16x32
  concatenates_S16x18400_S16x32_S16x18432_d1 : Shape.Concatenates [S16x18400, S16x32] S16x18432 1
  inb_S9x18432_S1x18432_7_0 : ∀ a, (![7, 0] : Fin 2 → Nat) a + S1x18432.size a ≤ S9x18432.size a
  inb_S144x18432_S16x18432_112_0 : ∀ a, (![112, 0] : Fin 2 → Nat) a + S16x18432.size a ≤ S144x18432.size a
  slices_S16x18432_o0_33_S16x18399 : S16x18432.Slices ![0, 33] S16x18399
  slices_S16x18432_o0_0_S16x33 : S16x18432.Slices ![0, 0] S16x33
  concatenates_S16x18399_S16x33_S16x18432_d1 : Shape.Concatenates [S16x18399, S16x33] S16x18432 1
  inb_S9x18432_S1x18432_8_0 : ∀ a, (![8, 0] : Fin 2 → Nat) a + S1x18432.size a ≤ S9x18432.size a
  inb_S144x18432_S16x18432_128_0 : ∀ a, (![128, 0] : Fin 2 → Nat) a + S16x18432.size a ≤ S144x18432.size a
  inb_S16x144_S16x144_0_0 : ∀ a, (![0, 0] : Fin 2 → Nat) a + S16x144.size a ≤ S16x144.size a
  h_S16x144 : 0 < S16x144.numel
  shapeCasts_S16x144_S16x144 : S16x144.ShapeCasts S16x144
  inb_S144x18432_S144x16384_0_0 : ∀ a, (![0, 0] : Fin 2 → Nat) a + S144x16384.size a ≤ S144x18432.size a
  h_S144x16384 : 0 < S144x16384.numel
  inb_S144x18432_S144x16384_0_1024 : ∀ a, (![0, 1024] : Fin 2 → Nat) a + S144x16384.size a ≤ S144x18432.size a
  inb_S144x18432_S144x16384_0_2048 : ∀ a, (![0, 2048] : Fin 2 → Nat) a + S144x16384.size a ≤ S144x18432.size a
  shapeCasts_S16x16384_S1x16x16384 : S16x16384.ShapeCasts S1x16x16384
  shapeCasts_S16x16x16384_S16x16x16x32x32 : S16x16x16384.ShapeCasts S16x16x16x32x32
  dot_S16x144_S144x16384_S16x16384_1_0_0_1_n_n_wf : DotDims.WF S16x144 S144x16384 S16x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x16384.size a ≤ S16x16x16384.size a
  hwx0_0 : ∀ i : grid0.Coords, EltTy.bits .f32 = 32 ∨ (Rect.block (s := S16x16x16384) S1x16x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1.size a ≤ S16x16x1.size a
  hwx0_1 : ∀ i : grid0.Coords, EltTy.bits .f32 = 32 ∨ (Rect.block (s := S16x16x1) S1x16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S16x16x1.size a
  hwx0_2 : ∀ i : grid0.Coords, EltTy.bits .f32 = 32 ∨ (Rect.block (s := S16x16x1) S1x16x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x16x1.size a ≤ S16x16x1.size a
  hwx1_0 : ∀ i : grid1.Coords, EltTy.bits .f32 = 32 ∨ (Rect.block (s := S16x16x1) S16x16x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16x1.size a ≤ S16x16x1.size a
  hwx1_1 : ∀ i : grid1.Coords, EltTy.bits .f32 = 32 ∨ (Rect.block (s := S16x16x1) S16x16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x16384.size a ≤ S16x16x16384.size a
  hwx1_4 : ∀ i : grid1.Coords, EltTy.bits .f32 = 32 ∨ (Rect.block (s := S16x16x16384) S1x16x16384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x144.size a ≤ S16x144.size a
  hwx1_5 : ∀ i : grid1.Coords, EltTy.bits .f32 = 32 ∨ (Rect.block (s := S16x144) S16x144.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x144.size a ≤ S16x144.size a
  hwx1_6 : ∀ i : grid1.Coords, EltTy.bits .f32 = 32 ∨ (Rect.block (s := S16x144) S16x144.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x144.size a ≤ S16x144.size a
  hwx1_7 : ∀ i : grid1.Coords, EltTy.bits .f32 = 32 ∨ (Rect.block (s := S16x144) S16x144.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x1.size a ≤ S16x1.size a
  hwx1_8 : ∀ i : grid1.Coords, EltTy.bits .f32 = 32 ∨ (Rect.block (s := S16x1) S16x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S9x18432.size a ≤ S9x18432.size a
  hwx1_9 : ∀ i : grid1.Coords, EltTy.bits .f32 = 32 ∨ (Rect.block (s := S9x18432) S9x18432.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x16x16384.size a ≤ S16x16x16384.size a
  hwx1_10 : ∀ i : grid1.Coords, EltTy.bits .f32 = 32 ∨ (Rect.block (s := S16x16x16384) S1x16x16384.size (cc1_transform_10 i) (hinb1_10 i)).WholeWords (EltTy.packing .f32)

variable [Facts₀]

def dot_S16x144_S144x16384_S16x16384_1_0_0_1_n_n : DotDims S16x144 S144x16384 S16x16384 where
  lhsContracting := [1]
  rhsContracting := [0]
  lhsNonContracting := [0]
  rhsNonContracting := [1]
  lhsBatch := []
  rhsBatch := []
  wf := dot_S16x144_S144x16384_S16x16384_1_0_0_1_n_n_wf

abbrev win0_0 : Pipeline.Window sig grid0 :=
  Pipeline.Window.ofSpec (Memref.whole main_v0) S1x16x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x16x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S16x16x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S16x16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x16x16384.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S16x144.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S16x144.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S16x144.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg2) S16x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v5) S9x18432.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v11) S1x16x16384.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S16x16x16x32x32 : Shape := ⟨5, ![16, 16, 16, 32, 32]⟩
abbrev S16x432 : Shape := ⟨2, ![16, 432]⟩
abbrev S16x1 : Shape := ⟨2, ![16, 1]⟩
abbrev S27x16384 : Shape := ⟨2, ![27, 16384]⟩
abbrev S16 : Shape := ⟨1, ![16]⟩
abbrev S16x16x16384 : Shape := ⟨3, ![16, 16, 16384]⟩
abbrev S16x16x1 : Shape := ⟨3, ![16, 16, 1]⟩
abbrev S1x16x8192 : Shape := ⟨3, ![1, 16, 8192]⟩
abbrev S1x16x1 : Shape := ⟨3, ![1, 16, 1]⟩
abbrev S16x8192 : Shape := ⟨2, ![16, 8192]⟩
abbrev S16x16 : Shape := ⟨2, ![16, 16]⟩
abbrev S_ : Shape := ⟨0, ![]⟩
abbrev S1x16x16384 : Shape := ⟨3, ![1, 16, 16384]⟩
abbrev S432x16384 : Shape := ⟨2, ![432, 16384]⟩
abbrev S16x16384 : Shape := ⟨2, ![16, 16384]⟩
abbrev S16x1057 : Shape := ⟨2, ![16, 1057]⟩
abbrev S16x15327 : Shape := ⟨2, ![16, 15327]⟩
abbrev S1x16384 : Shape := ⟨2, ![1, 16384]⟩
abbrev S16x1056 : Shape := ⟨2, ![16, 1056]⟩
abbrev S16x15328 : Shape := ⟨2, ![16, 15328]⟩
abbrev S16x1055 : Shape := ⟨2, ![16, 1055]⟩
abbrev S16x15329 : Shape := ⟨2, ![16, 15329]⟩
abbrev S16x1025 : Shape := ⟨2, ![16, 1025]⟩
abbrev S16x15359 : Shape := ⟨2, ![16, 15359]⟩
abbrev S16x1024 : Shape := ⟨2, ![16, 1024]⟩
abbrev S16x15360 : Shape := ⟨2, ![16, 15360]⟩
abbrev S16x1023 : Shape := ⟨2, ![16, 1023]⟩
abbrev S16x15361 : Shape := ⟨2, ![16, 15361]⟩
abbrev S16x993 : Shape := ⟨2, ![16, 993]⟩
abbrev S16x15391 : Shape := ⟨2, ![16, 15391]⟩
abbrev S16x992 : Shape := ⟨2, ![16, 992]⟩
abbrev S16x15392 : Shape := ⟨2, ![16, 15392]⟩
abbrev S16x991 : Shape := ⟨2, ![16, 991]⟩
abbrev S16x15393 : Shape := ⟨2, ![16, 15393]⟩
abbrev S16x33 : Shape := ⟨2, ![16, 33]⟩
abbrev S16x16351 : Shape := ⟨2, ![16, 16351]⟩
abbrev S16x32 : Shape := ⟨2, ![16, 32]⟩
abbrev S16x16352 : Shape := ⟨2, ![16, 16352]⟩
abbrev S16x31 : Shape := ⟨2, ![16, 31]⟩
abbrev S16x16353 : Shape := ⟨2, ![16, 16353]⟩
abbrev S16x16383 : Shape := ⟨2, ![16, 16383]⟩

abbrev nBuf : Space → Nat
  | .hbm => 37
  | .vmem => 16
  | .smem => 0
  | _ => 0

abbrev bufTy : (tb : Table) → Fin (tcTables nBuf tb) → BufTy
  | .hbm, ⟨0, _⟩ => ⟨S16x16x16x32x32, .f32⟩
  | .hbm, ⟨1, _⟩ => ⟨S16x432, .f32⟩
  | .hbm, ⟨2, _⟩ => ⟨S16x1, .f32⟩
  | .hbm, ⟨3, _⟩ => ⟨S27x16384, .f32⟩
  | .hbm, ⟨4, _⟩ => ⟨S16, .f32⟩
  | .hbm, ⟨5, _⟩ => ⟨S16, .f32⟩
  | .hbm, ⟨6, _⟩ => ⟨S16x16x16384, .f32⟩
  | .hbm, ⟨7, _⟩ => ⟨S16x16x1, .f32⟩
  | .hbm, ⟨8, _⟩ => ⟨S16x16x1, .f32⟩
  | .hbm, ⟨9, _⟩ => ⟨S16x16, .f32⟩
  | .hbm, ⟨10, _⟩ => ⟨S_, .f32⟩
  | .hbm, ⟨11, _⟩ => ⟨S16, .f32⟩
  | .hbm, ⟨12, _⟩ => ⟨S16x16, .f32⟩
  | .hbm, ⟨13, _⟩ => ⟨S_, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S16x1, .f32⟩
  | .hbm, ⟨34, _⟩ => ⟨S16x1, .f32⟩
  | .hbm, ⟨35, _⟩ => ⟨S16x16x16384, .f32⟩
  | .hbm, ⟨36, _⟩ => ⟨S16x16x16x32x32, .f32⟩
  | .local _ .vmem, ⟨0, _⟩ => ⟨S1x16x8192, .f32⟩
  | .local _ .vmem, ⟨1, _⟩ => ⟨S1x16x8192, .f32⟩
  | .local _ .vmem, ⟨2, _⟩ => ⟨S1x16x1, .f32⟩
  | .local _ .vmem, ⟨3, _⟩ => ⟨S1x16x1, .f32⟩
  | .local _ .vmem, ⟨4, _⟩ => ⟨S1x16x1, .f32⟩
  | .local _ .vmem, ⟨5, _⟩ => ⟨S1x16x1, .f32⟩
  | .local _ .vmem, ⟨6, _⟩ => ⟨S1x16x16384, .f32⟩
  | .local _ .vmem, ⟨7, _⟩ => ⟨S1x16x16384, .f32⟩
  | .local _ .vmem, ⟨8, _⟩ => ⟨S16x1, .f32⟩
  | .local _ .vmem, ⟨9, _⟩ => ⟨S16x1, .f32⟩
  | .local _ .vmem, ⟨10, _⟩ => ⟨S16x432, .f32⟩
  | .local _ .vmem, ⟨11, _⟩ => ⟨S16x1, .f32⟩
  | .local _ .vmem, ⟨12, _⟩ => ⟨S27x16384, .f32⟩
  | .local _ .vmem, ⟨13, _⟩ => ⟨S1x16x16384, .f32⟩
  | .local _ .vmem, ⟨14, _⟩ => ⟨S1x16x16384, .f32⟩
  | .local _ .vmem, ⟨15, _⟩ => ⟨S432x16384, .f32⟩
  | _, _ => ⟨S16x16x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x432 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S27x16384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x16x16384 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S16x16x16x32x32_S16x16x16384 : S16x16x16x32x32.ShapeCasts S16x16x16384
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S1x16x8192_S1x16x8192_0_0_0 : ∀ a, (![0, 0, 0] : Fin 3 → Nat) a + S1x16x8192.size a ≤ S1x16x8192.size a
  h_S1x16x8192 : 0 < S1x16x8192.numel
  shapeCasts_S1x16x8192_S16x8192 : S1x16x8192.ShapeCasts S16x8192
  reduces_S16x8192_S16 : S16x8192.Reduces [1] S16
  shapeCasts_S16_S16x1 : S16.ShapeCasts S16x1
  shapeCasts_S16x16x1_S16x16 : S16x16x1.ShapeCasts S16x16
  reducesTo_S16x16_S16_d0 : S16x16.ReducesTo [0] S16
  h_S_ : 0 < S_.numel
  bcast_S_S16 : S_.BroadcastsInDim S16 (![] : Fin 0 → Fin S16.rank)
  inb_S1x16x16384_S1x16x16384_0_0_0 : ∀ a, (![0, 0, 0] : Fin 3 → Nat) a + S1x16x16384.size a ≤ S1x16x16384.size a
  h_S1x16x16384 : 0 < S1x16x16384.numel
  shapeCasts_S1x16x16384_S16x16384 : S1x16x16384.ShapeCasts S16x16384
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  slices_S16x16384_o0_15327_S16x1057 : S16x16384.Slices ![0, 15327] S16x1057
  slices_S16x16384_o0_0_S16x15327 : S16x16384.Slices ![0, 0] S16x15327
  concatenates_S16x1057_S16x15327_S16x16384_d1 : Shape.Concatenates [S16x1057, S16x15327] S16x16384 1
  inb_S27x16384_S1x16384_0_0 : ∀ a, (![0, 0] : Fin 2 → Nat) a + S1x16384.size a ≤ S27x16384.size a
  h_S1x16384 : 0 < S1x16384.numel
  broadcasts_S1x16384_S16x16384 : S1x16384.Broadcasts S16x16384
  inb_S432x16384_S16x16384_0_0 : ∀ a, (![0, 0] : Fin 2 → Nat) a + S16x16384.size a ≤ S432x16384.size a
  h_S16x16384 : 0 < S16x16384.numel
  shapeCasts_S16x16384_S16x16384 : S16x16384.ShapeCasts S16x16384
  slices_S16x16384_o0_15328_S16x1056 : S16x16384.Slices ![0, 15328] S16x1056
  slices_S16x16384_o0_0_S16x15328 : S16x16384.Slices ![0, 0] S16x15328
  concatenates_S16x1056_S16x15328_S16x16384_d1 : Shape.Concatenates [S16x1056, S16x15328] S16x16384 1
  inb_S27x16384_S1x16384_1_0 : ∀ a, (![1, 0] : Fin 2 → Nat) a + S1x16384.size a ≤ S27x16384.size a
  inb_S432x16384_S16x16384_16_0 : ∀ a, (![16, 0] : Fin 2 → Nat) a + S16x16384.size a ≤ S432x16384.size a
  slices_S16x16384_o0_15329_S16x1055 : S16x16384.Slices ![0, 15329] S16x1055
  slices_S16x16384_o0_0_S16x15329 : S16x16384.Slices ![0, 0] S16x15329
  concatenates_S16x1055_S16x15329_S16x16384_d1 : Shape.Concatenates [S16x1055, S16x15329] S16x16384 1
  inb_S27x16384_S1x16384_2_0 : ∀ a, (![2, 0] : Fin 2 → Nat) a + S1x16384.size a ≤ S27x16384.size a
  inb_S432x16384_S16x16384_32_0 : ∀ a, (![32, 0] : Fin 2 → Nat) a + S16x16384.size a ≤ S432x16384.size a
  slices_S16x16384_o0_15359_S16x1025 : S16x16384.Slices ![0, 15359] S16x1025
  slices_S16x16384_o0_0_S16x15359 : S16x16384.Slices ![0, 0] S16x15359
  concatenates_S16x1025_S16x15359_S16x16384_d1 : Shape.Concatenates [S16x1025, S16x15359] S16x16384 1
  inb_S27x16384_S1x16384_3_0 : ∀ a, (![3, 0] : Fin 2 → Nat) a + S1x16384.size a ≤ S27x16384.size a
  inb_S432x16384_S16x16384_48_0 : ∀ a, (![48, 0] : Fin 2 → Nat) a + S16x16384.size a ≤ S432x16384.size a
  slices_S16x16384_o0_15360_S16x1024 : S16x16384.Slices ![0, 15360] S16x1024
  slices_S16x16384_o0_0_S16x15360 : S16x16384.Slices ![0, 0] S16x15360
  concatenates_S16x1024_S16x15360_S16x16384_d1 : Shape.Concatenates [S16x1024, S16x15360] S16x16384 1
  inb_S27x16384_S1x16384_4_0 : ∀ a, (![4, 0] : Fin 2 → Nat) a + S1x16384.size a ≤ S27x16384.size a
  inb_S432x16384_S16x16384_64_0 : ∀ a, (![64, 0] : Fin 2 → Nat) a + S16x16384.size a ≤ S432x16384.size a
  slices_S16x16384_o0_15361_S16x1023 : S16x16384.Slices ![0, 15361] S16x1023
  slices_S16x16384_o0_0_S16x15361 : S16x16384.Slices ![0, 0] S16x15361
  concatenates_S16x1023_S16x15361_S16x16384_d1 : Shape.Concatenates [S16x1023, S16x15361] S16x16384 1
  inb_S27x16384_S1x16384_5_0 : ∀ a, (![5, 0] : Fin 2 → Nat) a + S1x16384.size a ≤ S27x16384.size a
  inb_S432x16384_S16x16384_80_0 : ∀ a, (![80, 0] : Fin 2 → Nat) a + S16x16384.size a ≤ S432x16384.size a
  slices_S16x16384_o0_15391_S16x993 : S16x16384.Slices ![0, 15391] S16x993
  slices_S16x16384_o0_0_S16x15391 : S16x16384.Slices ![0, 0] S16x15391
  concatenates_S16x993_S16x15391_S16x16384_d1 : Shape.Concatenates [S16x993, S16x15391] S16x16384 1
  inb_S27x16384_S1x16384_6_0 : ∀ a, (![6, 0] : Fin 2 → Nat) a + S1x16384.size a ≤ S27x16384.size a
  inb_S432x16384_S16x16384_96_0 : ∀ a, (![96, 0] : Fin 2 → Nat) a + S16x16384.size a ≤ S432x16384.size a
  slices_S16x16384_o0_15392_S16x992 : S16x16384.Slices ![0, 15392] S16x992
  slices_S16x16384_o0_0_S16x15392 : S16x16384.Slices ![0, 0] S16x15392
  concatenates_S16x992_S16x15392_S16x16384_d1 : Shape.Concatenates [S16x992, S16x15392] S16x16384 1
  inb_S27x16384_S1x16384_7_0 : ∀ a, (![7, 0] : Fin 2 → Nat) a + S1x16384.size a ≤ S27x16384.size a
  inb_S432x16384_S16x16384_112_0 : ∀ a, (![112, 0] : Fin 2 → Nat) a + S16x16384.size a ≤ S432x16384.size a
  slices_S16x16384_o0_15393_S16x991 : S16x16384.Slices ![0, 15393] S16x991
  slices_S16x16384_o0_0_S16x15393 : S16x16384.Slices ![0, 0] S16x15393
  concatenates_S16x991_S16x15393_S16x16384_d1 : Shape.Concatenates [S16x991, S16x15393] S16x16384 1
  inb_S27x16384_S1x16384_8_0 : ∀ a, (![8, 0] : Fin 2 → Nat) a + S1x16384.size a ≤ S27x16384.size a
  inb_S432x16384_S16x16384_128_0 : ∀ a, (![128, 0] : Fin 2 → Nat) a + S16x16384.size a ≤ S432x16384.size a
  slices_S16x16384_o0_16351_S16x33 : S16x16384.Slices ![0, 16351] S16x33
  slices_S16x16384_o0_0_S16x16351 : S16x16384.Slices ![0, 0] S16x16351
  concatenates_S16x33_S16x16351_S16x16384_d1 : Shape.Concatenates [S16x33, S16x16351] S16x16384 1
  inb_S27x16384_S1x16384_9_0 : ∀ a, (![9, 0] : Fin 2 → Nat) a + S1x16384.size a ≤ S27x16384.size a
  inb_S432x16384_S16x16384_144_0 : ∀ a, (![144, 0] : Fin 2 → Nat) a + S16x16384.size a ≤ S432x16384.size a
  slices_S16x16384_o0_16352_S16x32 : S16x16384.Slices ![0, 16352] S16x32
  slices_S16x16384_o0_0_S16x16352 : S16x16384.Slices ![0, 0] S16x16352
  concatenates_S16x32_S16x16352_S16x16384_d1 : Shape.Concatenates [S16x32, S16x16352] S16x16384 1
  inb_S27x16384_S1x16384_10_0 : ∀ a, (![10, 0] : Fin 2 → Nat) a + S1x16384.size a ≤ S27x16384.size a
  inb_S432x16384_S16x16384_160_0 : ∀ a, (![160, 0] : Fin 2 → Nat) a + S16x16384.size a ≤ S432x16384.size a
  slices_S16x16384_o0_16353_S16x31 : S16x16384.Slices ![0, 16353] S16x31
  slices_S16x16384_o0_0_S16x16353 : S16x16384.Slices ![0, 0] S16x16353
  concatenates_S16x31_S16x16353_S16x16384_d1 : Shape.Concatenates [S16x31, S16x16353] S16x16384 1
  inb_S27x16384_S1x16384_11_0 : ∀ a, (![11, 0] : Fin 2 → Nat) a + S1x16384.size a ≤ S27x16384.size a
  inb_S432x16384_S16x16384_176_0 : ∀ a, (![176, 0] : Fin 2 → Nat) a + S16x16384.size a ≤ S432x16384.size a
  slices_S16x16384_o0_16383_S16x1 : S16x16384.Slices ![0, 16383] S16x1
  slices_S16x16384_o0_0_S16x16383 : S16x16384.Slices ![0, 0] S16x16383
  concatenates_S16x1_S16x16383_S16x16384_d1 : Shape.Concatenates [S16x1, S16x16383] S16x16384 1
  inb_S27x16384_S1x16384_12_0 : ∀ a, (![12, 0] : Fin 2 → Nat) a + S1x16384.size a ≤ S27x16384.size a
  inb_S432x16384_S16x16384_192_0 : ∀ a, (![192, 0] : Fin 2 → Nat) a + S16x16384.size a ≤ S432x16384.size a
  inb_S27x16384_S1x16384_13_0 : ∀ a, (![13, 0] : Fin 2 → Nat) a + S1x16384.size a ≤ S27x16384.size a
  inb_S432x16384_S16x16384_208_0 : ∀ a, (![208, 0] : Fin 2 → Nat) a + S16x16384.size a ≤ S432x16384.size a
  slices_S16x16384_o0_1_S16x16383 : S16x16384.Slices ![0, 1] S16x16383
  slices_S16x16384_o0_0_S16x1 : S16x16384.Slices ![0, 0] S16x1
  concatenates_S16x16383_S16x1_S16x16384_d1 : Shape.Concatenates [S16x16383, S16x1] S16x16384 1
  inb_S27x16384_S1x16384_14_0 : ∀ a, (![14, 0] : Fin 2 → Nat) a + S1x16384.size a ≤ S27x16384.size a
  inb_S432x16384_S16x16384_224_0 : ∀ a, (![224, 0] : Fin 2 → Nat) a + S16x16384.size a ≤ S432x16384.size a
  slices_S16x16384_o0_31_S16x16353 : S16x16384.Slices ![0, 31] S16x16353
  slices_S16x16384_o0_0_S16x31 : S16x16384.Slices ![0, 0] S16x31
  concatenates_S16x16353_S16x31_S16x16384_d1 : Shape.Concatenates [S16x16353, S16x31] S16x16384 1
  inb_S27x16384_S1x16384_15_0 : ∀ a, (![15, 0] : Fin 2 → Nat) a + S1x16384.size a ≤ S27x16384.size a
  inb_S432x16384_S16x16384_240_0 : ∀ a, (![240, 0] : Fin 2 → Nat) a + S16x16384.size a ≤ S432x16384.size a
  slices_S16x16384_o0_32_S16x16352 : S16x16384.Slices ![0, 32] S16x16352
  slices_S16x16384_o0_0_S16x32 : S16x16384.Slices ![0, 0] S16x32
  concatenates_S16x16352_S16x32_S16x16384_d1 : Shape.Concatenates [S16x16352, S16x32] S16x16384 1
  inb_S27x16384_S1x16384_16_0 : ∀ a, (![16, 0] : Fin 2 → Nat) a + S1x16384.size a ≤ S27x16384.size a
  inb_S432x16384_S16x16384_256_0 : ∀ a, (![256, 0] : Fin 2 → Nat) a + S16x16384.size a ≤ S432x16384.size a
  slices_S16x16384_o0_33_S16x16351 : S16x16384.Slices ![0, 33] S16x16351
  slices_S16x16384_o0_0_S16x33 : S16x16384.Slices ![0, 0] S16x33
  concatenates_S16x16351_S16x33_S16x16384_d1 : Shape.Concatenates [S16x16351, S16x33] S16x16384 1
  inb_S27x16384_S1x16384_17_0 : ∀ a, (![17, 0] : Fin 2 → Nat) a + S1x16384.size a ≤ S27x16384.size a
  inb_S432x16384_S16x16384_272_0 : ∀ a, (![272, 0] : Fin 2 → Nat) a + S16x16384.size a ≤ S432x16384.size a
  slices_S16x16384_o0_991_S16x15393 : S16x16384.Slices ![0, 991] S16x15393
  slices_S16x16384_o0_0_S16x991 : S16x16384.Slices ![0, 0] S16x991
  concatenates_S16x15393_S16x991_S16x16384_d1 : Shape.Concatenates [S16x15393, S16x991] S16x16384 1
  inb_S27x16384_S1x16384_18_0 : ∀ a, (![18, 0] : Fin 2 → Nat) a + S1x16384.size a ≤ S27x16384.size a
  inb_S432x16384_S16x16384_288_0 : ∀ a, (![288, 0] : Fin 2 → Nat) a + S16x16384.size a ≤ S432x16384.size a
  slices_S16x16384_o0_992_S16x15392 : S16x16384.Slices ![0, 992] S16x15392
  slices_S16x16384_o0_0_S16x992 : S16x16384.Slices ![0, 0] S16x992
  concatenates_S16x15392_S16x992_S16x16384_d1 : Shape.Concatenates [S16x15392, S16x992] S16x16384 1
  inb_S27x16384_S1x16384_19_0 : ∀ a, (![19, 0] : Fin 2 → Nat) a + S1x16384.size a ≤ S27x16384.size a
  inb_S432x16384_S16x16384_304_0 : ∀ a, (![304, 0] : Fin 2 → Nat) a + S16x16384.size a ≤ S432x16384.size a
  slices_S16x16384_o0_993_S16x15391 : S16x16384.Slices ![0, 993] S16x15391
  slices_S16x16384_o0_0_S16x993 : S16x16384.Slices ![0, 0] S16x993
  concatenates_S16x15391_S16x993_S16x16384_d1 : Shape.Concatenates [S16x15391, S16x993] S16x16384 1
  inb_S27x16384_S1x16384_20_0 : ∀ a, (![20, 0] : Fin 2 → Nat) a + S1x16384.size a ≤ S27x16384.size a
  inb_S432x16384_S16x16384_320_0 : ∀ a, (![320, 0] : Fin 2 → Nat) a + S16x16384.size a ≤ S432x16384.size a
  slices_S16x16384_o0_1023_S16x15361 : S16x16384.Slices ![0, 1023] S16x15361
  slices_S16x16384_o0_0_S16x1023 : S16x16384.Slices ![0, 0] S16x1023
  concatenates_S16x15361_S16x1023_S16x16384_d1 : Shape.Concatenates [S16x15361, S16x1023] S16x16384 1
  inb_S27x16384_S1x16384_21_0 : ∀ a, (![21, 0] : Fin 2 → Nat) a + S1x16384.size a ≤ S27x16384.size a
  inb_S432x16384_S16x16384_336_0 : ∀ a, (![336, 0] : Fin 2 → Nat) a + S16x16384.size a ≤ S432x16384.size a
  slices_S16x16384_o0_1024_S16x15360 : S16x16384.Slices ![0, 1024] S16x15360
  slices_S16x16384_o0_0_S16x1024 : S16x16384.Slices ![0, 0] S16x1024
  concatenates_S16x15360_S16x1024_S16x16384_d1 : Shape.Concatenates [S16x15360, S16x1024] S16x16384 1
  inb_S27x16384_S1x16384_22_0 : ∀ a, (![22, 0] : Fin 2 → Nat) a + S1x16384.size a ≤ S27x16384.size a
  inb_S432x16384_S16x16384_352_0 : ∀ a, (![352, 0] : Fin 2 → Nat) a + S16x16384.size a ≤ S432x16384.size a
  slices_S16x16384_o0_1025_S16x15359 : S16x16384.Slices ![0, 1025] S16x15359
  slices_S16x16384_o0_0_S16x1025 : S16x16384.Slices ![0, 0] S16x1025
  concatenates_S16x15359_S16x1025_S16x16384_d1 : Shape.Concatenates [S16x15359, S16x1025] S16x16384 1
  inb_S27x16384_S1x16384_23_0 : ∀ a, (![23, 0] : Fin 2 → Nat) a + S1x16384.size a ≤ S27x16384.size a
  inb_S432x16384_S16x16384_368_0 : ∀ a, (![368, 0] : Fin 2 → Nat) a + S16x16384.size a ≤ S432x16384.size a
  slices_S16x16384_o0_1055_S16x15329 : S16x16384.Slices ![0, 1055] S16x15329
  slices_S16x16384_o0_0_S16x1055 : S16x16384.Slices ![0, 0] S16x1055
  concatenates_S16x15329_S16x1055_S16x16384_d1 : Shape.Concatenates [S16x15329, S16x1055] S16x16384 1
  inb_S27x16384_S1x16384_24_0 : ∀ a, (![24, 0] : Fin 2 → Nat) a + S1x16384.size a ≤ S27x16384.size a
  inb_S432x16384_S16x16384_384_0 : ∀ a, (![384, 0] : Fin 2 → Nat) a + S16x16384.size a ≤ S432x16384.size a
  slices_S16x16384_o0_1056_S16x15328 : S16x16384.Slices ![0, 1056] S16x15328
  slices_S16x16384_o0_0_S16x1056 : S16x16384.Slices ![0, 0] S16x1056
  concatenates_S16x15328_S16x1056_S16x16384_d1 : Shape.Concatenates [S16x15328, S16x1056] S16x16384 1
  inb_S27x16384_S1x16384_25_0 : ∀ a, (![25, 0] : Fin 2 → Nat) a + S1x16384.size a ≤ S27x16384.size a
  inb_S432x16384_S16x16384_400_0 : ∀ a, (![400, 0] : Fin 2 → Nat) a + S16x16384.size a ≤ S432x16384.size a
  slices_S16x16384_o0_1057_S16x15327 : S16x16384.Slices ![0, 1057] S16x15327
  slices_S16x16384_o0_0_S16x1057 : S16x16384.Slices ![0, 0] S16x1057
  concatenates_S16x15327_S16x1057_S16x16384_d1 : Shape.Concatenates [S16x15327, S16x1057] S16x16384 1
  inb_S27x16384_S1x16384_26_0 : ∀ a, (![26, 0] : Fin 2 → Nat) a + S1x16384.size a ≤ S27x16384.size a
  inb_S432x16384_S16x16384_416_0 : ∀ a, (![416, 0] : Fin 2 → Nat) a + S16x16384.size a ≤ S432x16384.size a
  inb_S16x432_S16x432_0_0 : ∀ a, (![0, 0] : Fin 2 → Nat) a + S16x432.size a ≤ S16x432.size a
  h_S16x432 : 0 < S16x432.numel
  inb_S432x16384_S432x16384_0_0 : ∀ a, (![0, 0] : Fin 2 → Nat) a + S432x16384.size a ≤ S432x16384.size a
  h_S432x16384 : 0 < S432x16384.numel
  shapeCasts_S16x16384_S1x16x16384 : S16x16384.ShapeCasts S1x16x16384
  shapeCasts_S16x16x16384_S16x16x16x32x32 : S16x16x16384.ShapeCasts S16x16x16x32x32
  dot_S16x432_S432x16384_S16x16384_1_0_0_1_n_n_wf : DotDims.WF S16x432 S432x16384 S16x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x8192.size a ≤ S16x16x16384.size a
  hwx0_0 : ∀ i : grid0.Coords, EltTy.bits .f32 = 32 ∨ (Rect.block (s := S16x16x16384) S1x16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x1.size a ≤ S16x16x1.size a
  hwx0_1 : ∀ i : grid0.Coords, EltTy.bits .f32 = 32 ∨ (Rect.block (s := S16x16x1) S1x16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S16x16x1.size a
  hwx0_2 : ∀ i : grid0.Coords, EltTy.bits .f32 = 32 ∨ (Rect.block (s := S16x16x1) S1x16x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x16384.size a ≤ S16x16x16384.size a
  hwx1_0 : ∀ i : grid1.Coords, EltTy.bits .f32 = 32 ∨ (Rect.block (s := S16x16x16384) S1x16x16384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1.size a ≤ S16x1.size a
  hwx1_1 : ∀ i : grid1.Coords, EltTy.bits .f32 = 32 ∨ (Rect.block (s := S16x1) S16x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x432.size a ≤ S16x432.size a
  hwx1_3 : ∀ i : grid1.Coords, EltTy.bits .f32 = 32 ∨ (Rect.block (s := S16x432) S16x432.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S27x16384.size a ≤ S27x16384.size a
  hwx1_5 : ∀ i : grid1.Coords, EltTy.bits .f32 = 32 ∨ (Rect.block (s := S27x16384) S27x16384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x16x16384.size a ≤ S16x16x16384.size a
  hwx1_6 : ∀ i : grid1.Coords, EltTy.bits .f32 = 32 ∨ (Rect.block (s := S16x16x16384) S1x16x16384.size (cc1_transform_6 i) (hinb1_6 i)).WholeWords (EltTy.packing .f32)

variable [Facts₀]

def dot_S16x432_S432x16384_S16x16384_1_0_0_1_n_n : DotDims S16x432 S432x16384 S16x16384 where
  lhsContracting := [1]
  rhsContracting := [0]
  lhsNonContracting := [0]
  rhsNonContracting := [1]
  lhsBatch := []
  rhsBatch := []
  wf := dot_S16x432_S432x16384_S16x16384_1_0_0_1_n_n_wf

abbrev win0_0 : Pipeline.Window sig grid0 :=
  Pipeline.Window.ofSpec (Memref.whole main_v0) S1x16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x16x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x16x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S16x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S16x432.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S27x16384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S1x16x16384.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.KernelRun.lean ====
/-
  The run of the idealized program with its RESULT array read: at the compiled mesh, from any memory with zero counters, every
  weakly fair execution of the program terminates, nothing faults, the result buffer ends at the contents the last host
  stretch leaves (the fold of the host stretches and of the two regions' write-backs from the launch memory), and the argument
  arrays end as launched. It is the launch over the program's segments (host stretch, region, host stretch, region, host
  stretch) with the final thread state read against the final memory at the result buffer as well as at the arguments.
-/
import proofs.«140524_g2000606239268051_pallasbulk_354_8_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunV

end
-- ==== Proof.ReferenceRun.lean ====
/-
  The run of the idealized program with its RESULT array read: at the compiled mesh, from any memory with zero counters, every
  weakly fair execution of the program terminates, nothing faults, the result buffer ends at the contents the last host
  stretch leaves (the fold of the host stretches and of the two regions' write-backs from the launch memory), and the argument
  arrays end as launched. It is the launch over the program's segments (host stretch, region, host stretch, region, host
  stretch) with the final thread state read against the final memory at the result buffer as well as at the arguments.
-/
import proofs.«140524_g2000606239268051_pallasbulk_354_8_alg».proof.Proof.Gen.ReferenceIdeal.Frame

set_option maxRecDepth 16384

noncomputable section

namespace Cert.ReferenceIdeal.RunV

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.ReferenceIdeal.RunV

end
-- ==== Proof.ConvTaps.lean ====
/-
  Index arithmetic of a 3x3x3 'same' convolution over a 16 x 32 x 32 volume whose voxels are flattened to 16384 lanes,
  s = (d*32 + h)*32 + w, with taps (kd, kh, kw) numbered t = (kd*3 + kh)*3 + kw.

  One side gathers, for every tap, the row rotated by the tap's flat offset (kd-1)*1024 + (kh-1)*32 + (kw-1) (modulo 16384)
  and multiplies by the tap's 0/1 boundary mask. The other side pads the row with one zero plane (1024 lanes) at each end of the
  depth axis (18432 lanes), rotates only by the in-plane offset (kh-1)*32 + (kw-1) (modulo 18432), multiplies by the
  in-plane mask (the depth-centred tap's mask at the lane's position within its plane, that is at depth 0), and reads depth
  tap kd as the window of 16384 lanes starting at lane kd*1024. tap_eq says the two gathered entries are equal, for every tap
  and voxel; contraction_split regroups a 432-term contraction as three 144-term ones added to a bias one after the other.
-/
import Mathlib.Tactic
import Mathlib.Algebra.BigOperators.Intervals

open scoped BigOperators

namespace Cert.ConvTaps

/-- Tap (kd, kh, kw) at voxel (d, h, w): the shifted voxel (d + kd - 1, h + kh - 1, w + kw - 1) lies inside the volume. -/
def inside (kd kh kw d h w : ℕ) : Prop :=
  1 ≤ d + kd ∧ d + kd ≤ 16 ∧ 1 ≤ h + kh ∧ h + kh ≤ 32 ∧ 1 ≤ w + kw ∧ w + kw ≤ 32

instance (kd kh kw d h w : ℕ) : Decidable (inside kd kh kw d h w) := by unfold inside; infer_instance

/-- The rotation of the 16384-lane row for a tap: entry s of the rotated row is entry (s + rotFull kd kh kw) % 16384. -/
def rotFull (kd kh kw : ℕ) : ℕ := (kd * 1024 + kh * 32 + kw + 15327) % 16384

/-- The rotation of the padded 18432-lane row for an in-plane tap. -/
def rotPlane (kh kw : ℕ) : ℕ := (kh * 32 + kw + 18399) % 18432

/-- The row padded with one zero plane before and after. -/
def padded {R : Type*} [Zero R] (x : ℕ → R) (j : ℕ) : R := if 1024 ≤ j ∧ j < 17408 then x (j - 1024) else 0

/-- The 0/1 boundary mask of a tap at a voxel. -/
def mask {R : Type*} [Zero R] [One R] (kd kh kw d h w : ℕ) : R := if inside kd kh kw d h w then 1 else 0

/-- The index facts behind tap_eq: where the full mask is 1 the in-plane mask is 1, the padded lane read lies in the data
    planes and is the shifted voxel; where the full mask is 0 but the in-plane mask is 1 the lane read lies in a zero plane. -/
theorem tap_index (kd kh kw d h w : ℕ) (hkd : kd < 3) (hkh : kh < 3) (hkw : kw < 3) (hd : d < 16) (hh : h < 32) (hw : w < 32) :
    (inside kd kh kw d h w → inside 1 kh kw 0 h w
        ∧ 1024 ≤ (kd * 1024 + ((d * 32 + h) * 32 + w) + rotPlane kh kw) % 18432
        ∧ (kd * 1024 + ((d * 32 + h) * 32 + w) + rotPlane kh kw) % 18432 < 17408
        ∧ (kd * 1024 + ((d * 32 + h) * 32 + w) + rotPlane kh kw) % 18432 - 1024
            = (((d * 32 + h) * 32 + w) + rotFull kd kh kw) % 16384)
    ∧ (¬ inside kd kh kw d h w → inside 1 kh kw 0 h w →
        ¬ (1024 ≤ (kd * 1024 + ((d * 32 + h) * 32 + w) + rotPlane kh kw) % 18432
            ∧ (kd * 1024 + ((d * 32 + h) * 32 + w) + rotPlane kh kw) % 18432 < 17408)) := by
  unfold inside rotPlane rotFull
  interval_cases kd <;> interval_cases kh <;> interval_cases kw <;> (constructor <;> intros <;> omega)

/-- Depth window kd of the padded, in-plane-rotated and in-plane-masked row is the fully rotated and fully masked row. -/
theorem tap_eq {R : Type*} [MulZeroOneClass R] (x : ℕ → R) (kd kh kw d h w : ℕ) (hkd : kd < 3) (hkh : kh < 3) (hkw : kw < 3)
    (hd : d < 16) (hh : h < 32) (hw : w < 32) :
    padded x ((kd * 1024 + ((d * 32 + h) * 32 + w) + rotPlane kh kw) % 18432) * mask 1 kh kw 0 h w
      = x ((((d * 32 + h) * 32 + w) + rotFull kd kh kw) % 16384) * mask kd kh kw d h w := by
  obtain ⟨k1, k2⟩ := tap_index kd kh kw d h w hkd hkh hkw hd hh hw
  unfold padded mask
  by_cases hin : inside kd kh kw d h w
  · obtain ⟨hin', hj1, hj2, he⟩ := k1 hin
    rw [if_pos hin, if_pos hin', if_pos ⟨hj1, hj2⟩, he]
  · rw [if_neg hin, mul_zero]
    by_cases hin' : inside 1 kh kw 0 h w
    · rw [if_neg (k2 hin hin'), zero_mul]
    · rw [if_neg hin', mul_zero]

/-- A 432-term contraction plus a bias is the bias with three 144-term contractions added one after the other. -/
theorem contraction_split {R : Type*} [AddCommMonoid R] (b : R) (g : ℕ → R) :
    ((b + ∑ r ∈ Finset.range 144, g r) + ∑ r ∈ Finset.range 144, g (144 + r)) + ∑ r ∈ Finset.range 144, g (288 + r)
      = (∑ r ∈ Finset.range 432, g r) + b := by
  have e : ∑ r ∈ Finset.range 432, g r
      = (∑ r ∈ Finset.range 144, g r + ∑ r ∈ Finset.range 144, g (144 + r)) + ∑ r ∈ Finset.range 144, g (288 + r) := by
    rw [show (432 : ℕ) = 288 + 144 from rfl, Finset.sum_range_add, show (288 : ℕ) = 144 + 144 from rfl, Finset.sum_range_add]
  rw [e]; abel

end Cert.ConvTaps
-- ==== Proof.MaskContract.lean ====
/-
  The boundary-mask contract read out of the precondition. The precondition's last conjunct says that the mask input equals,
  entry by entry, the 0/1 array that is 1 exactly where tap (kd, kh, kw) shifted from voxel (d, h, w) stays inside the
  16 x 32 x 32 volume, the six coordinates taken from a rank-6 index and the array reshaped to 27 rows (taps, row-major)
  by 16384 columns (voxels, row-major). So the mask input at row (kd*3 + kh)*3 + kw and column (d*32 + h)*32 + w is the
  boundary mask of that tap at that voxel.
-/
import proofs.«140524_g2000606239268051_pallasbulk_354_8_alg».proof.Pre_finite_inputs
import proofs.«140524_g2000606239268051_pallasbulk_354_8_alg».proof.Proof.ConvTaps
import Idealize.ShloMosaic.Lib.ReduceAll
import Idealize.ShloMosaic.Lib.IdealHost
import Idealize.ShloMosaic.Lib.Pipeline.Value
import Idealize.ShloMosaic.Lib.ValueIdx
import Idealize.ShloMosaic.Lib.ValueIdxRank6
import Idealize.ShloMosaic.PureOps.Ideal.Laws

set_option maxRecDepth 16384

noncomputable section

namespace Cert.MaskContract

open Idealize.ShloMosaic Idealize.ShloMosaic.ValueIdx Cert.Pre_finite_inputs Cert.Pre_finite_inputs.Facts

instance : Subsingleton S_.Idx := ⟨fun a b => funext fun d => d.elim0⟩

theorem and1 : ∀ (a b : BitVec 1), IntOp.andi a b = 1#1 ↔ a = 1#1 ∧ b = 1#1 := by decide

theorem ofBool_eq_one (b : Bool) : BitVec.ofBool b = 1#1 ↔ b = true := by cases b <;> decide

/-- A small natural number as a 32-bit word reads back as itself, signed. -/
theorem toInt_small (a : ℕ) (ha : a < 2147483648) : (BitVec.ofNat 32 a).toInt = (a : ℤ) := by
  have h1 : (BitVec.ofNat 32 a).toNat = a := by
    rw [BitVec.toNat_ofNat]; exact Nat.mod_eq_of_lt (by omega)
  unfold BitVec.toInt
  rw [h1]; split <;> omega

/-- Signed "at least" on the sum of two small words is "at least" on the numbers. -/
theorem sge_small (a b n : ℕ) (h : a + b < 2147483648) (hn : n < 2147483648) :
    IntOp.cmpi .sge (IntOp.addi (BitVec.ofNat 32 a) (BitVec.ofNat 32 b)) (BitVec.ofNat 32 n) = 1#1 ↔ n ≤ a + b := by
  unfold IntOp.cmpi IntOp.addi
  rw [ofBool_eq_one, ← BitVec.ofNat_add]
  simp only [BitVec.sle, decide_eq_true_eq]
  rw [toInt_small _ h, toInt_small _ hn]; omega

/-- Signed "at most" on the sum of two small words is "at most" on the numbers. -/
theorem sle_small (a b n : ℕ) (h : a + b < 2147483648) (hn : n < 2147483648) :
    IntOp.cmpi .sle (IntOp.addi (BitVec.ofNat 32 a) (BitVec.ofNat 32 b)) (BitVec.ofNat 32 n) = 1#1 ↔ a + b ≤ n := by
  unfold IntOp.cmpi IntOp.addi
  rw [ofBool_eq_one, ← BitVec.ofNat_add]
  simp only [BitVec.sle, decide_eq_true_eq]
  rw [toInt_small _ h, toInt_small _ hn]; omega

variable [Cert.Pre_finite_inputs.Facts]

/-- Under the precondition the mask input is the boundary mask, tap by tap and voxel by voxel. -/
theorem masks_eq (a0 : FVec Ideal S16x16x16x32x32 .f32) (a1 : FVec Ideal S16x432 .f32) (a2 : FVec Ideal S16x1 .f32)
    (a3 : FVec Ideal S27x16384 .f32) (a4 a5 : FVec Ideal S16 .f32)
    (hpre : fn (F := Ideal) a0 a1 a2 a3 a4 a5 = fun _ => 1#1) (kd kh kw : Fin 3) (d : Fin 16) (h w : Fin 32)
    (T : Fin 27) (S : Fin 16384) (hT : T.val = (kd.val * 3 + kh.val) * 3 + kw.val) (hS : S.val = (d.val * 32 + h.val) * 32 + w.val) :
    a3 (ix2 T S) = ConvTaps.mask kd.val kh.val kw.val d.val h.val w.val := by
  have e := congrFun hpre ix0
  unfold fn fn_part1 fn_part2 fn_part3 at e
  simp only [andi, and1] at e
  obtain ⟨-, e61⟩ := e
  have e60 := Host.reduce_andi_all _ _ _ _ _ e61 (ix2 T S)
  clear e61 hpre
  have hk : (S3x3x3x16x32x32.rowMajor (ix6 kd kh kw d h w)).val = (S27x16384.rowMajor (ix2 T S)).val := by
    rw [Shape.rowMajor_val_six, Shape.rowMajor_val_two]
    show (((((kd.val * 3 + kh.val) * 3 + kw.val) * 16 + d.val) * 32 + h.val) * 32 + w.val) = T.val * 16384 + S.val
    rw [hT, hS]; ring
  unfold cmpf at e60
  rw [shapeCast_apply _ _ (ix2 T S) (ix6 kd kh kw d h w) hk] at e60
  rw [Ideal.cmpf_def] at e60
  unfold Ideal.cmp at e60
  rw [ofBool_eq_one] at e60
  simp only [decide_eq_true_eq] at e60
  rw [e60]
  -- the six comparisons at this index are the six inequalities of the boundary test
  have c0 : (ix6 kd kh kw d h w : S3x3x3x16x32x32.Idx) 0 = kd := rfl
  have c1 : (ix6 kd kh kw d h w : S3x3x3x16x32x32.Idx) 1 = kh := rfl
  have c2 : (ix6 kd kh kw d h w : S3x3x3x16x32x32.Idx) 2 = kw := rfl
  have c3 : (ix6 kd kh kw d h w : S3x3x3x16x32x32.Idx) 3 = d := rfl
  have c4 : (ix6 kd kh kw d h w : S3x3x3x16x32x32.Idx) 4 = h := rfl
  have c5 : (ix6 kd kh kw d h w : S3x3x3x16x32x32.Idx) 5 = w := rfl
  have hkd := kd.isLt; have hkh := kh.isLt; have hkw := kw.isLt; have hd := d.isLt; have hh := h.isLt; have hw := w.isLt
  unfold uitofp
  simp only [andi, cmpi, addi, iotaInDim_apply, broadcastInDim_scalar_apply, constantI, c0, c1, c2, c3, c4, c5]
  have hb : (IntOp.andi (IntOp.andi (IntOp.andi (IntOp.andi (IntOp.andi
        (IntOp.cmpi .sge (IntOp.addi (BitVec.ofNat 32 d.val) (BitVec.ofNat 32 kd.val)) 1#32)
        (IntOp.cmpi .sle (IntOp.addi (BitVec.ofNat 32 d.val) (BitVec.ofNat 32 kd.val)) 16#32))
        (IntOp.cmpi .sge (IntOp.addi (BitVec.ofNat 32 h.val) (BitVec.ofNat 32 kh.val)) 1#32))
        (IntOp.cmpi .sle (IntOp.addi (BitVec.ofNat 32 h.val) (BitVec.ofNat 32 kh.val)) 32#32))
        (IntOp.cmpi .sge (IntOp.addi (BitVec.ofNat 32 w.val) (BitVec.ofNat 32 kw.val)) 1#32))
        (IntOp.cmpi .sle (IntOp.addi (BitVec.ofNat 32 w.val) (BitVec.ofNat 32 kw.val)) 32#32) = 1#1)
      ↔ ConvTaps.inside kd.val kh.val kw.val d.val h.val w.val := by
    simp only [and1]
    rw [sge_small _ _ 1 (by omega) (by omega), sle_small _ _ 16 (by omega) (by omega), sge_small _ _ 1 (by omega) (by omega),
      sle_small _ _ 32 (by omega) (by omega), sge_small _ _ 1 (by omega) (by omega), sle_small _ _ 32 (by omega) (by omega)]
    unfold ConvTaps.inside
    tauto
  have hbit : ∀ b : BitVec 1, (FloatOps.uitofp (F := Ideal) .f32 b : EReal) = if b = 1#1 then 1 else 0 := by
    intro b
    rcases (by decide : ∀ b : BitVec 1, b = 0#1 ∨ b = 1#1) b with rfl | rfl
    · show (((0#1 : BitVec 1).toNat : ℝ) : EReal) = _; simp
    · show (((1#1 : BitVec 1).toNat : ℝ) : EReal) = _; simp
  rw [hbit]
  unfold ConvTaps.mask
  exact if_congr hb rfl rfl

end Cert.MaskContract
end
-- ==== Proof.LibRoll.lean ====
/-
  A rotation of the lanes of a two-axis array, written as two unit-stride slices concatenated along the lane axis.

  For an m x n array x and a split n = a + b, the concatenation along axis 1 of the slice of width a starting at lane b
  followed by the slice of width b starting at lane 0 is x rotated by b lanes: its entry (p, q) is x (p, (q + b) mod n).
  (A rotation to the left by b lanes; a rotation to the right by a lanes is the same thing.)
-/
import Idealize.ShloMosaic.Lib.ValueIdx
import Idealize.ShloMosaic.Lib.Pipeline.Value

namespace Cert.LibRoll

open Idealize.ShloMosaic Idealize.ShloMosaic.ValueIdx

variable {α : Type}

/-- Two slices concatenated along the lanes read the array rotated by the first slice's starting lane. -/
theorem roll_apply {m n a b : ℕ} (hab : a + b = n) (x : (⟨2, ![m, n]⟩ : Shape).Idx → α)
    (h1 : (⟨2, ![m, n]⟩ : Shape).Slices ![0, b] ⟨2, ![m, a]⟩) (h2 : (⟨2, ![m, n]⟩ : Shape).Slices ![0, 0] ⟨2, ![m, b]⟩)
    (hc : Shape.Concatenates [(⟨2, ![m, a]⟩ : Shape), ⟨2, ![m, b]⟩] ⟨2, ![m, n]⟩ 1) (p : Fin m) (q : Fin n) :
    concatenate ⟨2, ![m, n]⟩ 1
        [⟨⟨2, ![m, a]⟩, extractStridedSlice ⟨2, ![m, a]⟩ ![0, b] x h1⟩, ⟨⟨2, ![m, b]⟩, extractStridedSlice ⟨2, ![m, b]⟩ ![0, 0] x h2⟩] hc
        (ix2 p q)
      = x (ix2 p ⟨(q.val + b) % n, Nat.mod_lt _ (Nat.lt_of_le_of_lt (Nat.zero_le _) q.isLt)⟩) := by
  have hq := q.isLt
  by_cases hlt : q.val < a
  · -- the lane lies in the first slice: no wrap
    rw [concatenate_pair_apply_left (t := ⟨2, ![m, n]⟩) (s₁ := ⟨2, ![m, a]⟩) (s₂ := ⟨2, ![m, b]⟩) (1 : Fin 2) _ _ hc (ix2 p q) rfl (ix2 p (⟨q.val, hlt⟩ : Fin a))
      (fun c => by match c with | ⟨0, _⟩ => rfl | ⟨1, _⟩ => rfl)]
    rw [extractStridedSlice_apply (s := ⟨2, ![m, n]⟩) (t := ⟨2, ![m, a]⟩) ![0, b] x h1 (ix2 p (⟨q.val, hlt⟩ : Fin a)) (ix2 p (⟨(q.val + b) % n, Nat.mod_lt _ (by omega)⟩ : Fin n))
      (fun c => by
        match c with
        | ⟨0, _⟩ => show p.val = 0 + p.val; omega
        | ⟨1, _⟩ => show (q.val + b) % n = b + q.val; rw [Nat.mod_eq_of_lt (by omega)]; omega)]
  · -- the lane lies in the second slice: it wraps round to the array's first lanes
    have hge : a ≤ q.val := Nat.le_of_not_lt hlt
    rw [concatenate_pair_apply_right (t := ⟨2, ![m, n]⟩) (s₁ := ⟨2, ![m, a]⟩) (s₂ := ⟨2, ![m, b]⟩) (1 : Fin 2) _ _ hc (ix2 p q) rfl rfl (ix2 p (⟨q.val - a, by omega⟩ : Fin b))
      (fun c hne => by
        match c with
        | ⟨0, _⟩ => rfl
        | ⟨1, _⟩ => exact absurd rfl hne)
      (by show (q.val - a) + a = q.val; omega)]
    rw [extractStridedSlice_apply (s := ⟨2, ![m, n]⟩) (t := ⟨2, ![m, b]⟩) ![0, 0] x h2 (ix2 p (⟨q.val - a, by omega⟩ : Fin b)) (ix2 p (⟨(q.val + b) % n, Nat.mod_lt _ (by omega)⟩ : Fin n))
      (fun c => by
        match c with
        | ⟨0, _⟩ => show p.val = 0 + p.val; omega
        | ⟨1, _⟩ =>
          show (q.val + b) % n = 0 + (q.val - a)
          have e : q.val + b = n + (q.val - a) := by omega
          rw [e, Nat.add_mod_left, Nat.mod_eq_of_lt (by omega)]; omega)]

end Cert.LibRoll
-- ==== Proof.KTaps.lean ====
/-
  The nine gathered slabs of the kernel program's second kernel, entry by entry. Slab u = kh*3 + kw of the scratch is the
  padded normalised row block rotated by the in-plane offset of tap (kh, kw) (modulo the 18432 padded lanes), times row u
  of the tiled in-plane masks broadcast over the 16 channels: entry (c, j) is  xp (c, (j + rot u) mod 18432) * masks (u, j),
  with rot u = 18399, 18400, 18401, 18431, 0, 1, 31, 32, 33.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws

set_option maxRecDepth 16384

noncomputable section

namespace Cert.KernelIdeal.Taps

open Cert.KernelIdeal Cert.KernelIdeal.Gen
open Idealize.ShloMosaic Idealize.ShloMosaic.ValueIdx

/-- Tap (0,0): the rotation by 18399 lanes of the padded block (built before the product). -/
theorem k1_pay4_apply (x0 x1 : Vec Ideal S16x16x1 .f32) (x2 x3 : Vec Ideal S16x1 .f32) (x4 : Vec Ideal S1x16x16384 .f32) (c : Fin 16) (j : Fin 18432) :
    k1_pay4 x0 x1 x2 x3 x4 (ix2 c j) = k1_pay3 x0 x1 x2 x3 x4 (ix2 c ⟨(j.val + 18399) % 18432, Nat.mod_lt _ (by norm_num)⟩) := by
  unfold k1_pay4
  exact Cert.LibRoll.roll_apply (a := 33) (b := 18399) rfl (k1_pay3 x0 x1 x2 x3 x4) _ _ _ c j

theorem k1_pay5_eq (v35 : Vec Ideal S1x18432 .f32) : k1_pay5 v35 = v35 := by
  unfold k1_pay5; rw [shapeCast_self]

/-- A slab with no rotation of its own: the block times the mask row. -/
theorem k1_pay6_apply (v34 : FVec Ideal S16x18432 .f32) (row : FVec Ideal S1x18432 .f32) (c : Fin 16) (j : Fin 18432) :
    k1_pay6 v34 row (ix2 c j) = v34 (ix2 c j) * row (ix2 (0 : Fin 1) j) := by
  unfold k1_pay6
  rw [shapeCast_self]
  refine congrArg₂ (fun a b : EReal => a * b) rfl ?_
  exact broadcastTo_apply (s := S1x18432) (t := S16x18432) row _ (ix2 c j) (ix2 (0 : Fin 1) j) (fun a => by match a with | ⟨0, _⟩ => rfl | ⟨1, _⟩ => rfl)

theorem k1_pay7_apply (v31 : FVec Ideal S16x18432 .f32) (row : Vec Ideal S1x18432 .f32) (c : Fin 16) (j : Fin 18432) :
    k1_pay7 v31 row (ix2 c j)
      = v31 (ix2 c ⟨(j.val + 18400) % 18432, Nat.mod_lt _ (by norm_num)⟩) * row (ix2 (0 : Fin 1) j) := by
  unfold k1_pay7
  rw [shapeCast_self, shapeCast_self]
  refine congrArg₂ (fun a b : EReal => a * b) ?_ ?_
  · exact Cert.LibRoll.roll_apply (a := 32) (b := 18400) rfl v31 _ _ _ c j
  · exact broadcastTo_apply (s := S1x18432) (t := S16x18432) row _ (ix2 c j) (ix2 (0 : Fin 1) j) (fun a => by match a with | ⟨0, _⟩ => rfl | ⟨1, _⟩ => rfl)

theorem k1_pay8_apply (v31 : FVec Ideal S16x18432 .f32) (row : Vec Ideal S1x18432 .f32) (c : Fin 16) (j : Fin 18432) :
    k1_pay8 v31 row (ix2 c j)
      = v31 (ix2 c ⟨(j.val + 18401) % 18432, Nat.mod_lt _ (by norm_num)⟩) * row (ix2 (0 : Fin 1) j) := by
  unfold k1_pay8
  rw [shapeCast_self, shapeCast_self]
  refine congrArg₂ (fun a b : EReal => a * b) ?_ ?_
  · exact Cert.LibRoll.roll_apply (a := 31) (b := 18401) rfl v31 _ _ _ c j
  · exact broadcastTo_apply (s := S1x18432) (t := S16x18432) row _ (ix2 c j) (ix2 (0 : Fin 1) j) (fun a => by match a with | ⟨0, _⟩ => rfl | ⟨1, _⟩ => rfl)

theorem k1_pay9_apply (v31 : FVec Ideal S16x18432 .f32) (row : Vec Ideal S1x18432 .f32) (c : Fin 16) (j : Fin 18432) :
    k1_pay9 v31 row (ix2 c j)
      = v31 (ix2 c ⟨(j.val + 18431) % 18432, Nat.mod_lt _ (by norm_num)⟩) * row (ix2 (0 : Fin 1) j) := by
  unfold k1_pay9
  rw [shapeCast_self, shapeCast_self]
  refine congrArg₂ (fun a b : EReal => a * b) ?_ ?_
  · exact Cert.LibRoll.roll_apply (a := 1) (b := 18431) rfl v31 _ _ _ c j
  · exact broadcastTo_apply (s := S1x18432) (t := S16x18432) row _ (ix2 c j) (ix2 (0 : Fin 1) j) (fun a => by match a with | ⟨0, _⟩ => rfl | ⟨1, _⟩ => rfl)

/-- The centre tap: no rotation. -/
theorem k1_pay10_apply (v31 : FVec Ideal S16x18432 .f32) (row : Vec Ideal S1x18432 .f32) (c : Fin 16) (j : Fin 18432) :
    k1_pay10 v31 row (ix2 c j) = v31 (ix2 c j) * row (ix2 (0 : Fin 1) j) := by
  unfold k1_pay10
  rw [shapeCast_self]
  refine congrArg₂ (fun a b : EReal => a * b) rfl ?_
  exact broadcastTo_apply (s := S1x18432) (t := S16x18432) row _ (ix2 c j) (ix2 (0 : Fin 1) j) (fun a => by match a with | ⟨0, _⟩ => rfl | ⟨1, _⟩ => rfl)

theorem k1_pay11_eq (v75 : FVec Ideal S16x18432 .f32) : k1_pay11 v75 = v75 := by
  unfold k1_pay11; rw [shapeCast_self]

theorem k1_pay12_apply (v31 : FVec Ideal S16x18432 .f32) (row : Vec Ideal S1x18432 .f32) (c : Fin 16) (j : Fin 18432) :
    k1_pay12 v31 row (ix2 c j)
      = v31 (ix2 c ⟨(j.val + 1) % 18432, Nat.mod_lt _ (by norm_num)⟩) * row (ix2 (0 : Fin 1) j) := by
  unfold k1_pay12
  rw [shapeCast_self, shapeCast_self]
  refine congrArg₂ (fun a b : EReal => a * b) ?_ ?_
  · exact Cert.LibRoll.roll_apply (a := 18431) (b := 1) rfl v31 _ _ _ c j
  · exact broadcastTo_apply (s := S1x18432) (t := S16x18432) row _ (ix2 c j) (ix2 (0 : Fin 1) j) (fun a => by match a with | ⟨0, _⟩ => rfl | ⟨1, _⟩ => rfl)

theorem k1_pay13_apply (v31 : FVec Ideal S16x18432 .f32) (row : Vec Ideal S1x18432 .f32) (c : Fin 16) (j : Fin 18432) :
    k1_pay13 v31 row (ix2 c j)
      = v31 (ix2 c ⟨(j.val + 31) % 18432, Nat.mod_lt _ (by norm_num)⟩) * row (ix2 (0 : Fin 1) j) := by
  unfold k1_pay13
  rw [shapeCast_self, shapeCast_self]
  refine congrArg₂ (fun a b : EReal => a * b) ?_ ?_
  · exact Cert.LibRoll.roll_apply (a := 18401) (b := 31) rfl v31 _ _ _ c j
  · exact broadcastTo_apply (s := S1x18432) (t := S16x18432) row _ (ix2 c j) (ix2 (0 : Fin 1) j) (fun a => by match a with | ⟨0, _⟩ => rfl | ⟨1, _⟩ => rfl)

theorem k1_pay14_apply (v31 : FVec Ideal S16x18432 .f32) (row : Vec Ideal S1x18432 .f32) (c : Fin 16) (j : Fin 18432) :
    k1_pay14 v31 row (ix2 c j)
      = v31 (ix2 c ⟨(j.val + 32) % 18432, Nat.mod_lt _ (by norm_num)⟩) * row (ix2 (0 : Fin 1) j) := by
  unfold k1_pay14
  rw [shapeCast_self, shapeCast_self]
  refine congrArg₂ (fun a b : EReal => a * b) ?_ ?_
  · exact Cert.LibRoll.roll_apply (a := 18400) (b := 32) rfl v31 _ _ _ c j
  · exact broadcastTo_apply (s := S1x18432) (t := S16x18432) row _ (ix2 c j) (ix2 (0 : Fin 1) j) (fun a => by match a with | ⟨0, _⟩ => rfl | ⟨1, _⟩ => rfl)

theorem k1_pay15_apply (v31 : FVec Ideal S16x18432 .f32) (row : Vec Ideal S1x18432 .f32) (c : Fin 16) (j : Fin 18432) :
    k1_pay15 v31 row (ix2 c j)
      = v31 (ix2 c ⟨(j.val + 33) % 18432, Nat.mod_lt _ (by norm_num)⟩) * row (ix2 (0 : Fin 1) j) := by
  unfold k1_pay15
  rw [shapeCast_self]
  refine congrArg₂ (fun a b : EReal => a * b) ?_ ?_
  · exact Cert.LibRoll.roll_apply (a := 18399) (b := 33) rfl v31 _ _ _ c j
  · exact broadcastTo_apply (s := S1x18432) (t := S16x18432) row _ (ix2 c j) (ix2 (0 : Fin 1) j) (fun a => by match a with | ⟨0, _⟩ => rfl | ⟨1, _⟩ => rfl)

theorem k1_pay1_eq (v115 : FVec Ideal S16x18432 .f32) : k1_pay1 v115 = v115 := by
  unfold k1_pay1; rw [shapeCast_self]

end Cert.KernelIdeal.Taps

end
-- ==== Proof.KScratch.lean ====
/-
  The gathered scratch of the kernel program's second kernel as ONE function of its index: entry (r, j) of the 144 x 18432
  scratch, r = u*16 + c, is the padded normalised row of channel c rotated by the in-plane offset of tap u, at lane j, times
  the tiled in-plane mask of tap u at lane j. Each of the nine 16-row slabs the body stores is the block of this function its
  rectangle names, so whatever is read back from the scratch after the nine stores is this function at the index read.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KTaps
set_option maxRecDepth 16384

noncomputable section

namespace Cert.KernelIdeal.Scratch

open Cert.KernelIdeal Cert.KernelIdeal.Gen
open Idealize.ShloMosaic Idealize.ShloMosaic.ValueIdx
open Cert.KernelIdeal.Taps

/-- Entry (r, j) of the gathered scratch. -/
def col (xp : FVec Ideal S16x18432 .f32) (x9 : Vec Ideal S9x18432 .f32) (y : S144x18432.Idx) : EReal :=
  xp (ix2 (⟨(y 0).val % 16, Nat.mod_lt _ (by norm_num)⟩ : Fin 16)
        (⟨((y 1).val + Cert.ConvTaps.rotPlane ((y 0).val / 16 / 3) ((y 0).val / 16 % 3)) % 18432, Nat.mod_lt _ (by norm_num)⟩ : Fin 18432))
    * x9 (ix2 (⟨(y 0).val / 16, by have h : (y 0).val < 144 := (y 0).isLt; omega⟩ : Fin 9) (⟨(y 1).val, (y 1).isLt⟩ : Fin 18432))

/-- A slab whose entries are the rotated block times mask row u is the block of col at rows u*16 .. u*16 + 15. -/
theorem slab_ok (xp : FVec Ideal S16x18432 .f32) (x9 : Vec Ideal S9x18432 .f32) (u : Fin 9) (b : ℕ)
    (hb : Cert.ConvTaps.rotPlane (u.val / 3) (u.val % 3) = b)
    (pay : S16x18432.Idx → EReal)
    (hpay : ∀ (c : Fin 16) (j : Fin 18432),
      pay (ix2 c j) = xp (ix2 c ⟨(j.val + b) % 18432, Nat.mod_lt _ (by norm_num)⟩) * x9 (ix2 u j))
    (off : Fin 2 → ℕ) (h0 : off 0 = 16 * u.val) (h1 : off 1 = 0) (inb : ∀ a, off a + S16x18432.size a ≤ S144x18432.size a)
    (x : S16x18432.Idx) :
    pay x = col xp x9 ((Rect.unit (s := S144x18432) off S16x18432.size inb).idx x) := by
  obtain ⟨c, j, rfl⟩ : ∃ (c : Fin 16) (j : Fin 18432), x = ix2 c j := ⟨x 0, x 1, eq_ix2 x⟩
  rw [hpay]
  unfold col
  have hc := c.isLt; have hu := u.isLt
  have e0 : ((Rect.unit (s := S144x18432) off S16x18432.size inb).idx (ix2 c j) 0).val = 16 * u.val + c.val := by
    show off 0 + 1 * c.val = _; omega
  have e1 : ((Rect.unit (s := S144x18432) off S16x18432.size inb).idx (ix2 c j) 1).val = j.val := by
    show off 1 + 1 * j.val = _; omega
  have q : (16 * u.val + c.val) / 16 = u.val := by omega
  have r : (16 * u.val + c.val) % 16 = c.val := by omega
  simp only [e0, e1, q, r, hb]

end Cert.KernelIdeal.Scratch

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.KConv.lean ====
/-
  The second kernel of the kernel program at one grid point, as a function of its ten input blocks. The nine slabs it stores
  into the scratch are blocks of ONE function of the scratch index (Proof/KScratch.lean), so each of the three windows it
  loads back (144 rows by 16384 lanes, starting at lanes 0, 1024, 2048) reads that function; the output block is the bias
  column with three 144-term contractions of the three weight slabs against those windows added one after the other.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KScratch
import proofs.«140524_g2000606239268051_pallasbulk_354_8_alg».proof.Proof.LibDense
import Idealize.ShloMosaic.Lib.Pipeline.FrameBody
set_option maxRecDepth 16384

noncomputable section

namespace Cert.KernelIdeal.Conv

open Cert.KernelIdeal Cert.KernelIdeal.Gen
open Idealize.ShloMosaic Idealize.ShloMosaic.ValueIdx
open Cert.KernelIdeal.Taps Cert.KernelIdeal.Scratch
open Idealize.ShloMosaic.Tactic

theorem hz2 : (![0, 0] : Fin 2 → ℕ) = fun _ => 0 := funext fun a => by fin_cases a <;> rfl
theorem hz3 : (![0, 0, 0] : Fin 3 → ℕ) = fun _ => 0 := funext fun a => by fin_cases a <;> rfl

/-- Row u of the tiled masks, as the body loads it. -/
theorem row_apply (x9 : Vec Ideal S9x18432 .f32) (u : Fin 9) (off : Fin 2 → ℕ) (h0 : off 0 = u.val) (h1 : off 1 = 0)
    (inb : ∀ a, off a + S1x18432.size a ≤ S9x18432.size a) (j : Fin 18432) :
    View.ld x9 (Rect.unit (s := S9x18432) off S1x18432.size inb) (ix2 (0 : Fin 1) j) = x9 (ix2 u j) := by
  show x9 ((Rect.unit (s := S9x18432) off S1x18432.size inb).idx (ix2 (0 : Fin 1) j)) = _
  congr 1; funext a; apply Fin.ext
  match a with
  | ⟨0, _⟩ => show off 0 + 1 * 0 = u.val; omega
  | ⟨1, _⟩ => show off 1 + 1 * j.val = j.val; omega

section
variable (c : Dev nD) (i : grid1.Coords) (arg1 : Memref sig .tc .vmem S16x16x1 .f32) (harg1 : arg1.IsWhole) (arg2 : Memref sig .tc .vmem S16x16x1 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S1x16x16384 .f32) (harg5 : arg5.IsWhole) (arg6 : Memref sig .tc .vmem S16x144 .f32) (harg6 : arg6.IsWhole) (arg7 : Memref sig .tc .vmem S16x144 .f32) (harg7 : arg7.IsWhole) (arg8 : Memref sig .tc .vmem S16x144 .f32) (harg8 : arg8.IsWhole) (arg9 : Memref sig .tc .vmem S16x1 .f32) (harg9 : arg9.IsWhole) (arg10 : Memref sig .tc .vmem S9x18432 .f32) (harg10 : arg10.IsWhole) (arg11 : Memref sig .tc .vmem S1x16x16384 .f32) (harg11 : arg11.IsWhole) (arg12 : Memref sig .tc .vmem S144x18432 .f32) (harg12 : arg12.IsWhole)
    (x0 : Vec Ideal S16x16x1 .f32) (x1 : Vec Ideal S16x16x1 .f32) (x2 : Vec Ideal S16x1 .f32) (x3 : Vec Ideal S16x1 .f32) (x4 : Vec Ideal S1x16x16384 .f32) (x5 : Vec Ideal S16x144 .f32) (x6 : Vec Ideal S16x144 .f32) (x7 : Vec Ideal S16x144 .f32) (x8 : Vec Ideal S16x1 .f32) (x9 : Vec Ideal S9x18432 .f32)

theorem row_read (r : Rect S9x18432) :
    View.readAt (Elt Ideal) arg10.view r.toLoadRect (harg10.unread x9) = View.ld x9 r := by
  rw [View.readAt_eq_ld, harg10.read_unread]

/-- The body's auxiliary name for the padded normalised block is that block's payload. -/
theorem r_eq : kernelRun1_A.sl.r (F := Ideal) c arg1 harg1 arg2 harg2 arg3 harg3 arg4 harg4 arg5 harg5 x0 x1 x2 x3 x4 = k1_pay3 x0 x1 x2 x3 x4 := by
  unfold kernelRun1_A.sl.r
  simp only [View.readAt_eq_ld, harg1.read_unread, harg2.read_unread, harg3.read_unread, harg4.read_unread, harg5.read_unread,
    View.ld_unit_zero (S := S16x16x1) hz3, View.ld_unit_zero (S := S16x1) hz2, View.ld_unit_zero (S := S1x16x16384) hz3]

theorem r1_eq : kernelRun1_A.sl.r_1 (F := Ideal) c arg1 harg1 arg2 harg2 arg3 harg3 arg4 harg4 arg5 harg5 x0 x1 x2 x3 x4 = k1_pay4 x0 x1 x2 x3 x4 := by
  unfold kernelRun1_A.sl.r_1
  simp only [View.readAt_eq_ld, harg1.read_unread, harg2.read_unread, harg3.read_unread, harg4.read_unread, harg5.read_unread,
    View.ld_unit_zero (S := S16x16x1) hz3, View.ld_unit_zero (S := S16x1) hz2, View.ld_unit_zero (S := S1x16x16384) hz3]

/-- Every slab the body stores is the block of col its rectangle names. -/
theorem pieces :
    ∀ p ∈ kernelRun1_A.sl.HS0_9 (F := Ideal) c arg1 harg1 arg2 harg2 arg3 harg3 arg4 harg4 arg5 harg5 arg10 harg10 x0 x1 x2 x3 x4 x9,
      ∀ x : p.1.shape.Idx, p.2 x = col (k1_pay3 x0 x1 x2 x3 x4) x9 (p.1.emb x) := by
  intro p hp
  unfold kernelRun1_A.sl.HS0_9 at hp
  simp only [List.mem_cons, List.not_mem_nil, or_false] at hp
  rcases hp with rfl | rfl | rfl | rfl | rfl | rfl | rfl | rfl | rfl
  · -- slab 8
    intro x
    refine slab_ok (k1_pay3 x0 x1 x2 x3 x4) x9 (8 : Fin 9) 33 rfl _ (fun cc j => ?_) ![128, 0] rfl rfl inb_S144x18432_S16x18432_128_0 x
    unfold kernelRun1_A.sl.r_4
    rw [k1_pay1_eq, r_eq, row_read]
    dsimp only
    rw [k1_pay15_apply, row_apply x9 (8 : Fin 9) _ rfl rfl]
  · -- slab 7
    intro x
    refine slab_ok (k1_pay3 x0 x1 x2 x3 x4) x9 (7 : Fin 9) 32 rfl _ (fun cc j => ?_) ![112, 0] rfl rfl inb_S144x18432_S16x18432_112_0 x
    rw [r_eq, row_read]
    dsimp only
    rw [k1_pay14_apply, row_apply x9 (7 : Fin 9) _ rfl rfl]
  · -- slab 6
    intro x
    refine slab_ok (k1_pay3 x0 x1 x2 x3 x4) x9 (6 : Fin 9) 31 rfl _ (fun cc j => ?_) ![96, 0] rfl rfl inb_S144x18432_S16x18432_96_0 x
    rw [r_eq, row_read]
    dsimp only
    rw [k1_pay13_apply, row_apply x9 (6 : Fin 9) _ rfl rfl]
  · -- slab 5
    intro x
    refine slab_ok (k1_pay3 x0 x1 x2 x3 x4) x9 (5 : Fin 9) 1 rfl _ (fun cc j => ?_) ![80, 0] rfl rfl inb_S144x18432_S16x18432_80_0 x
    rw [r_eq, row_read]
    dsimp only
    rw [k1_pay12_apply, row_apply x9 (5 : Fin 9) _ rfl rfl]
  · -- slab 4
    intro x
    refine slab_ok (k1_pay3 x0 x1 x2 x3 x4) x9 (4 : Fin 9) 0 rfl _ (fun cc j => ?_) ![64, 0] rfl rfl inb_S144x18432_S16x18432_64_0 x
    unfold kernelRun1_A.sl.r_3
    rw [k1_pay11_eq, r_eq, row_read]
    dsimp only
    rw [k1_pay10_apply, row_apply x9 (4 : Fin 9) _ rfl rfl]
    have e : (⟨(j.val + 0) % 18432, Nat.mod_lt _ (by norm_num)⟩ : Fin 18432) = j := Fin.ext (by
      show (j.val + 0) % 18432 = j.val; rw [Nat.add_zero, Nat.mod_eq_of_lt j.isLt])
    rw [e]
  · -- slab 3
    intro x
    refine slab_ok (k1_pay3 x0 x1 x2 x3 x4) x9 (3 : Fin 9) 18431 rfl _ (fun cc j => ?_) ![48, 0] rfl rfl inb_S144x18432_S16x18432_48_0 x
    rw [r_eq, row_read]
    dsimp only
    rw [k1_pay9_apply, row_apply x9 (3 : Fin 9) _ rfl rfl]
  · -- slab 2
    intro x
    refine slab_ok (k1_pay3 x0 x1 x2 x3 x4) x9 (2 : Fin 9) 18401 rfl _ (fun cc j => ?_) ![32, 0] rfl rfl inb_S144x18432_S16x18432_32_0 x
    rw [r_eq, row_read]
    dsimp only
    rw [k1_pay8_apply, row_apply x9 (2 : Fin 9) _ rfl rfl]
  · -- slab 1
    intro x
    refine slab_ok (k1_pay3 x0 x1 x2 x3 x4) x9 (1 : Fin 9) 18400 rfl _ (fun cc j => ?_) ![16, 0] rfl rfl inb_S144x18432_S16x18432_16_0 x
    rw [r_eq, row_read]
    dsimp only
    rw [k1_pay7_apply, row_apply x9 (1 : Fin 9) _ rfl rfl]
  · -- slab 0
    intro x
    refine slab_ok (k1_pay3 x0 x1 x2 x3 x4) x9 (0 : Fin 9) 18399 rfl _ (fun cc j => ?_) ![0, 0] rfl rfl inb_S144x18432_S16x18432_0_0 x
    unfold kernelRun1_A.sl.r_2
    rw [r1_eq, row_read, k1_pay5_eq]
    dsimp only
    rw [k1_pay6_apply, k1_pay4_apply, row_apply x9 (0 : Fin 9) _ rfl rfl]

/-- The nine slabs tile the scratch. -/
theorem cover (y : S144x18432.Idx) :
    ∃ p ∈ kernelRun1_A.sl.HS0_9 (F := Ideal) c arg1 harg1 arg2 harg2 arg3 harg3 arg4 harg4 arg5 harg5 arg10 harg10 x0 x1 x2 x3 x4 x9, y ∈ p.1.set :=
  View.cover_of_tiledL (kernelRun1_A.sl.HS0_9 (F := Ideal) c arg1 harg1 arg2 harg2 arg3 harg3 arg4 harg4 arg5 harg5 arg10 harg10 x0 x1 x2 x3 x4 x9) S16x18432.size (by sl_kernel_rfl) y

/-- The scratch after the nine stores, read anywhere. -/
theorem scratch_apply (y : S144x18432.Idx) :
    View.canon (kernelRun1_A.sl.HS0_9 (F := Ideal) c arg1 harg1 arg2 harg2 arg3 harg3 arg4 harg4 arg5 harg5 arg10 harg10 x0 x1 x2 x3 x4 x9) y
      = col (k1_pay3 x0 x1 x2 x3 x4) x9 y :=
  View.canon_apply_of_pieces _ _ (pieces c arg1 harg1 arg2 harg2 arg3 harg3 arg4 harg4 arg5 harg5 arg10 harg10 x0 x1 x2 x3 x4 x9) y (cover c arg1 harg1 arg2 harg2 arg3 harg3 arg4 harg4 arg5 harg5 arg10 harg10 x0 x1 x2 x3 x4 x9 y)

/-- A window of 144 rows by 16384 lanes starting at lane kd*1024, loaded after the nine stores. -/
theorem load_apply (kd : Fin 3) (off : Fin 2 → ℕ) (h0 : off 0 = 0) (h1 : off 1 = kd.val * 1024)
    (inb : ∀ a, off a + S144x16384.size a ≤ S144x18432.size a) (r : Fin 144) (s : Fin 16384) :
    arg12.view.readCov (kernelRun1_A.sl.HS0_9 (F := Ideal) c arg1 harg1 arg2 harg2 arg3 harg3 arg4 harg4 arg5 harg5 arg10 harg10 x0 x1 x2 x3 x4 x9)
        (Rect.unit (s := S144x18432) off S144x16384.size inb).toLoadRect (ix2 r s)
      = col (k1_pay3 x0 x1 x2 x3 x4) x9 (ix2 r (⟨kd.val * 1024 + s.val, by have := kd.isLt; have := s.isLt; omega⟩ : Fin 18432)) := by
  rw [View.readCov_eq_canon']
  show View.canon _ ((Rect.unit (s := S144x18432) off S144x16384.size inb).toLoadRect.idx (ix2 r s)) = _
  rw [scratch_apply]
  congr 1; funext a; apply Fin.ext
  match a with
  | ⟨0, _⟩ => show off 0 + 1 * r.val = r.val; omega
  | ⟨1, _⟩ => show off 1 + 1 * s.val = kd.val * 1024 + s.val; omega

end

/-- The output payload at (0, o, s): the bias column plus the three contractions, added in the body's order. -/
theorem pay2_apply (v119 : Vec Ideal S16x1 .f32) (v120 v126 v131 : Vec Ideal S16x144 .f32) (v122 v128 v133 : Vec Ideal S144x16384 .f32)
    (o : Fin 16) (s : Fin 16384) :
    k1_pay2 v119 v120 v122 v126 v128 v131 v133 (ix3 (0 : Fin 1) o s)
      = ((v119 (ix2 o (0 : Fin 1)) + ∑ r : Fin 144, v120 (ix2 o r) * v122 (ix2 r s))
          + ∑ r : Fin 144, v126 (ix2 o r) * v128 (ix2 r s)) + ∑ r : Fin 144, v131 (ix2 o r) * v133 (ix2 r s) := by
  unfold k1_pay2
  rw [shapeCast_apply (s := S16x16384) (t := S1x16x16384) _ _ (ix3 (0 : Fin 1) o s) (ix2 o s) (by
    rw [Shape.rowMajor_val_two, Shape.rowMajor_val_three]
    show o.val * 16384 + s.val = (0 * 16 + o.val) * 16384 + s.val
    omega)]
  rw [shapeCast_self, shapeCast_self, shapeCast_self]
  refine congrArg₂ (fun a b : EReal => a + b) (congrArg₂ (fun a b : EReal => a + b) (congrArg₂ (fun a b : EReal => a + b) ?_ ?_) ?_) ?_
  · exact broadcastTo_apply (s := S16x1) (t := S16x16384) v119 _ (ix2 o s) (ix2 o (0 : Fin 1)) (fun a => by match a with | ⟨0, _⟩ => rfl | ⟨1, _⟩ => rfl)
  · exact Cert.LibDense.plain_matmul_apply none v120 v122 o s
  · exact Cert.LibDense.plain_matmul_apply none v126 v128 o s
  · exact Cert.LibDense.plain_matmul_apply none v131 v133 o s

end Cert.KernelIdeal.Conv

end
-- ==== Proof.KOut.lean ====
/-
  The output block of the kernel program's second kernel at one grid point, entry by entry, as a function of the point's ten
  input blocks: entry (0, o, s) is the bias of o plus, one after the other, the three 144-term contractions of the weight
  slabs against the scratch function at lanes s, 1024 + s, 2048 + s.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KConv
import Idealize.ShloMosaic.Lib.Pipeline.FrameBody
set_option maxRecDepth 16384

noncomputable section

namespace Cert.KernelIdeal.Out

open Cert.KernelIdeal Cert.KernelIdeal.Gen
open Idealize.ShloMosaic Idealize.ShloMosaic.ValueIdx Idealize.ShloMosaic.TcCoe
open Idealize.SL.Sem
open Cert.KernelIdeal.Conv Cert.KernelIdeal.Scratch

/-- Entry (o, s) of the output block from the ten input blocks. -/
def outK (x0 x1 : Vec Ideal S16x16x1 .f32) (x2 x3 : Vec Ideal S16x1 .f32) (x4 : Vec Ideal S1x16x16384 .f32)
    (x5 x6 x7 : Vec Ideal S16x144 .f32) (x8 : Vec Ideal S16x1 .f32) (x9 : Vec Ideal S9x18432 .f32) (o : Fin 16) (s : Fin 16384) : EReal :=
  ((x8 (ix2 o (0 : Fin 1))
        + ∑ r : Fin 144, x5 (ix2 o r) * col (k1_pay3 x0 x1 x2 x3 x4) x9 (ix2 r (⟨(0 : Fin 3).val * 1024 + s.val, by have := s.isLt; simp; omega⟩ : Fin 18432)))
      + ∑ r : Fin 144, x6 (ix2 o r) * col (k1_pay3 x0 x1 x2 x3 x4) x9 (ix2 r (⟨(1 : Fin 3).val * 1024 + s.val, by have := s.isLt; simp; omega⟩ : Fin 18432)))
    + ∑ r : Fin 144, x7 (ix2 o r) * col (k1_pay3 x0 x1 x2 x3 x4) x9 (ix2 r (⟨(2 : Fin 3).val * 1024 + s.val, by have := s.isLt; simp; omega⟩ : Fin 18432))

section
variable (c : Dev nD) (i : grid1.Coords) (arg1 : Memref sig .tc .vmem S16x16x1 .f32) (harg1 : arg1.IsWhole) (arg2 : Memref sig .tc .vmem S16x16x1 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S1x16x16384 .f32) (harg5 : arg5.IsWhole) (arg6 : Memref sig .tc .vmem S16x144 .f32) (harg6 : arg6.IsWhole) (arg7 : Memref sig .tc .vmem S16x144 .f32) (harg7 : arg7.IsWhole) (arg8 : Memref sig .tc .vmem S16x144 .f32) (harg8 : arg8.IsWhole) (arg9 : Memref sig .tc .vmem S16x1 .f32) (harg9 : arg9.IsWhole) (arg10 : Memref sig .tc .vmem S9x18432 .f32) (harg10 : arg10.IsWhole) (arg11 : Memref sig .tc .vmem S1x16x16384 .f32) (harg11 : arg11.IsWhole) (arg12 : Memref sig .tc .vmem S144x18432 .f32) (harg12 : arg12.IsWhole)
    (x0 : Vec Ideal S16x16x1 .f32) (x1 : Vec Ideal S16x16x1 .f32) (x2 : Vec Ideal S16x1 .f32) (x3 : Vec Ideal S16x1 .f32) (x4 : Vec Ideal S1x16x16384 .f32) (x5 : Vec Ideal S16x144 .f32) (x6 : Vec Ideal S16x144 .f32) (x7 : Vec Ideal S16x144 .f32) (x8 : Vec Ideal S16x1 .f32) (x9 : Vec Ideal S9x18432 .f32)

theorem block_apply_raw (o : Fin 16) (s : Fin 16384) :
    out1_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix3 (0 : Fin 1) o s)
      = ((x8 (ix2 o (0 : Fin 1))
            + ∑ r : Fin 144, x5 (ix2 o r) * col (k1_pay3 x0 x1 x2 x3 x4) x9 (ix2 r (⟨(0 : Fin 3).val * 1024 + s.val, by have := s.isLt; simp; omega⟩ : Fin 18432)))
          + ∑ r : Fin 144, x6 (ix2 o r) * col (k1_pay3 x0 x1 x2 x3 x4) x9 (ix2 r (⟨(1 : Fin 3).val * 1024 + s.val, by have := s.isLt; simp; omega⟩ : Fin 18432)))
        + ∑ r : Fin 144, x7 (ix2 o r) * col (k1_pay3 x0 x1 x2 x3 x4) x9 (ix2 r (⟨(2 : Fin 3).val * 1024 + s.val, by have := s.isLt; simp; omega⟩ : Fin 18432)) := by
  unfold out1_A_10
  rw [View.read_writes_eq_canon _ _ _ (cover1_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun1_A
  dsimp only
  rw [View.canon_unit_zero hz3]
  rw [pay2_apply]
  refine congrArg₂ (fun a b : EReal => a + b) (congrArg₂ (fun a b : EReal => a + b) (congrArg₂ (fun a b : EReal => a + b) ?_ ?_) ?_) ?_
  · rw [View.readAt_eq_ld, harg9.read_unread]
    exact congrFun (View.ld_unit_zero (S := S16x1) hz2 _ x8) _
  · refine Finset.sum_congr rfl fun r _ => congrArg₂ (fun a b : EReal => a * b) ?_ ?_
    · rw [View.readAt_eq_ld, harg6.read_unread]
      exact congrFun (View.ld_unit_zero (S := S16x144) hz2 _ x5) _
    · unfold kernelRun1_A.sl.v122
      exact load_apply c arg1 harg1 arg2 harg2 arg3 harg3 arg4 harg4 arg5 harg5 arg10 harg10 arg12 x0 x1 x2 x3 x4 x9 (0 : Fin 3) ![0, 0] rfl rfl _ r s
  · refine Finset.sum_congr rfl fun r _ => congrArg₂ (fun a b : EReal => a * b) ?_ ?_
    · rw [View.readAt_eq_ld, harg7.read_unread]
      exact congrFun (View.ld_unit_zero (S := S16x144) hz2 _ x6) _
    · unfold kernelRun1_A.sl.v128
      exact load_apply c arg1 harg1 arg2 harg2 arg3 harg3 arg4 harg4 arg5 harg5 arg10 harg10 arg12 x0 x1 x2 x3 x4 x9 (1 : Fin 3) ![0, 1024] rfl rfl _ r s
  · refine Finset.sum_congr rfl fun r _ => congrArg₂ (fun a b : EReal => a * b) ?_ ?_
    · rw [View.readAt_eq_ld, harg8.read_unread]
      exact congrFun (View.ld_unit_zero (S := S16x144) hz2 _ x7) _
    · unfold kernelRun1_A.sl.v133
      exact load_apply c arg1 harg1 arg2 harg2 arg3 harg3 arg4 harg4 arg5 harg5 arg10 harg10 arg12 x0 x1 x2 x3 x4 x9 (2 : Fin 3) ![0, 2048] rfl rfl _ r s

theorem block_apply (o : Fin 16) (s : Fin 16384) :
    out1_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix3 (0 : Fin 1) o s) = outK x0 x1 x2 x3 x4 x5 x6 x7 x8 x9 o s :=
  block_apply_raw c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 o s

end

end Cert.KernelIdeal.Out

end
-- ==== Proof.KFinal.lean ====
/-
  After the second region of the kernel program: its 16 x 16 x 16384 output array holds, at (n, o, s), the output-block
  function of the region's input arrays with the input row block taken at item n. Grid point n writes block (n, all, all);
  every other window's block is its whole array at every point; the sixteen output blocks tile the array.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KOut
set_option maxRecDepth 16384

noncomputable section

namespace Cert.KernelIdeal.Final

open Cert.KernelIdeal Cert.KernelIdeal.Gen
open Idealize.ShloMosaic Idealize.ShloMosaic.ValueIdx Idealize.ShloMosaic.TcCoe
open Idealize.SL.Sem
open Cert.KernelIdeal.Out
open Idealize.ShloMosaic.Pipeline (Dat)

variable (V : (c : Dev nD) → (b : Ref sig .tc) → Buf (Elt Ideal) ((c : Thread nD τ).loc b))

/-- The output array's entry from the region's input arrays. -/
def GK (A0 A1 : S16x16x1.Idx → EReal) (A2 A3 : S16x1.Idx → EReal) (A4 : S16x16x16384.Idx → EReal)
    (A5 A6 A7 : S16x144.Idx → EReal) (A8 : S16x1.Idx → EReal) (A9 : S9x18432.Idx → EReal) (i : S16x16x16384.Idx) : EReal :=
  outK A0 A1 A2 A3
    (fun y => A4 (ix3 (⟨(i 0).val, (i 0).isLt⟩ : Fin 16) (⟨(y 1).val, (y 1).isLt⟩ : Fin 16) (⟨(y 2).val, (y 2).isLt⟩ : Fin 16384)))
    A5 A6 A7 A8 A9 (⟨(i 1).val, (i 1).isLt⟩ : Fin 16) (⟨(i 2).val, (i 2).isLt⟩ : Fin 16384)

/-- The printed index maps over the grid. -/
theorem idx_facts1 : ∀ t : Fin cfg1.N,
    win1_0.index t (0 : Fin 3) = 0
    ∧ win1_0.index t (1 : Fin 3) = 0
    ∧ win1_0.index t (2 : Fin 3) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 2) = 0
    ∧ win1_3.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_4.index t (0 : Fin 3) = t.val
    ∧ win1_4.index t (1 : Fin 3) = 0
    ∧ win1_4.index t (2 : Fin 3) = 0
    ∧ win1_10.index t (0 : Fin 3) = t.val
    ∧ win1_10.index t (1 : Fin 3) = 0
    ∧ win1_10.index t (2 : Fin 3) = 0 :=
  (by decide +kernel : ∀ t : Fin grid1.N, _)

set_option maxRecDepth 200000 in
theorem iblk_0 (c : Dev nD) (t : Fin cfg1.N) : iblk1 (F := Ideal) V c 0 t = V c main_v1_0 := by
  funext y
  unfold iblk1
  obtain ⟨f0, f1, f2, f3, f4, f5, f6, f7, f8, f9, f10, f11, f12, f13, f14, f15, f16, f17, f18, f19, f20, f21, f22, f23, f24, f25⟩ := idx_facts1 t
  show V c main_v1_0 (((cfg1.win 0).blk t).view.emb y) = V c main_v1_0 y
  congr 1; funext a; apply Fin.ext
  match a with
  | ⟨0, _⟩ => show win1_0.index t (0 : Fin 3) * 16 + 1 * (y 0).val = (y 0).val; omega
  | ⟨1, _⟩ => show win1_0.index t (1 : Fin 3) * 16 + 1 * (y 1).val = (y 1).val; omega
  | ⟨2, _⟩ => show win1_0.index t (2 : Fin 3) * 1 + 1 * (y 2).val = (y 2).val; omega

set_option maxRecDepth 200000 in
theorem iblk_1 (c : Dev nD) (t : Fin cfg1.N) : iblk1 (F := Ideal) V c 1 t = V c main_v1_1 := by
  funext y
  unfold iblk1
  obtain ⟨f0, f1, f2, f3, f4, f5, f6, f7, f8, f9, f10, f11, f12, f13, f14, f15, f16, f17, f18, f19, f20, f21, f22, f23, f24, f25⟩ := idx_facts1 t
  show V c main_v1_1 (((cfg1.win 1).blk t).view.emb y) = V c main_v1_1 y
  congr 1; funext a; apply Fin.ext
  match a with
  | ⟨0, _⟩ => show win1_1.index t (0 : Fin 3) * 16 + 1 * (y 0).val = (y 0).val; omega
  | ⟨1, _⟩ => show win1_1.index t (1 : Fin 3) * 16 + 1 * (y 1).val = (y 1).val; omega
  | ⟨2, _⟩ => show win1_1.index t (2 : Fin 3) * 1 + 1 * (y 2).val = (y 2).val; omega

set_option maxRecDepth 200000 in
theorem iblk_2 (c : Dev nD) (t : Fin cfg1.N) : iblk1 (F := Ideal) V c 2 t = V c main_v9 := by
  funext y
  unfold iblk1
  obtain ⟨f0, f1, f2, f3, f4, f5, f6, f7, f8, f9, f10, f11, f12, f13, f14, f15, f16, f17, f18, f19, f20, f21, f22, f23, f24, f25⟩ := idx_facts1 t
  show V c main_v9 (((cfg1.win 2).blk t).view.emb y) = V c main_v9 y
  congr 1; funext a; apply Fin.ext
  match a with
  | ⟨0, _⟩ => show win1_2.index t (0 : Fin 2) * 16 + 1 * (y 0).val = (y 0).val; omega
  | ⟨1, _⟩ => show win1_2.index t (1 : Fin 2) * 1 + 1 * (y 1).val = (y 1).val; omega

set_option maxRecDepth 200000 in
theorem iblk_3 (c : Dev nD) (t : Fin cfg1.N) : iblk1 (F := Ideal) V c 3 t = V c main_v10 := by
  funext y
  unfold iblk1
  obtain ⟨f0, f1, f2, f3, f4, f5, f6, f7, f8, f9, f10, f11, f12, f13, f14, f15, f16, f17, f18, f19, f20, f21, f22, f23, f24, f25⟩ := idx_facts1 t
  show V c main_v10 (((cfg1.win 3).blk t).view.emb y) = V c main_v10 y
  congr 1; funext a; apply Fin.ext
  match a with
  | ⟨0, _⟩ => show win1_3.index t (0 : Fin 2) * 16 + 1 * (y 0).val = (y 0).val; omega
  | ⟨1, _⟩ => show win1_3.index t (1 : Fin 2) * 1 + 1 * (y 1).val = (y 1).val; omega

set_option maxRecDepth 200000 in
theorem iblk_5 (c : Dev nD) (t : Fin cfg1.N) : iblk1 (F := Ideal) V c 5 t = V c main_v6 := by
  funext y
  unfold iblk1
  obtain ⟨f0, f1, f2, f3, f4, f5, f6, f7, f8, f9, f10, f11, f12, f13, f14, f15, f16, f17, f18, f19, f20, f21, f22, f23, f24, f25⟩ := idx_facts1 t
  show V c main_v6 (((cfg1.win 5).blk t).view.emb y) = V c main_v6 y
  congr 1; funext a; apply Fin.ext
  match a with
  | ⟨0, _⟩ => show win1_5.index t (0 : Fin 2) * 16 + 1 * (y 0).val = (y 0).val; omega
  | ⟨1, _⟩ => show win1_5.index t (1 : Fin 2) * 144 + 1 * (y 1).val = (y 1).val; omega

set_option maxRecDepth 200000 in
theorem iblk_6 (c : Dev nD) (t : Fin cfg1.N) : iblk1 (F := Ideal) V c 6 t = V c main_v7 := by
  funext y
  unfold iblk1
  obtain ⟨f0, f1, f2, f3, f4, f5, f6, f7, f8, f9, f10, f11, f12, f13, f14, f15, f16, f17, f18, f19, f20, f21, f22, f23, f24, f25⟩ := idx_facts1 t
  show V c main_v7 (((cfg1.win 6).blk t).view.emb y) = V c main_v7 y
  congr 1; funext a; apply Fin.ext
  match a with
  | ⟨0, _⟩ => show win1_6.index t (0 : Fin 2) * 16 + 1 * (y 0).val = (y 0).val; omega
  | ⟨1, _⟩ => show win1_6.index t (1 : Fin 2) * 144 + 1 * (y 1).val = (y 1).val; omega

set_option maxRecDepth 200000 in
theorem iblk_7 (c : Dev nD) (t : Fin cfg1.N) : iblk1 (F := Ideal) V c 7 t = V c main_v8 := by
  funext y
  unfold iblk1
  obtain ⟨f0, f1, f2, f3, f4, f5, f6, f7, f8, f9, f10, f11, f12, f13, f14, f15, f16, f17, f18, f19, f20, f21, f22, f23, f24, f25⟩ := idx_facts1 t
  show V c main_v8 (((cfg1.win 7).blk t).view.emb y) = V c main_v8 y
  congr 1; funext a; apply Fin.ext
  match a with
  | ⟨0, _⟩ => show win1_7.index t (0 : Fin 2) * 16 + 1 * (y 0).val = (y 0).val; omega
  | ⟨1, _⟩ => show win1_7.index t (1 : Fin 2) * 144 + 1 * (y 1).val = (y 1).val; omega

set_option maxRecDepth 200000 in
theorem iblk_8 (c : Dev nD) (t : Fin cfg1.N) : iblk1 (F := Ideal) V c 8 t = V c main_arg2 := by
  funext y
  unfold iblk1
  obtain ⟨f0, f1, f2, f3, f4, f5, f6, f7, f8, f9, f10, f11, f12, f13, f14, f15, f16, f17, f18, f19, f20, f21, f22, f23, f24, f25⟩ := idx_facts1 t
  show V c main_arg2 (((cfg1.win 8).blk t).view.emb y) = V c main_arg2 y
  congr 1; funext a; apply Fin.ext
  match a with
  | ⟨0, _⟩ => show win1_8.index t (0 : Fin 2) * 16 + 1 * (y 0).val = (y 0).val; omega
  | ⟨1, _⟩ => show win1_8.index t (1 : Fin 2) * 1 + 1 * (y 1).val = (y 1).val; omega

set_option maxRecDepth 200000 in
theorem iblk_9 (c : Dev nD) (t : Fin cfg1.N) : iblk1 (F := Ideal) V c 9 t = V c main_v5 := by
  funext y
  unfold iblk1
  obtain ⟨f0, f1, f2, f3, f4, f5, f6, f7, f8, f9, f10, f11, f12, f13, f14, f15, f16, f17, f18, f19, f20, f21, f22, f23, f24, f25⟩ := idx_facts1 t
  show V c main_v5 (((cfg1.win 9).blk t).view.emb y) = V c main_v5 y
  congr 1; funext a; apply Fin.ext
  match a with
  | ⟨0, _⟩ => show win1_9.index t (0 : Fin 2) * 9 + 1 * (y 0).val = (y 0).val; omega
  | ⟨1, _⟩ => show win1_9.index t (1 : Fin 2) * 18432 + 1 * (y 1).val = (y 1).val; omega

set_option maxRecDepth 200000 in
theorem iblk_4 (c : Dev nD) (t : Fin cfg1.N) :
    iblk1 (F := Ideal) V c 4 t = fun y => V c main_v0 (ix3 (⟨t.val, t.isLt⟩ : Fin 16) (⟨(y 1).val, (y 1).isLt⟩ : Fin 16) (⟨(y 2).val, (y 2).isLt⟩ : Fin 16384)) := by
  funext y
  unfold iblk1
  obtain ⟨f0, f1, f2, f3, f4, f5, f6, f7, f8, f9, f10, f11, f12, f13, f14, f15, f16, f17, f18, f19, f20, f21, f22, f23, f24, f25⟩ := idx_facts1 t
  have hy0 : (y 0).val = 0 := by have h : (y 0).val < 1 := (y 0).isLt; omega
  show V c main_v0 (((cfg1.win 4).blk t).view.emb y) = _
  congr 1; funext a; apply Fin.ext
  match a with
  | ⟨0, _⟩ => show win1_4.index t (0 : Fin 3) * 1 + 1 * (y 0).val = t.val; omega
  | ⟨1, _⟩ => show win1_4.index t (1 : Fin 3) * 16 + 1 * (y 1).val = (y 1).val; omega
  | ⟨2, _⟩ => show win1_4.index t (2 : Fin 3) * 16384 + 1 * (y 2).val = (y 2).val; omega

/-- The output block at point t, entry by entry. -/
theorem out_at (c : Dev nD) (t : Fin cfg1.N) (y : S1x16x16384.Idx) :
    outsAt1 (F := Ideal) V c t y
      = GK (V c main_v1_0) (V c main_v1_1) (V c main_v9) (V c main_v10) (V c main_v0) (V c main_v6) (V c main_v7) (V c main_v8)
          (V c main_arg2) (V c main_v5)
          (ix3 (⟨t.val, t.isLt⟩ : Fin 16) (⟨(y 1).val, (y 1).isLt⟩ : Fin 16) (⟨(y 2).val, (y 2).isLt⟩ : Fin 16384)) := by
  obtain ⟨z, o, s, rfl⟩ : ∃ (z : Fin 1) (o : Fin 16) (s : Fin 16384), y = ix3 z o s := ⟨y 0, y 1, y 2, eq_ix3 y⟩
  obtain rfl : z = 0 := Subsingleton.elim _ _
  unfold outsAt1
  rw [block_apply]
  rw [iblk_0 V c t, iblk_1 V c t, iblk_2 V c t, iblk_3 V c t, iblk_4 V c t, iblk_5 V c t, iblk_6 V c t, iblk_7 V c t, iblk_8 V c t, iblk_9 V c t]
  rfl

set_option maxRecDepth 200000 in
theorem flushed10_eq (c : Dev nD) (t : Fin cfg1.N) :
    (dat1 (F := Ideal) V c).flushed 10 t = ((cfg1.win 10).blk t).view.read (Elt Ideal)
      (GK (V c main_v1_0) (V c main_v1_1) (V c main_v9) (V c main_v10) (V c main_v0) (V c main_v6) (V c main_v7) (V c main_v8)
        (V c main_arg2) (V c main_v5)) := by
  show (cfg1.win 10).cut (grid1.coords t) ((dat1 V c).after 10 t) = _
  rw [after1_10]
  funext y
  show outsAt1 V c t y = GK _ _ _ _ _ _ _ _ _ _ (((cfg1.win 10).blk t).view.emb y)
  rw [out_at]
  obtain ⟨f0, f1, f2, f3, f4, f5, f6, f7, f8, f9, f10, f11, f12, f13, f14, f15, f16, f17, f18, f19, f20, f21, f22, f23, f24, f25⟩ := idx_facts1 t
  have hy0 : (y 0).val = 0 := by have h : (y 0).val < 1 := (y 0).isLt; omega
  congr 1; funext a; apply Fin.ext
  match a with
  | ⟨0, _⟩ => show t.val = win1_10.index t (0 : Fin 3) * 1 + 1 * (y 0).val; omega
  | ⟨1, _⟩ => show (y 1).val = win1_10.index t (1 : Fin 3) * 16 + 1 * (y 1).val; omega
  | ⟨2, _⟩ => show (y 2).val = win1_10.index t (2 : Fin 3) * 16384 + 1 * (y 2).val; omega

theorem mem_blk10 (t : Fin cfg1.N) (i : S16x16x16384.Idx) :
    i ∈ ((cfg1.win 10).blk t).view.set ↔ ∀ a : Fin 3, win1_10.index t a * S1x16x16384.size a ≤ (i a).val
      ∧ (i a).val < win1_10.index t a * S1x16x16384.size a + S1x16x16384.size a := by
  show i ∈ ((View.whole main_v11).slice (win1_10.rect t)).set ↔ _
  rw [View.set_slice_whole, Rect.mem_set_unit]
  exact Iff.rfl

/-- After the region the output array is the output function of the region's input arrays. -/
theorem final10 (c : Dev nD) : (dat1 (F := Ideal) V c).arrAt 10 cfg1.N
    = GK (V c main_v1_0) (V c main_v1_1) (V c main_v9) (V c main_v10) (V c main_v0) (V c main_v6) (V c main_v7) (V c main_v8)
        (V c main_arg2) (V c main_v5) :=
  (dat1 V c).arrAt_eq_of_cover 10 _ (fun t _ => flushed10_eq V c t) (fun i => by
    have hi0 : (i 0).val < 16 := (i 0).isLt
    have hi1 : (i 1).val < 16 := (i 1).isLt
    have hi2 : (i 2).val < 16384 := (i 2).isLt
    refine ⟨⟨(i 0).val, hi0⟩, flush1_10 _, ?_⟩
    rw [mem_blk10]
    obtain ⟨f0, f1, f2, f3, f4, f5, f6, f7, f8, f9, f10, f11, f12, f13, f14, f15, f16, f17, f18, f19, f20, f21, f22, f23, f24, f25⟩ := idx_facts1 ⟨(i 0).val, hi0⟩
    intro a
    match a with
    | ⟨0, _⟩ => show win1_10.index ⟨(i 0).val, hi0⟩ (0 : Fin 3) * 1 ≤ (i 0).val ∧ (i 0).val < win1_10.index ⟨(i 0).val, hi0⟩ (0 : Fin 3) * 1 + 1; simp only [f23]; omega
    | ⟨1, _⟩ => show win1_10.index ⟨(i 0).val, hi0⟩ (1 : Fin 3) * 16 ≤ (i 1).val ∧ (i 1).val < win1_10.index ⟨(i 0).val, hi0⟩ (1 : Fin 3) * 16 + 16; omega
    | ⟨2, _⟩ => show win1_10.index ⟨(i 0).val, hi0⟩ (2 : Fin 3) * 16384 ≤ (i 2).val ∧ (i 2).val < win1_10.index ⟨(i 0).val, hi0⟩ (2 : Fin 3) * 16384 + 16384; omega)

end Cert.KernelIdeal.Final

end
-- ==== Proof.KStats.lean ====
/-
  The first kernel of the kernel program: for batch item n (one grid point) and channel ch it sums the item's 16384 voxels of
  that channel, and their squares, into entry (n, ch, 0) of two 16 x 16 x 1 arrays. Each grid point writes the block
  (n, all channels, 0) of each array, the sixteen blocks tile the arrays, so after the region the arrays hold the row sums
  and the row sums of squares of the reshaped input, entry by entry.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws

set_option maxRecDepth 16384

noncomputable section

namespace Cert.KernelIdeal.Stats

open Cert.KernelIdeal Cert.KernelIdeal.Gen
open Idealize.ShloMosaic Idealize.ShloMosaic.ValueIdx
open Idealize.ShloMosaic.Pipeline (Dat)

theorem hz3 : (![0, 0, 0] : Fin 3 → ℕ) = fun _ => 0 := funext fun a => by fin_cases a <;> rfl

/-- The sum over the 16384 voxels of channel (i 1) of item (i 0). -/
def rowSum (X : S16x16x16384.Idx → EReal) (i : S16x16x1.Idx) : EReal :=
  ∑ j : Fin 16384, X (ix3 (⟨(i 0).val, (i 0).isLt⟩ : Fin 16) (⟨(i 1).val, (i 1).isLt⟩ : Fin 16) j)

/-- The same sum of squares. -/
def rowSumSq (X : S16x16x16384.Idx → EReal) (i : S16x16x1.Idx) : EReal :=
  ∑ j : Fin 16384, X (ix3 (⟨(i 0).val, (i 0).isLt⟩ : Fin 16) (⟨(i 1).val, (i 1).isLt⟩ : Fin 16) j)
    * X (ix3 (⟨(i 0).val, (i 0).isLt⟩ : Fin 16) (⟨(i 1).val, (i 1).isLt⟩ : Fin 16) j)

/-- The block's row viewed 16 x 16384, at the index a lane sum inserts. -/
theorem row_at (x0 : Vec Ideal S1x16x16384 .f32) (ch : Fin 16) (k : Fin 16384) (h : S16x16384.Reduces [1] S16) :
    shapeCast S16x16384 x0 shapeCasts_S1x16x16384_S16x16384 (h.lift (ix1 ch) k) = x0 (ix3 (0 : Fin 1) ch k) :=
  shapeCast_apply _ _ _ _ (by
    rw [Shape.rowMajor_val_three, Shape.rowMajor_val_two]
    show (0 * 16 + ch.val) * 16384 + k.val = ch.val * 16384 + k.val
    omega)

theorem pay2_apply (x0 : Vec Ideal S1x16x16384 .f32) (y : S1x16x1.Idx) :
    k0_pay2 x0 y = ∑ j : Fin 16384, x0 (ix3 (0 : Fin 1) (⟨(y 1).val, (y 1).isLt⟩ : Fin 16) j) := by
  unfold k0_pay2 k0_pay1
  have h0 : (y 0).val = 0 := by have h : (y 0).val < 1 := (y 0).isLt; omega
  have h2 : (y 2).val = 0 := by have h : (y 2).val < 1 := (y 2).isLt; omega
  rw [shapeCast_apply (s := S16x1) (t := S1x16x1) _ _ y (ix2 (⟨(y 1).val, (y 1).isLt⟩ : Fin 16) (0 : Fin 1)) (by
    rw [Shape.rowMajor_val_two, Shape.rowMajor_val_three]
    show (y 1).val * 1 + 0 = ((y 0).val * 16 + (y 1).val) * 1 + (y 2).val
    omega)]
  rw [shapeCast_apply (s := S16) (t := S16x1) _ _ _ (ix1 (⟨(y 1).val, (y 1).isLt⟩ : Fin 16)) (by
    rw [Shape.rowMajor_val_one, Shape.rowMajor_val_two]
    show (y 1).val = (y 1).val * 1 + 0
    omega)]
  refine (Ideal.multiReduction_add_single _ _ _ _ _ _).trans ?_
  exact Finset.sum_congr rfl fun k _ => row_at x0 _ k _

theorem pay3_apply (x0 : Vec Ideal S1x16x16384 .f32) (y : S1x16x1.Idx) :
    k0_pay3 x0 y = ∑ j : Fin 16384, x0 (ix3 (0 : Fin 1) (⟨(y 1).val, (y 1).isLt⟩ : Fin 16) j)
      * x0 (ix3 (0 : Fin 1) (⟨(y 1).val, (y 1).isLt⟩ : Fin 16) j) := by
  unfold k0_pay3 k0_pay1
  have h0 : (y 0).val = 0 := by have h : (y 0).val < 1 := (y 0).isLt; omega
  have h2 : (y 2).val = 0 := by have h : (y 2).val < 1 := (y 2).isLt; omega
  rw [shapeCast_apply (s := S16x1) (t := S1x16x1) _ _ y (ix2 (⟨(y 1).val, (y 1).isLt⟩ : Fin 16) (0 : Fin 1)) (by
    rw [Shape.rowMajor_val_two, Shape.rowMajor_val_three]
    show (y 1).val * 1 + 0 = ((y 0).val * 16 + (y 1).val) * 1 + (y 2).val
    omega)]
  rw [shapeCast_apply (s := S16) (t := S16x1) _ _ _ (ix1 (⟨(y 1).val, (y 1).isLt⟩ : Fin 16)) (by
    rw [Shape.rowMajor_val_one, Shape.rowMajor_val_two]
    show (y 1).val = (y 1).val * 1 + 0
    omega)]
  refine (Ideal.multiReduction_add_single _ _ _ _ _ _).trans ?_
  refine Finset.sum_congr rfl fun k _ => ?_
  exact congrArg₂ (fun a b : EReal => a * b) (row_at x0 _ k _) (row_at x0 _ k _)

end Cert.KernelIdeal.Stats

end
-- ==== Proof.KStatsArr.lean ====
/-
  After the first region of the kernel program: the two 16 x 16 x 1 arrays hold, at (n, ch, 0), the sum over the 16384 voxels
  of channel ch of item n of the reshaped input, and the same sum of squares. Grid point n writes block (n, all, 0) of each,
  which reads the point's input block (item n, all channels, all voxels); the sixteen blocks tile each array.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KStats
set_option maxRecDepth 16384

noncomputable section

namespace Cert.KernelIdeal.StatsArr

open Cert.KernelIdeal Cert.KernelIdeal.Gen
open Idealize.ShloMosaic Idealize.ShloMosaic.ValueIdx Idealize.ShloMosaic.TcCoe
open Idealize.SL.Sem
open Cert.KernelIdeal.Stats
open Idealize.ShloMosaic.Pipeline (Dat)

variable (V : (c : Dev nD) → (b : Ref sig .tc) → Buf (Elt Ideal) ((c : Thread nD τ).loc b))

/-- The printed index maps over the grid: every window's block at point t is (t, 0, 0). -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

set_option maxRecDepth 200000 in
/-- What point t writes back to output 1 is block t of the row sums of the region-entry input array. -/
theorem flushed1_eq (c : Dev nD) (t : Fin cfg0.N) :
    (dat0 (F := Ideal) V c).flushed 1 t = ((cfg0.win 1).blk t).view.read (Elt Ideal) (rowSum (V c main_v0)) := by
  show (cfg0.win 1).cut (grid0.coords t) ((dat0 V c).after 1 t) = _
  rw [after0_1]
  unfold out0_1
  rw [View.canon_unit_zero hz3]
  simp only [View.ld_unit_zero (S := S1x16x16384) hz3]
  funext y
  show k0_pay2 (iblk0 V c 0 t) y = rowSum (V c main_v0) (((cfg0.win 1).blk t).view.emb y)
  rw [pay2_apply]
  unfold rowSum
  refine Finset.sum_congr rfl fun j _ => ?_
  unfold iblk0
  obtain ⟨e0, e1, e2, f0, f1, f2, g0, g1, g2⟩ := idx_facts0 t
  have hy0 : (y 0).val = 0 := by have h : (y 0).val < 1 := (y 0).isLt; omega
  have key : ((cfg0.win 0).blk t).view.emb (ix3 (0 : Fin 1) (⟨(y 1).val, (y 1).isLt⟩ : Fin 16) j)
      = ix3 (⟨(((cfg0.win 1).blk t).view.emb y 0).val, (((cfg0.win 1).blk t).view.emb y 0).isLt⟩ : Fin 16)
          (⟨(((cfg0.win 1).blk t).view.emb y 1).val, (((cfg0.win 1).blk t).view.emb y 1).isLt⟩ : Fin 16) j := by
    funext a; apply Fin.ext
    match a with
    | ⟨0, _⟩ => show win0_0.index t (0 : Fin 3) * 1 + 1 * 0 = win0_1.index t (0 : Fin 3) * 1 + 1 * (y 0).val; omega
    | ⟨1, _⟩ => show win0_0.index t (1 : Fin 3) * 16 + 1 * (y 1).val = win0_1.index t (1 : Fin 3) * 16 + 1 * (y 1).val; omega
    | ⟨2, _⟩ => show win0_0.index t (2 : Fin 3) * 16384 + 1 * j.val = j.val; omega
  exact congrArg (V c main_v0) key

theorem mem_blk1 (t : Fin cfg0.N) (i : S16x16x1.Idx) :
    i ∈ ((cfg0.win 1).blk t).view.set ↔ ∀ a : Fin 3, win0_1.index t a * S1x16x1.size a ≤ (i a).val
      ∧ (i a).val < win0_1.index t a * S1x16x1.size a + S1x16x1.size a := by
  show i ∈ ((View.whole main_v1_0).slice (win0_1.rect t)).set ↔ _
  rw [View.set_slice_whole, Rect.mem_set_unit]
  exact Iff.rfl

/-- After the region output 1 holds the row sums. -/
theorem final1 (c : Dev nD) : (dat0 (F := Ideal) V c).arrAt 1 cfg0.N = rowSum (V c main_v0) :=
  (dat0 V c).arrAt_eq_of_cover 1 (rowSum (V c main_v0)) (fun t _ => flushed1_eq V c t) (fun i => by
    have hi0 : (i 0).val < 16 := (i 0).isLt
    have hi1 : (i 1).val < 16 := (i 1).isLt
    have hi2 : (i 2).val < 1 := (i 2).isLt
    refine ⟨⟨(i 0).val, hi0⟩, flush0_1 _, ?_⟩
    rw [mem_blk1]
    obtain ⟨e0, e1, e2, f0, f1, f2, g0, g1, g2⟩ := idx_facts0 ⟨(i 0).val, hi0⟩
    intro a
    match a with
    | ⟨0, _⟩ => show win0_1.index ⟨(i 0).val, hi0⟩ (0 : Fin 3) * 1 ≤ (i 0).val ∧ (i 0).val < win0_1.index ⟨(i 0).val, hi0⟩ (0 : Fin 3) * 1 + 1; simp only [f0]; omega
    | ⟨1, _⟩ => show win0_1.index ⟨(i 0).val, hi0⟩ (1 : Fin 3) * 16 ≤ (i 1).val ∧ (i 1).val < win0_1.index ⟨(i 0).val, hi0⟩ (1 : Fin 3) * 16 + 16; omega
    | ⟨2, _⟩ => show win0_1.index ⟨(i 0).val, hi0⟩ (2 : Fin 3) * 1 ≤ (i 2).val ∧ (i 2).val < win0_1.index ⟨(i 0).val, hi0⟩ (2 : Fin 3) * 1 + 1; omega)

set_option maxRecDepth 200000 in
/-- What point t writes back to output 2 is block t of the row sums of squares of the region-entry input array. -/
theorem flushed2_eq (c : Dev nD) (t : Fin cfg0.N) :
    (dat0 (F := Ideal) V c).flushed 2 t = ((cfg0.win 2).blk t).view.read (Elt Ideal) (rowSumSq (V c main_v0)) := by
  show (cfg0.win 2).cut (grid0.coords t) ((dat0 V c).after 2 t) = _
  rw [after0_2]
  unfold out0_2
  rw [View.canon_unit_zero hz3]
  simp only [View.ld_unit_zero (S := S1x16x16384) hz3]
  funext y
  show k0_pay3 (iblk0 V c 0 t) y = rowSumSq (V c main_v0) (((cfg0.win 2).blk t).view.emb y)
  rw [pay3_apply]
  unfold rowSumSq
  refine Finset.sum_congr rfl fun j _ => ?_
  unfold iblk0
  obtain ⟨e0, e1, e2, f0, f1, f2, g0, g1, g2⟩ := idx_facts0 t
  have hy0 : (y 0).val = 0 := by have h : (y 0).val < 1 := (y 0).isLt; omega
  have key : ((cfg0.win 0).blk t).view.emb (ix3 (0 : Fin 1) (⟨(y 1).val, (y 1).isLt⟩ : Fin 16) j)
      = ix3 (⟨(((cfg0.win 2).blk t).view.emb y 0).val, (((cfg0.win 2).blk t).view.emb y 0).isLt⟩ : Fin 16)
          (⟨(((cfg0.win 2).blk t).view.emb y 1).val, (((cfg0.win 2).blk t).view.emb y 1).isLt⟩ : Fin 16) j := by
    funext a; apply Fin.ext
    match a with
    | ⟨0, _⟩ => show win0_0.index t (0 : Fin 3) * 1 + 1 * 0 = win0_2.index t (0 : Fin 3) * 1 + 1 * (y 0).val; omega
    | ⟨1, _⟩ => show win0_0.index t (1 : Fin 3) * 16 + 1 * (y 1).val = win0_2.index t (1 : Fin 3) * 16 + 1 * (y 1).val; omega
    | ⟨2, _⟩ => show win0_0.index t (2 : Fin 3) * 16384 + 1 * j.val = j.val; omega
  exact congrArg₂ (fun a b : EReal => a * b) (congrArg (V c main_v0) key) (congrArg (V c main_v0) key)

theorem mem_blk2 (t : Fin cfg0.N) (i : S16x16x1.Idx) :
    i ∈ ((cfg0.win 2).blk t).view.set ↔ ∀ a : Fin 3, win0_2.index t a * S1x16x1.size a ≤ (i a).val
      ∧ (i a).val < win0_2.index t a * S1x16x1.size a + S1x16x1.size a := by
  show i ∈ ((View.whole main_v1_1).slice (win0_2.rect t)).set ↔ _
  rw [View.set_slice_whole, Rect.mem_set_unit]
  exact Iff.rfl

/-- After the region output 2 holds the row sums of squares. -/
theorem final2 (c : Dev nD) : (dat0 (F := Ideal) V c).arrAt 2 cfg0.N = rowSumSq (V c main_v0) :=
  (dat0 V c).arrAt_eq_of_cover 2 (rowSumSq (V c main_v0)) (fun t _ => flushed2_eq V c t) (fun i => by
    have hi0 : (i 0).val < 16 := (i 0).isLt
    have hi1 : (i 1).val < 16 := (i 1).isLt
    have hi2 : (i 2).val < 1 := (i 2).isLt
    refine ⟨⟨(i 0).val, hi0⟩, flush0_2 _, ?_⟩
    rw [mem_blk2]
    obtain ⟨e0, e1, e2, f0, f1, f2, g0, g1, g2⟩ := idx_facts0 ⟨(i 0).val, hi0⟩
    intro a
    match a with
    | ⟨0, _⟩ => show win0_2.index ⟨(i 0).val, hi0⟩ (0 : Fin 3) * 1 ≤ (i 0).val ∧ (i 0).val < win0_2.index ⟨(i 0).val, hi0⟩ (0 : Fin 3) * 1 + 1; simp only [g0]; omega
    | ⟨1, _⟩ => show win0_2.index ⟨(i 0).val, hi0⟩ (1 : Fin 3) * 16 ≤ (i 1).val ∧ (i 1).val < win0_2.index ⟨(i 0).val, hi0⟩ (1 : Fin 3) * 16 + 16; omega
    | ⟨2, _⟩ => show win0_2.index ⟨(i 0).val, hi0⟩ (2 : Fin 3) * 1 ≤ (i 2).val ∧ (i 2).val < win0_2.index ⟨(i 0).val, hi0⟩ (2 : Fin 3) * 1 + 1; omega)

end Cert.KernelIdeal.StatsArr

end
-- ==== Proof.KHost.lean ====
/-
  What the second region of the kernel program finds in its input arrays, read back to the launch memory: the two statistics
  arrays are the row sums and row sums of squares of the reshaped input; the reshaped input itself; gamma and beta as columns;
  the three 144-column slabs of the weights; the bias; and the nine in-plane mask rows (rows 9..17 of the mask input, first
  1024 columns) repeated along the 18 planes of the padded row.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KStatsArr
import Idealize.ShloMosaic.Lib.StableHlo.Run
set_option maxRecDepth 16384

noncomputable section

namespace Cert.KernelIdeal.Host

open Cert.KernelIdeal Cert.KernelIdeal.Gen
open Idealize.ShloMosaic Idealize.ShloMosaic.ValueIdx Idealize.ShloMosaic.TcCoe
open Idealize.SL.Sem
open Cert.KernelIdeal.Stats Cert.KernelIdeal.StatsArr
open Idealize.ShloMosaic.Pipeline (Dat)
open Idealize.ShloMosaic.Tactic

variable (m : (ℓ : Loc nD τ sig) → Buf (Elt Ideal) ℓ) (ρ : Dev nD → PrngReg)

theorem W2_arg1 (c : Dev nD) : W2 (F := Ideal) m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W2_arg2 (c : Dev nD) : W2 (F := Ideal) m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem W2_arg3 (c : Dev nD) : W2 (F := Ideal) m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W2_arg4 (c : Dev nD) : W2 (F := Ideal) m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem W2_arg5 (c : Dev nD) : W2 (F := Ideal) m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- The reshaped input, as the first region finds it. -/
theorem V1_v0 (c : Dev nD) :
    (V1 (F := Ideal) m ρ c main_v0 : S16x16x16384.Idx → EReal)
      = shapeCast S16x16x16384 (m ((c : Thread nD τ).loc main_arg0)) shapeCasts_S16x16x16x32x32_S16x16x16384 := by
  show StableHlo.after hostOps0 (W0 m ρ c) (Proc.devRef .tc main_v0) = _
  after_results
  rfl

/-- The second region finds the reshaped input unchanged. -/
theorem V3_v0 (c : Dev nD) : V3 (F := Ideal) m ρ c main_v0 = V1 m ρ c main_v0 :=
  calc W3 m ρ c (Proc.devRef .tc main_v0)
    _ = W2 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0

/-- The row sums. -/
theorem V3_v1_0 (c : Dev nD) : V3 (F := Ideal) m ρ c main_v1_0 = rowSum (V1 m ρ c main_v0) :=
  calc W3 m ρ c (Proc.devRef .tc main_v1_0)
    _ = W2 m ρ c (Proc.devRef .tc main_v1_0) := StableHlo.after_of_forall_not_mem (b := Proc.devRef .tc main_v1_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 1 cfg0.N := W2_arr m ρ c 1
    _ = rowSum (V1 m ρ c main_v0) := final1 (V1 m ρ) c

/-- The row sums of squares. -/
theorem V3_v1_1 (c : Dev nD) : V3 (F := Ideal) m ρ c main_v1_1 = rowSumSq (V1 m ρ c main_v0) :=
  calc W3 m ρ c (Proc.devRef .tc main_v1_1)
    _ = W2 m ρ c (Proc.devRef .tc main_v1_1) := StableHlo.after_of_forall_not_mem (b := Proc.devRef .tc main_v1_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V1 m ρ) c).arrAt 2 cfg0.N := W2_arr m ρ c 2
    _ = rowSumSq (V1 m ρ c main_v0) := final2 (V1 m ρ) c

/-- The bias. -/
theorem V3_arg2 (c : Dev nD) : V3 (F := Ideal) m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := W2_arg2 m ρ c

/-- gamma as a column. -/
theorem V3_v9 (c : Dev nD) :
    (V3 (F := Ideal) m ρ c main_v9 : S16x1.Idx → EReal) = shapeCast S16x1 (m ((c : Thread nD τ).loc main_arg4)) shapeCasts_S16_S16x1 := by
  show StableHlo.after hostOps1 (W2 m ρ c) (Proc.devRef .tc main_v9) = _
  after_results
  exact congrArg (fun a => shapeCast S16x1 a shapeCasts_S16_S16x1) (W2_arg4 m ρ c)

/-- beta as a column. -/
theorem V3_v10 (c : Dev nD) :
    (V3 (F := Ideal) m ρ c main_v10 : S16x1.Idx → EReal) = shapeCast S16x1 (m ((c : Thread nD τ).loc main_arg5)) shapeCasts_S16_S16x1 := by
  show StableHlo.after hostOps1 (W2 m ρ c) (Proc.devRef .tc main_v10) = _
  after_results
  exact congrArg (fun a => shapeCast S16x1 a shapeCasts_S16_S16x1) (W2_arg5 m ρ c)

/-- The three weight slabs. -/
theorem V3_v6 (c : Dev nD) :
    (V3 (F := Ideal) m ρ c main_v6 : S16x144.Idx → EReal)
      = extractStridedSlice S16x144 ![0, 0] (m ((c : Thread nD τ).loc main_arg1)) slices_S16x432_S16x144_0_0 := by
  show StableHlo.after hostOps1 (W2 m ρ c) (Proc.devRef .tc main_v6) = _
  after_results
  exact congrArg (fun a => extractStridedSlice S16x144 ![0, 0] a slices_S16x432_S16x144_0_0) (W2_arg1 m ρ c)

theorem V3_v7 (c : Dev nD) :
    (V3 (F := Ideal) m ρ c main_v7 : S16x144.Idx → EReal)
      = extractStridedSlice S16x144 ![0, 144] (m ((c : Thread nD τ).loc main_arg1)) slices_S16x432_S16x144_0_144 := by
  show StableHlo.after hostOps1 (W2 m ρ c) (Proc.devRef .tc main_v7) = _
  after_results
  exact congrArg (fun a => extractStridedSlice S16x144 ![0, 144] a slices_S16x432_S16x144_0_144) (W2_arg1 m ρ c)

theorem V3_v8 (c : Dev nD) :
    (V3 (F := Ideal) m ρ c main_v8 : S16x144.Idx → EReal)
      = extractStridedSlice S16x144 ![0, 288] (m ((c : Thread nD τ).loc main_arg1)) slices_S16x432_S16x144_0_288 := by
  show StableHlo.after hostOps1 (W2 m ρ c) (Proc.devRef .tc main_v8) = _
  after_results
  exact congrArg (fun a => extractStridedSlice S16x144 ![0, 288] a slices_S16x432_S16x144_0_288) (W2_arg1 m ρ c)

/-- The in-plane masks tiled over the padded row. -/
theorem V3_v5 (c : Dev nD) :
    (V3 (F := Ideal) m ρ c main_v5 : S9x18432.Idx → EReal)
      = shapeCast S9x18432 (broadcastInDim S1x9x18x1024 ![0, 1, 2, 3] bcast_S1x9x1x1024_S1x9x18x1024_0_1_2_3
          (shapeCast S1x9x1x1024 (extractStridedSlice S9x1024 ![9, 0] (m ((c : Thread nD τ).loc main_arg3)) slices_S27x16384_S9x1024_9_0)
            shapeCasts_S9x1024_S1x9x1x1024)) shapeCasts_S1x9x18x1024_S9x18432 := by
  show StableHlo.after hostOps1 (W2 m ρ c) (Proc.devRef .tc main_v5) = _
  after_results
  exact congrArg (fun a => shapeCast S9x18432 (broadcastInDim S1x9x18x1024 ![0, 1, 2, 3] bcast_S1x9x1x1024_S1x9x18x1024_0_1_2_3
          (shapeCast S1x9x1x1024 (extractStridedSlice S9x1024 ![9, 0] a slices_S27x16384_S9x1024_9_0)
            shapeCasts_S9x1024_S1x9x1x1024)) shapeCasts_S1x9x18x1024_S9x18432) (W2_arg3 m ρ c)

/-! ## The same arrays, entry by entry -/

/-- A length-16 vector reshaped to a 16 x 1 column, at (ch, 0). -/
theorem col_apply (v : S16.Idx → EReal) (ch : Fin 16) :
    shapeCast S16x1 v shapeCasts_S16_S16x1 (ix2 ch (0 : Fin 1)) = v (ix1 ch) :=
  shapeCast_apply _ _ _ _ (by
    rw [Shape.rowMajor_val_one, Shape.rowMajor_val_two]
    show ch.val = ch.val * 1 + 0
    omega)

/-- A 144-column slab of the weights starting at column off, at (o, r). -/
theorem slab_apply (w : S16x432.Idx → EReal) (off : ℕ) (h : S16x432.Slices ![0, off] S16x144) (hoff : off + 144 ≤ 432)
    (o : Fin 16) (r : Fin 144) :
    extractStridedSlice S16x144 ![0, off] w h (ix2 o r) = w (ix2 o (⟨off + r.val, by have := r.isLt; omega⟩ : Fin 432)) :=
  extractStridedSlice_apply _ _ _ _ _ (fun a => by
    match a with
    | ⟨0, _⟩ => show o.val = 0 + o.val; omega
    | ⟨1, _⟩ => rfl)

/-- The tiled in-plane masks at (u, j): row 9 + u of the mask input at the lane's position within its plane. -/
theorem hw_apply (M : S27x16384.Idx → EReal) (u : Fin 9) (j : Fin 18432) :
    shapeCast S9x18432 (broadcastInDim S1x9x18x1024 ![0, 1, 2, 3] bcast_S1x9x1x1024_S1x9x18x1024_0_1_2_3
        (shapeCast S1x9x1x1024 (extractStridedSlice S9x1024 ![9, 0] M slices_S27x16384_S9x1024_9_0)
          shapeCasts_S9x1024_S1x9x1x1024)) shapeCasts_S1x9x18x1024_S9x18432 (ix2 u j)
      = M (ix2 (⟨9 + u.val, by have := u.isLt; omega⟩ : Fin 27) (⟨j.val % 1024, by omega⟩ : Fin 16384)) := by
  have hj := j.isLt
  rw [shapeCast_apply (s := S1x9x18x1024) (t := S9x18432) _ _ (ix2 u j)
    (ix4 (0 : Fin 1) u (⟨j.val / 1024, by omega⟩ : Fin 18) (⟨j.val % 1024, Nat.mod_lt _ (by norm_num)⟩ : Fin 1024)) (by
      rw [Shape.rowMajor_val_four, Shape.rowMajor_val_two]
      show ((0 * 9 + u.val) * 18 + j.val / 1024) * 1024 + j.val % 1024 = u.val * 18432 + j.val
      omega)]
  rw [broadcastInDim_apply (s := S1x9x1x1024) (t := S1x9x18x1024) ![0, 1, 2, 3] _ _ _
    (ix4 (0 : Fin 1) u (0 : Fin 1) (⟨j.val % 1024, Nat.mod_lt _ (by norm_num)⟩ : Fin 1024)) (fun a => by
      match a with
      | ⟨0, _⟩ => rfl
      | ⟨1, _⟩ => rfl
      | ⟨2, _⟩ => rfl
      | ⟨3, _⟩ => rfl)]
  rw [shapeCast_apply (s := S9x1024) (t := S1x9x1x1024) _ _ _ (ix2 u (⟨j.val % 1024, Nat.mod_lt _ (by norm_num)⟩ : Fin 1024)) (by
      rw [Shape.rowMajor_val_two, Shape.rowMajor_val_four]
      show u.val * 1024 + j.val % 1024 = ((0 * 9 + u.val) * 1 + 0) * 1024 + j.val % 1024
      omega)]
  exact extractStridedSlice_apply _ _ _ _ _ (fun a => by
    match a with
    | ⟨0, _⟩ => rfl
    | ⟨1, _⟩ => show j.val % 1024 = 0 + j.val % 1024; omega)

end Cert.KernelIdeal.Host

end
-- ==== Proof.KValue.lean ====
/-
  The kernel program's second region's output array as a function of the launch memory: the output function (Proof/KFinal.lean)
  of the row sums and row sums of squares of the reshaped input, gamma and beta as columns, the reshaped input, the three
  weight slabs, the bias and the tiled in-plane masks.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.KFinal
import proofs.«140524_g2000606239268051_pallasbulk_354_8_alg».proof.Proof.KHost
import Idealize.ShloMosaic.Lib.StableHlo.Run
set_option maxRecDepth 16384

noncomputable section

namespace Cert.KernelIdeal.Value

open Cert.KernelIdeal Cert.KernelIdeal.Gen
open Idealize.ShloMosaic Idealize.ShloMosaic.ValueIdx Idealize.ShloMosaic.TcCoe
open Idealize.SL.Sem
open Cert.KernelIdeal.Final Cert.KernelIdeal.Host Cert.KernelIdeal.Stats
open Idealize.ShloMosaic.Pipeline (Dat)
open Idealize.ShloMosaic.Tactic

variable (m : (ℓ : Loc nD τ sig) → Buf (Elt Ideal) ℓ) (ρ : Dev nD → PrngReg)

/-- The tiled in-plane masks as a function of the mask input. -/
def hwOf (M : S27x16384.Idx → EReal) : S9x18432.Idx → EReal :=
  shapeCast S9x18432 (broadcastInDim S1x9x18x1024 ![0, 1, 2, 3] bcast_S1x9x1x1024_S1x9x18x1024_0_1_2_3
    (shapeCast S1x9x1x1024 (extractStridedSlice S9x1024 ![9, 0] M slices_S27x16384_S9x1024_9_0)
      shapeCasts_S9x1024_S1x9x1x1024)) shapeCasts_S1x9x18x1024_S9x18432

/-- The reshaped input. -/
def x3Of (x : S16x16x16x32x32.Idx → EReal) : S16x16x16384.Idx → EReal :=
  shapeCast S16x16x16384 x shapeCasts_S16x16x16x32x32_S16x16x16384

theorem array_eq (c : Dev nD) :
    (dat1 (F := Ideal) (V3 m ρ) c).arrAt 10 cfg1.N
      = GK (rowSum (x3Of (m ((c : Thread nD τ).loc main_arg0)))) (rowSumSq (x3Of (m ((c : Thread nD τ).loc main_arg0))))
          (shapeCast S16x1 (m ((c : Thread nD τ).loc main_arg4)) shapeCasts_S16_S16x1)
          (shapeCast S16x1 (m ((c : Thread nD τ).loc main_arg5)) shapeCasts_S16_S16x1)
          (x3Of (m ((c : Thread nD τ).loc main_arg0)))
          (extractStridedSlice S16x144 ![0, 0] (m ((c : Thread nD τ).loc main_arg1)) slices_S16x432_S16x144_0_0)
          (extractStridedSlice S16x144 ![0, 144] (m ((c : Thread nD τ).loc main_arg1)) slices_S16x432_S16x144_0_144)
          (extractStridedSlice S16x144 ![0, 288] (m ((c : Thread nD τ).loc main_arg1)) slices_S16x432_S16x144_0_288)
          (m ((c : Thread nD τ).loc main_arg2))
          (hwOf (m ((c : Thread nD τ).loc main_arg3))) := by
  rw [final10 (V3 m ρ) c]
  rw [V3_v1_0 m ρ c, V3_v1_1 m ρ c, V3_v9 m ρ c, V3_v10 m ρ c, V3_v0 m ρ c, V3_v6 m ρ c, V3_v7 m ρ c, V3_v8 m ρ c, V3_arg2 m ρ c,
    V3_v5 m ρ c, V1_v0 m ρ c]
  rfl

/-- The program's result buffer is that array reshaped. -/
theorem result_eq (c : Dev nD) :
    (W5 (F := Ideal) m ρ c (Proc.devRef .tc main_v12) : S16x16x16x32x32.Idx → EReal)
      = shapeCast S16x16x16x32x32 ((dat1 (F := Ideal) (V3 m ρ) c).arrAt 10 cfg1.N) shapeCasts_S16x16x16384_S16x16x16x32x32 := by
  show StableHlo.after hostOps2 (W4 m ρ c) (Proc.devRef .tc main_v12) = _
  after_results
  exact congrArg (fun a => shapeCast S16x16x16x32x32 a shapeCasts_S16x16x16384_S16x16x16x32x32) (W4_arr m ρ c 10)

end Cert.KernelIdeal.Value

end
-- ==== Proof.RTaps.lean ====
/-
  The 27 gathered slabs of the reference's second kernel, entry by entry. Slab t = (kd*3 + kh)*3 + kw of the scratch is the
  normalised row block rotated by the tap's flat offset (modulo the 16384 lanes), times row t of the boundary masks broadcast
  over the 16 channels: entry (c, j) is  xn (c, (j + rot t) mod 16384) * masks (t, j).
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws

set_option maxRecDepth 16384

noncomputable section

namespace Cert.ReferenceIdeal.Taps

open Cert.ReferenceIdeal Cert.ReferenceIdeal.Gen
open Idealize.ShloMosaic Idealize.ShloMosaic.ValueIdx Idealize.ShloMosaic.TcCoe
open Idealize.SL.Sem

theorem slab0_apply (x0 : Vec Ideal S1x16x16384 .f32) (x1 x2 : Vec Ideal S16x1 .f32) (row : Vec Ideal S1x16384 .f32) (c : Fin 16) (j : Fin 16384) :
    k1_pay6 x0 x1 x2 row (ix2 c j) = (k1_pay5 x0 x1 x2) (ix2 c ⟨(j.val + 15327) % 16384, Nat.mod_lt _ (by norm_num)⟩) * row (ix2 (0 : Fin 1) j) := by
  unfold k1_pay6
  try rw [shapeCast_self]
  refine congrArg₂ (fun a b : EReal => a * b) ?_ ?_
  · exact Cert.LibRoll.roll_apply (a := 1057) (b := 15327) rfl (k1_pay5 x0 x1 x2) _ _ _ c j
  · exact broadcastTo_apply (s := S1x16384) (t := S16x16384) row _ (ix2 c j) (ix2 (0 : Fin 1) j) (fun a => by match a with | ⟨0, _⟩ => rfl | ⟨1, _⟩ => rfl)

theorem slab1_apply (x0 : Vec Ideal S1x16x16384 .f32) (x1 x2 : Vec Ideal S16x1 .f32) (row : Vec Ideal S1x16384 .f32) (c : Fin 16) (j : Fin 16384) :
    k1_pay7 x0 x1 x2 row (ix2 c j) = (k1_pay5 x0 x1 x2) (ix2 c ⟨(j.val + 15328) % 16384, Nat.mod_lt _ (by norm_num)⟩) * row (ix2 (0 : Fin 1) j) := by
  unfold k1_pay7
  try rw [shapeCast_self]
  refine congrArg₂ (fun a b : EReal => a * b) ?_ ?_
  · exact Cert.LibRoll.roll_apply (a := 1056) (b := 15328) rfl (k1_pay5 x0 x1 x2) _ _ _ c j
  · exact broadcastTo_apply (s := S1x16384) (t := S16x16384) row _ (ix2 c j) (ix2 (0 : Fin 1) j) (fun a => by match a with | ⟨0, _⟩ => rfl | ⟨1, _⟩ => rfl)

theorem slab2_apply (x0 : Vec Ideal S1x16x16384 .f32) (x1 x2 : Vec Ideal S16x1 .f32) (row : Vec Ideal S1x16384 .f32) (c : Fin 16) (j : Fin 16384) :
    k1_pay8 x0 x1 x2 row (ix2 c j) = (k1_pay5 x0 x1 x2) (ix2 c ⟨(j.val + 15329) % 16384, Nat.mod_lt _ (by norm_num)⟩) * row (ix2 (0 : Fin 1) j) := by
  unfold k1_pay8
  try rw [shapeCast_self]
  refine congrArg₂ (fun a b : EReal => a * b) ?_ ?_
  · exact Cert.LibRoll.roll_apply (a := 1055) (b := 15329) rfl (k1_pay5 x0 x1 x2) _ _ _ c j
  · exact broadcastTo_apply (s := S1x16384) (t := S16x16384) row _ (ix2 c j) (ix2 (0 : Fin 1) j) (fun a => by match a with | ⟨0, _⟩ => rfl | ⟨1, _⟩ => rfl)

theorem slab3_apply (v9 : FVec Ideal S16x16384 .f32) (row : Vec Ideal S1x16384 .f32) (c : Fin 16) (j : Fin 16384) :
    k1_pay9 v9 row (ix2 c j) = v9 (ix2 c ⟨(j.val + 15359) % 16384, Nat.mod_lt _ (by norm_num)⟩) * row (ix2 (0 : Fin 1) j) := by
  unfold k1_pay9
  try rw [shapeCast_self]
  refine congrArg₂ (fun a b : EReal => a * b) ?_ ?_
  · exact Cert.LibRoll.roll_apply (a := 1025) (b := 15359) rfl v9 _ _ _ c j
  · exact broadcastTo_apply (s := S1x16384) (t := S16x16384) row _ (ix2 c j) (ix2 (0 : Fin 1) j) (fun a => by match a with | ⟨0, _⟩ => rfl | ⟨1, _⟩ => rfl)

theorem slab4_apply (v9 : FVec Ideal S16x16384 .f32) (row : Vec Ideal S1x16384 .f32) (c : Fin 16) (j : Fin 16384) :
    k1_pay10 v9 row (ix2 c j) = v9 (ix2 c ⟨(j.val + 15360) % 16384, Nat.mod_lt _ (by norm_num)⟩) * row (ix2 (0 : Fin 1) j) := by
  unfold k1_pay10
  try rw [shapeCast_self]
  refine congrArg₂ (fun a b : EReal => a * b) ?_ ?_
  · exact Cert.LibRoll.roll_apply (a := 1024) (b := 15360) rfl v9 _ _ _ c j
  · exact broadcastTo_apply (s := S1x16384) (t := S16x16384) row _ (ix2 c j) (ix2 (0 : Fin 1) j) (fun a => by match a with | ⟨0, _⟩ => rfl | ⟨1, _⟩ => rfl)

theorem slab5_apply (v9 : FVec Ideal S16x16384 .f32) (row : Vec Ideal S1x16384 .f32) (c : Fin 16) (j : Fin 16384) :
    k1_pay11 v9 row (ix2 c j) = v9 (ix2 c ⟨(j.val + 15361) % 16384, Nat.mod_lt _ (by norm_num)⟩) * row (ix2 (0 : Fin 1) j) := by
  unfold k1_pay11
  try rw [shapeCast_self]
  refine congrArg₂ (fun a b : EReal => a * b) ?_ ?_
  · exact Cert.LibRoll.roll_apply (a := 1023) (b := 15361) rfl v9 _ _ _ c j
  · exact broadcastTo_apply (s := S1x16384) (t := S16x16384) row _ (ix2 c j) (ix2 (0 : Fin 1) j) (fun a => by match a with | ⟨0, _⟩ => rfl | ⟨1, _⟩ => rfl)

theorem slab6_apply (v9 : FVec Ideal S16x16384 .f32) (row : Vec Ideal S1x16384 .f32) (c : Fin 16) (j : Fin 16384) :
    k1_pay12 v9 row (ix2 c j) = v9 (ix2 c ⟨(j.val + 15391) % 16384, Nat.mod_lt _ (by norm_num)⟩) * row (ix2 (0 : Fin 1) j) := by
  unfold k1_pay12
  try rw [shapeCast_self]
  refine congrArg₂ (fun a b : EReal => a * b) ?_ ?_
  · exact Cert.LibRoll.roll_apply (a := 993) (b := 15391) rfl v9 _ _ _ c j
  · exact broadcastTo_apply (s := S1x16384) (t := S16x16384) row _ (ix2 c j) (ix2 (0 : Fin 1) j) (fun a => by match a with | ⟨0, _⟩ => rfl | ⟨1, _⟩ => rfl)

theorem slab7_apply (v9 : FVec Ideal S16x16384 .f32) (row : Vec Ideal S1x16384 .f32) (c : Fin 16) (j : Fin 16384) :
    k1_pay14 (k1_pay13 v9) row (ix2 c j) = v9 (ix2 c ⟨(j.val + 15392) % 16384, Nat.mod_lt _ (by norm_num)⟩) * row (ix2 (0 : Fin 1) j) := by
  unfold k1_pay14 k1_pay13
  try rw [shapeCast_self]
  refine congrArg₂ (fun a b : EReal => a * b) ?_ ?_
  · exact Cert.LibRoll.roll_apply (a := 992) (b := 15392) rfl v9 _ _ _ c j
  · exact broadcastTo_apply (s := S1x16384) (t := S16x16384) row _ (ix2 c j) (ix2 (0 : Fin 1) j) (fun a => by match a with | ⟨0, _⟩ => rfl | ⟨1, _⟩ => rfl)

theorem slab8_apply (v9 : FVec Ideal S16x16384 .f32) (row : Vec Ideal S1x16384 .f32) (c : Fin 16) (j : Fin 16384) :
    k1_pay15 v9 row (ix2 c j) = v9 (ix2 c ⟨(j.val + 15393) % 16384, Nat.mod_lt _ (by norm_num)⟩) * row (ix2 (0 : Fin 1) j) := by
  unfold k1_pay15
  try rw [shapeCast_self]
  refine congrArg₂ (fun a b : EReal => a * b) ?_ ?_
  · exact Cert.LibRoll.roll_apply (a := 991) (b := 15393) rfl v9 _ _ _ c j
  · exact broadcastTo_apply (s := S1x16384) (t := S16x16384) row _ (ix2 c j) (ix2 (0 : Fin 1) j) (fun a => by match a with | ⟨0, _⟩ => rfl | ⟨1, _⟩ => rfl)

theorem slab9_apply (v9 : FVec Ideal S16x16384 .f32) (row : Vec Ideal S1x16384 .f32) (c : Fin 16) (j : Fin 16384) :
    k1_pay16 v9 row (ix2 c j) = v9 (ix2 c ⟨(j.val + 16351) % 16384, Nat.mod_lt _ (by norm_num)⟩) * row (ix2 (0 : Fin 1) j) := by
  unfold k1_pay16
  try rw [shapeCast_self]
  refine congrArg₂ (fun a b : EReal => a * b) ?_ ?_
  · exact Cert.LibRoll.roll_apply (a := 33) (b := 16351) rfl v9 _ _ _ c j
  · exact broadcastTo_apply (s := S1x16384) (t := S16x16384) row _ (ix2 c j) (ix2 (0 : Fin 1) j) (fun a => by match a with | ⟨0, _⟩ => rfl | ⟨1, _⟩ => rfl)

theorem slab10_apply (v9 : FVec Ideal S16x16384 .f32) (row : Vec Ideal S1x16384 .f32) (c : Fin 16) (j : Fin 16384) :
    k1_pay17 v9 row (ix2 c j) = v9 (ix2 c ⟨(j.val + 16352) % 16384, Nat.mod_lt _ (by norm_num)⟩) * row (ix2 (0 : Fin 1) j) := by
  unfold k1_pay17
  try rw [shapeCast_self]
  refine congrArg₂ (fun a b : EReal => a * b) ?_ ?_
  · exact Cert.LibRoll.roll_apply (a := 32) (b := 16352) rfl v9 _ _ _ c j
  · exact broadcastTo_apply (s := S1x16384) (t := S16x16384) row _ (ix2 c j) (ix2 (0 : Fin 1) j) (fun a => by match a with | ⟨0, _⟩ => rfl | ⟨1, _⟩ => rfl)

theorem slab11_apply (v9 : FVec Ideal S16x16384 .f32) (row : Vec Ideal S1x16384 .f32) (c : Fin 16) (j : Fin 16384) :
    k1_pay19 (k1_pay18 v9 row) (ix2 c j) = v9 (ix2 c ⟨(j.val + 16353) % 16384, Nat.mod_lt _ (by norm_num)⟩) * row (ix2 (0 : Fin 1) j) := by
  unfold k1_pay19 k1_pay18
  try rw [shapeCast_self]
  refine congrArg₂ (fun a b : EReal => a * b) ?_ ?_
  · exact Cert.LibRoll.roll_apply (a := 31) (b := 16353) rfl v9 _ _ _ c j
  · exact broadcastTo_apply (s := S1x16384) (t := S16x16384) row _ (ix2 c j) (ix2 (0 : Fin 1) j) (fun a => by match a with | ⟨0, _⟩ => rfl | ⟨1, _⟩ => rfl)

theorem slab12_apply (v9 : FVec Ideal S16x16384 .f32) (row : Vec Ideal S1x16384 .f32) (c : Fin 16) (j : Fin 16384) :
    k1_pay20 v9 row (ix2 c j) = v9 (ix2 c ⟨(j.val + 16383) % 16384, Nat.mod_lt _ (by norm_num)⟩) * row (ix2 (0 : Fin 1) j) := by
  unfold k1_pay20
  try rw [shapeCast_self]
  refine congrArg₂ (fun a b : EReal => a * b) ?_ ?_
  · exact Cert.LibRoll.roll_apply (a := 1) (b := 16383) rfl v9 _ _ _ c j
  · exact broadcastTo_apply (s := S1x16384) (t := S16x16384) row _ (ix2 c j) (ix2 (0 : Fin 1) j) (fun a => by match a with | ⟨0, _⟩ => rfl | ⟨1, _⟩ => rfl)

theorem slab13_apply (v9 : FVec Ideal S16x16384 .f32) (row : Vec Ideal S1x16384 .f32) (c : Fin 16) (j : Fin 16384) :
    k1_pay21 v9 row (ix2 c j) = v9 (ix2 c j) * row (ix2 (0 : Fin 1) j) := by
  unfold k1_pay21
  try rw [shapeCast_self]
  refine congrArg₂ (fun a b : EReal => a * b) ?_ ?_
  · rfl
  · exact broadcastTo_apply (s := S1x16384) (t := S16x16384) row _ (ix2 c j) (ix2 (0 : Fin 1) j) (fun a => by match a with | ⟨0, _⟩ => rfl | ⟨1, _⟩ => rfl)

theorem slab14_apply (v9 : FVec Ideal S16x16384 .f32) (row : Vec Ideal S1x16384 .f32) (c : Fin 16) (j : Fin 16384) :
    k1_pay22 v9 row (ix2 c j) = v9 (ix2 c ⟨(j.val + 1) % 16384, Nat.mod_lt _ (by norm_num)⟩) * row (ix2 (0 : Fin 1) j) := by
  unfold k1_pay22
  try rw [shapeCast_self]
  refine congrArg₂ (fun a b : EReal => a * b) ?_ ?_
  · exact Cert.LibRoll.roll_apply (a := 16383) (b := 1) rfl v9 _ _ _ c j
  · exact broadcastTo_apply (s := S1x16384) (t := S16x16384) row _ (ix2 c j) (ix2 (0 : Fin 1) j) (fun a => by match a with | ⟨0, _⟩ => rfl | ⟨1, _⟩ => rfl)

theorem slab15_apply (v9 : FVec Ideal S16x16384 .f32) (row : Vec Ideal S1x16384 .f32) (c : Fin 16) (j : Fin 16384) :
    k1_pay23 v9 row (ix2 c j) = v9 (ix2 c ⟨(j.val + 31) % 16384, Nat.mod_lt _ (by norm_num)⟩) * row (ix2 (0 : Fin 1) j) := by
  unfold k1_pay23
  try rw [shapeCast_self]
  refine congrArg₂ (fun a b : EReal => a * b) ?_ ?_
  · exact Cert.LibRoll.roll_apply (a := 16353) (b := 31) rfl v9 _ _ _ c j
  · exact broadcastTo_apply (s := S1x16384) (t := S16x16384) row _ (ix2 c j) (ix2 (0 : Fin 1) j) (fun a => by match a with | ⟨0, _⟩ => rfl | ⟨1, _⟩ => rfl)

theorem slab16_apply (v9 : FVec Ideal S16x16384 .f32) (row : Vec Ideal S1x16384 .f32) (c : Fin 16) (j : Fin 16384) :
    k1_pay25 v9 (k1_pay24 v9) row (ix2 c j) = v9 (ix2 c ⟨(j.val + 32) % 16384, Nat.mod_lt _ (by norm_num)⟩) * row (ix2 (0 : Fin 1) j) := by
  unfold k1_pay25 k1_pay24
  try rw [shapeCast_self]
  refine congrArg₂ (fun a b : EReal => a * b) ?_ ?_
  · exact Cert.LibRoll.roll_apply (a := 16352) (b := 32) rfl v9 _ _ _ c j
  · exact broadcastTo_apply (s := S1x16384) (t := S16x16384) row _ (ix2 c j) (ix2 (0 : Fin 1) j) (fun a => by match a with | ⟨0, _⟩ => rfl | ⟨1, _⟩ => rfl)

theorem slab17_apply (v9 : FVec Ideal S16x16384 .f32) (row : Vec Ideal S1x16384 .f32) (c : Fin 16) (j : Fin 16384) :
    k1_pay26 v9 row (ix2 c j) = v9 (ix2 c ⟨(j.val + 33) % 16384, Nat.mod_lt _ (by norm_num)⟩) * row (ix2 (0 : Fin 1) j) := by
  unfold k1_pay26
  try rw [shapeCast_self]
  refine congrArg₂ (fun a b : EReal => a * b) ?_ ?_
  · exact Cert.LibRoll.roll_apply (a := 16351) (b := 33) rfl v9 _ _ _ c j
  · exact broadcastTo_apply (s := S1x16384) (t := S16x16384) row _ (ix2 c j) (ix2 (0 : Fin 1) j) (fun a => by match a with | ⟨0, _⟩ => rfl | ⟨1, _⟩ => rfl)

theorem slab18_apply (v9 : FVec Ideal S16x16384 .f32) (row : Vec Ideal S1x16384 .f32) (c : Fin 16) (j : Fin 16384) :
    k1_pay27 v9 row (ix2 c j) = v9 (ix2 c ⟨(j.val + 991) % 16384, Nat.mod_lt _ (by norm_num)⟩) * row (ix2 (0 : Fin 1) j) := by
  unfold k1_pay27
  try rw [shapeCast_self]
  refine congrArg₂ (fun a b : EReal => a * b) ?_ ?_
  · exact Cert.LibRoll.roll_apply (a := 15393) (b := 991) rfl v9 _ _ _ c j
  · exact broadcastTo_apply (s := S1x16384) (t := S16x16384) row _ (ix2 c j) (ix2 (0 : Fin 1) j) (fun a => by match a with | ⟨0, _⟩ => rfl | ⟨1, _⟩ => rfl)

theorem slab19_apply (v9 : FVec Ideal S16x16384 .f32) (row : Vec Ideal S1x16384 .f32) (c : Fin 16) (j : Fin 16384) :
    k1_pay28 v9 row (ix2 c j) = v9 (ix2 c ⟨(j.val + 992) % 16384, Nat.mod_lt _ (by norm_num)⟩) * row (ix2 (0 : Fin 1) j) := by
  unfold k1_pay28
  try rw [shapeCast_self]
  refine congrArg₂ (fun a b : EReal => a * b) ?_ ?_
  · exact Cert.LibRoll.roll_apply (a := 15392) (b := 992) rfl v9 _ _ _ c j
  · exact broadcastTo_apply (s := S1x16384) (t := S16x16384) row _ (ix2 c j) (ix2 (0 : Fin 1) j) (fun a => by match a with | ⟨0, _⟩ => rfl | ⟨1, _⟩ => rfl)

theorem slab20_apply (v9 : FVec Ideal S16x16384 .f32) (row : Vec Ideal S1x16384 .f32) (c : Fin 16) (j : Fin 16384) :
    k1_pay30 (k1_pay29 v9) row (ix2 c j) = v9 (ix2 c ⟨(j.val + 993) % 16384, Nat.mod_lt _ (by norm_num)⟩) * row (ix2 (0 : Fin 1) j) := by
  unfold k1_pay30 k1_pay29
  try rw [shapeCast_self]
  refine congrArg₂ (fun a b : EReal => a * b) ?_ ?_
  · exact Cert.LibRoll.roll_apply (a := 15391) (b := 993) rfl v9 _ _ _ c j
  · exact broadcastTo_apply (s := S1x16384) (t := S16x16384) row _ (ix2 c j) (ix2 (0 : Fin 1) j) (fun a => by match a with | ⟨0, _⟩ => rfl | ⟨1, _⟩ => rfl)

theorem slab21_apply (v9 : FVec Ideal S16x16384 .f32) (row : Vec Ideal S1x16384 .f32) (c : Fin 16) (j : Fin 16384) :
    k1_pay31 v9 row (ix2 c j) = v9 (ix2 c ⟨(j.val + 1023) % 16384, Nat.mod_lt _ (by norm_num)⟩) * row (ix2 (0 : Fin 1) j) := by
  unfold k1_pay31
  try rw [shapeCast_self]
  refine congrArg₂ (fun a b : EReal => a * b) ?_ ?_
  · exact Cert.LibRoll.roll_apply (a := 15361) (b := 1023) rfl v9 _ _ _ c j
  · exact broadcastTo_apply (s := S1x16384) (t := S16x16384) row _ (ix2 c j) (ix2 (0 : Fin 1) j) (fun a => by match a with | ⟨0, _⟩ => rfl | ⟨1, _⟩ => rfl)

theorem slab22_apply (v9 : FVec Ideal S16x16384 .f32) (row : Vec Ideal S1x16384 .f32) (c : Fin 16) (j : Fin 16384) :
    k1_pay32 v9 row (ix2 c j) = v9 (ix2 c ⟨(j.val + 1024) % 16384, Nat.mod_lt _ (by norm_num)⟩) * row (ix2 (0 : Fin 1) j) := by
  unfold k1_pay32
  try rw [shapeCast_self]
  refine congrArg₂ (fun a b : EReal => a * b) ?_ ?_
  · exact Cert.LibRoll.roll_apply (a := 15360) (b := 1024) rfl v9 _ _ _ c j
  · exact broadcastTo_apply (s := S1x16384) (t := S16x16384) row _ (ix2 c j) (ix2 (0 : Fin 1) j) (fun a => by match a with | ⟨0, _⟩ => rfl | ⟨1, _⟩ => rfl)

theorem slab23_apply (v9 : FVec Ideal S16x16384 .f32) (row : Vec Ideal S1x16384 .f32) (c : Fin 16) (j : Fin 16384) :
    k1_pay33 v9 row (ix2 c j) = v9 (ix2 c ⟨(j.val + 1025) % 16384, Nat.mod_lt _ (by norm_num)⟩) * row (ix2 (0 : Fin 1) j) := by
  unfold k1_pay33
  try rw [shapeCast_self]
  refine congrArg₂ (fun a b : EReal => a * b) ?_ ?_
  · exact Cert.LibRoll.roll_apply (a := 15359) (b := 1025) rfl v9 _ _ _ c j
  · exact broadcastTo_apply (s := S1x16384) (t := S16x16384) row _ (ix2 c j) (ix2 (0 : Fin 1) j) (fun a => by match a with | ⟨0, _⟩ => rfl | ⟨1, _⟩ => rfl)

theorem slab24_apply (v9 : FVec Ideal S16x16384 .f32) (row : Vec Ideal S1x16384 .f32) (c : Fin 16) (j : Fin 16384) :
    k1_pay1 (k1_pay34 v9 row) (ix2 c j) = v9 (ix2 c ⟨(j.val + 1055) % 16384, Nat.mod_lt _ (by norm_num)⟩) * row (ix2 (0 : Fin 1) j) := by
  unfold k1_pay1 k1_pay34
  try rw [shapeCast_self]
  refine congrArg₂ (fun a b : EReal => a * b) ?_ ?_
  · exact Cert.LibRoll.roll_apply (a := 15329) (b := 1055) rfl v9 _ _ _ c j
  · exact broadcastTo_apply (s := S1x16384) (t := S16x16384) row _ (ix2 c j) (ix2 (0 : Fin 1) j) (fun a => by match a with | ⟨0, _⟩ => rfl | ⟨1, _⟩ => rfl)

theorem slab25_apply (v9 : FVec Ideal S16x16384 .f32) (row : Vec Ideal S1x16384 .f32) (c : Fin 16) (j : Fin 16384) :
    k1_pay2 v9 row (ix2 c j) = v9 (ix2 c ⟨(j.val + 1056) % 16384, Nat.mod_lt _ (by norm_num)⟩) * row (ix2 (0 : Fin 1) j) := by
  unfold k1_pay2
  try rw [shapeCast_self]
  refine congrArg₂ (fun a b : EReal => a * b) ?_ ?_
  · exact Cert.LibRoll.roll_apply (a := 15328) (b := 1056) rfl v9 _ _ _ c j
  · exact broadcastTo_apply (s := S1x16384) (t := S16x16384) row _ (ix2 c j) (ix2 (0 : Fin 1) j) (fun a => by match a with | ⟨0, _⟩ => rfl | ⟨1, _⟩ => rfl)

theorem slab26_apply (v9 : FVec Ideal S16x16384 .f32) (row : Vec Ideal S1x16384 .f32) (c : Fin 16) (j : Fin 16384) :
    k1_pay3 v9 row (ix2 c j) = v9 (ix2 c ⟨(j.val + 1057) % 16384, Nat.mod_lt _ (by norm_num)⟩) * row (ix2 (0 : Fin 1) j) := by
  unfold k1_pay3
  try rw [shapeCast_self]
  refine congrArg₂ (fun a b : EReal => a * b) ?_ ?_
  · exact Cert.LibRoll.roll_apply (a := 15327) (b := 1057) rfl v9 _ _ _ c j
  · exact broadcastTo_apply (s := S1x16384) (t := S16x16384) row _ (ix2 c j) (ix2 (0 : Fin 1) j) (fun a => by match a with | ⟨0, _⟩ => rfl | ⟨1, _⟩ => rfl)

end Cert.ReferenceIdeal.Taps

end
-- ==== Proof.RConv.lean ====
/-
  The second kernel of the reference at one grid point, as a function of its six input blocks. The 27 slabs it stores into
  the scratch are blocks of ONE function of the scratch index: entry (t*16 + c, s) is the normalised row of channel c rotated
  by tap t's flat offset, at voxel s, times the boundary mask of tap t at s. The whole scratch is loaded back and contracted
  against the 16 x 432 weights in one product; the bias column is added last.
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.RTaps
import proofs.«140524_g2000606239268051_pallasbulk_354_8_alg».proof.Proof.LibDense
import Idealize.ShloMosaic.Lib.Pipeline.FrameBody
set_option maxRecDepth 16384

noncomputable section

namespace Cert.ReferenceIdeal.Conv

open Cert.ReferenceIdeal Cert.ReferenceIdeal.Gen
open Idealize.ShloMosaic Idealize.ShloMosaic.ValueIdx Idealize.ShloMosaic.TcCoe
open Idealize.SL.Sem
open Cert.ReferenceIdeal.Taps
open Idealize.ShloMosaic.Tactic

theorem hz2 : (![0, 0] : Fin 2 → ℕ) = fun _ => 0 := funext fun a => by fin_cases a <;> rfl
theorem hz3 : (![0, 0, 0] : Fin 3 → ℕ) = fun _ => 0 := funext fun a => by fin_cases a <;> rfl

/-- Entry (r, s) of the gathered scratch. -/
def col (xn : FVec Ideal S16x16384 .f32) (x5 : Vec Ideal S27x16384 .f32) (y : S432x16384.Idx) : EReal :=
  xn (ix2 (⟨(y 0).val % 16, Nat.mod_lt _ (by norm_num)⟩ : Fin 16)
        (⟨((y 1).val + Cert.ConvTaps.rotFull ((y 0).val / 16 / 9) ((y 0).val / 16 / 3 % 3) ((y 0).val / 16 % 3)) % 16384,
          Nat.mod_lt _ (by norm_num)⟩ : Fin 16384))
    * x5 (ix2 (⟨(y 0).val / 16, by have h : (y 0).val < 432 := (y 0).isLt; omega⟩ : Fin 27) (⟨(y 1).val, (y 1).isLt⟩ : Fin 16384))

/-- A slab whose entries are the rotated block times mask row u is the block of col at rows u*16 .. u*16 + 15. -/
theorem slab_ok (xn : FVec Ideal S16x16384 .f32) (x5 : Vec Ideal S27x16384 .f32) (u : Fin 27) (b : ℕ)
    (hb : Cert.ConvTaps.rotFull (u.val / 9) (u.val / 3 % 3) (u.val % 3) = b)
    (pay : S16x16384.Idx → EReal)
    (hpay : ∀ (c : Fin 16) (j : Fin 16384),
      pay (ix2 c j) = xn (ix2 c ⟨(j.val + b) % 16384, Nat.mod_lt _ (by norm_num)⟩) * x5 (ix2 u j))
    (off : Fin 2 → ℕ) (h0 : off 0 = 16 * u.val) (h1 : off 1 = 0) (inb : ∀ a, off a + S16x16384.size a ≤ S432x16384.size a)
    (x : S16x16384.Idx) :
    pay x = col xn x5 ((Rect.unit (s := S432x16384) off S16x16384.size inb).idx x) := by
  obtain ⟨c, j, rfl⟩ : ∃ (c : Fin 16) (j : Fin 16384), x = ix2 c j := ⟨x 0, x 1, eq_ix2 x⟩
  rw [hpay]
  unfold col
  have hc := c.isLt; have hu := u.isLt
  have e0 : ((Rect.unit (s := S432x16384) off S16x16384.size inb).idx (ix2 c j) 0).val = 16 * u.val + c.val := by
    show off 0 + 1 * c.val = _; omega
  have e1 : ((Rect.unit (s := S432x16384) off S16x16384.size inb).idx (ix2 c j) 1).val = j.val := by
    show off 1 + 1 * j.val = _; omega
  have q : (16 * u.val + c.val) / 16 = u.val := by omega
  have r : (16 * u.val + c.val) % 16 = c.val := by omega
  simp only [e0, e1, q, r, hb]

/-- Row u of the masks, as the body loads it. -/
theorem row_apply (x5 : Vec Ideal S27x16384 .f32) (u : Fin 27) (off : Fin 2 → ℕ) (h0 : off 0 = u.val) (h1 : off 1 = 0)
    (inb : ∀ a, off a + S1x16384.size a ≤ S27x16384.size a) (j : Fin 16384) :
    View.ld x5 (Rect.unit (s := S27x16384) off S1x16384.size inb) (ix2 (0 : Fin 1) j) = x5 (ix2 u j) := by
  show x5 ((Rect.unit (s := S27x16384) off S1x16384.size inb).idx (ix2 (0 : Fin 1) j)) = _
  congr 1; funext a; apply Fin.ext
  match a with
  | ⟨0, _⟩ => show off 0 + 1 * 0 = u.val; omega
  | ⟨1, _⟩ => show off 1 + 1 * j.val = j.val; omega

section
variable (c : Dev nD) (i : grid1.Coords) (arg1 : Memref sig .tc .vmem S1x16x16384 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x432 .f32) (harg4 : arg4.IsWhole) (arg5 : Memref sig .tc .vmem S16x1 .f32) (harg5 : arg5.IsWhole) (arg6 : Memref sig .tc .vmem S27x16384 .f32) (harg6 : arg6.IsWhole) (arg7 : Memref sig .tc .vmem S1x16x16384 .f32) (harg7 : arg7.IsWhole) (arg8 : Memref sig .tc .vmem S432x16384 .f32) (harg8 : arg8.IsWhole)
    (x0 : Vec Ideal S1x16x16384 .f32) (x1 : Vec Ideal S16x1 .f32) (x2 : Vec Ideal S16x1 .f32) (x3 : Vec Ideal S16x432 .f32) (x4 : Vec Ideal S16x1 .f32) (x5 : Vec Ideal S27x16384 .f32)

theorem row_read (r : Rect S27x16384) :
    View.readAt (Elt Ideal) arg6.view r.toLoadRect (harg6.unread x5) = View.ld x5 r := by
  rw [View.readAt_eq_ld, harg6.read_unread]

theorem x_read0 (inb : ∀ a, (![0, 0, 0] : Fin 3 → ℕ) a + S1x16x16384.size a ≤ S1x16x16384.size a) :
    View.readAt (Elt Ideal) arg1.view (Rect.unit (s := S1x16x16384) ![0, 0, 0] S1x16x16384.size inb).toLoadRect (harg1.unread x0) = x0 := by
  rw [View.readAt_eq_ld, harg1.read_unread, View.ld_unit_zero (S := S1x16x16384) hz3]
theorem x_read1 (inb : ∀ a, (![0, 0] : Fin 2 → ℕ) a + S16x1.size a ≤ S16x1.size a) :
    View.readAt (Elt Ideal) arg2.view (Rect.unit (s := S16x1) ![0, 0] S16x1.size inb).toLoadRect (harg2.unread x1) = x1 := by
  rw [View.readAt_eq_ld, harg2.read_unread, View.ld_unit_zero (S := S16x1) hz2]
theorem x_read2 (inb : ∀ a, (![0, 0] : Fin 2 → ℕ) a + S16x1.size a ≤ S16x1.size a) :
    View.readAt (Elt Ideal) arg3.view (Rect.unit (s := S16x1) ![0, 0] S16x1.size inb).toLoadRect (harg3.unread x2) = x2 := by
  rw [View.readAt_eq_ld, harg3.read_unread, View.ld_unit_zero (S := S16x1) hz2]

/-- The body's auxiliary name for the normalised block is that block's payload. -/
theorem r_eq : kernelRun1_A.sl.r (F := Ideal) c arg1 harg1 arg2 harg2 arg3 harg3 x0 x1 x2 = k1_pay5 x0 x1 x2 := by
  unfold kernelRun1_A.sl.r
  rw [x_read0, x_read1, x_read2]

/-- Every slab the body stores is the block of col its rectangle names. -/
theorem pieces :
    ∀ p ∈ kernelRun1_A.sl.HS0_27 (F := Ideal) c arg1 harg1 arg2 harg2 arg3 harg3 arg6 harg6 x0 x1 x2 x5,
      ∀ x : p.1.shape.Idx, p.2 x = col (k1_pay5 x0 x1 x2) x5 (p.1.emb x) := by
  intro p hp
  unfold kernelRun1_A.sl.HS0_27 at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · -- slab 26
    intro x
    refine slab_ok (k1_pay5 x0 x1 x2) x5 (26 : Fin 27) 1057 rfl _ (fun cc j => ?_) ![416, 0] rfl rfl inb_S432x16384_S16x16384_416_0 x
    rw [r_eq, row_read]
    dsimp only
    rw [slab26_apply, row_apply x5 (26 : Fin 27) _ rfl rfl]
  · -- slab 25
    intro x
    refine slab_ok (k1_pay5 x0 x1 x2) x5 (25 : Fin 27) 1056 rfl _ (fun cc j => ?_) ![400, 0] rfl rfl inb_S432x16384_S16x16384_400_0 x
    rw [r_eq, row_read]
    dsimp only
    rw [slab25_apply, row_apply x5 (25 : Fin 27) _ rfl rfl]
  · -- slab 24
    intro x
    refine slab_ok (k1_pay5 x0 x1 x2) x5 (24 : Fin 27) 1055 rfl _ (fun cc j => ?_) ![384, 0] rfl rfl inb_S432x16384_S16x16384_384_0 x
    unfold kernelRun1_A.sl.r_5
    rw [r_eq, row_read]
    dsimp only
    rw [slab24_apply, row_apply x5 (24 : Fin 27) _ rfl rfl]
  · -- slab 23
    intro x
    refine slab_ok (k1_pay5 x0 x1 x2) x5 (23 : Fin 27) 1025 rfl _ (fun cc j => ?_) ![368, 0] rfl rfl inb_S432x16384_S16x16384_368_0 x
    rw [r_eq, row_read]
    dsimp only
    rw [slab23_apply, row_apply x5 (23 : Fin 27) _ rfl rfl]
  · -- slab 22
    intro x
    refine slab_ok (k1_pay5 x0 x1 x2) x5 (22 : Fin 27) 1024 rfl _ (fun cc j => ?_) ![352, 0] rfl rfl inb_S432x16384_S16x16384_352_0 x
    rw [r_eq, row_read]
    dsimp only
    rw [slab22_apply, row_apply x5 (22 : Fin 27) _ rfl rfl]
  · -- slab 21
    intro x
    refine slab_ok (k1_pay5 x0 x1 x2) x5 (21 : Fin 27) 1023 rfl _ (fun cc j => ?_) ![336, 0] rfl rfl inb_S432x16384_S16x16384_336_0 x
    rw [r_eq, row_read]
    dsimp only
    rw [slab21_apply, row_apply x5 (21 : Fin 27) _ rfl rfl]
  · -- slab 20
    intro x
    refine slab_ok (k1_pay5 x0 x1 x2) x5 (20 : Fin 27) 993 rfl _ (fun cc j => ?_) ![320, 0] rfl rfl inb_S432x16384_S16x16384_320_0 x
    unfold kernelRun1_A.sl.r_4
    rw [r_eq, row_read]
    dsimp only
    rw [slab20_apply, row_apply x5 (20 : Fin 27) _ rfl rfl]
  · -- slab 19
    intro x
    refine slab_ok (k1_pay5 x0 x1 x2) x5 (19 : Fin 27) 992 rfl _ (fun cc j => ?_) ![304, 0] rfl rfl inb_S432x16384_S16x16384_304_0 x
    rw [r_eq, row_read]
    dsimp only
    rw [slab19_apply, row_apply x5 (19 : Fin 27) _ rfl rfl]
  · -- slab 18
    intro x
    refine slab_ok (k1_pay5 x0 x1 x2) x5 (18 : Fin 27) 991 rfl _ (fun cc j => ?_) ![288, 0] rfl rfl inb_S432x16384_S16x16384_288_0 x
    rw [r_eq, row_read]
    dsimp only
    rw [slab18_apply, row_apply x5 (18 : Fin 27) _ rfl rfl]
  · -- slab 17
    intro x
    refine slab_ok (k1_pay5 x0 x1 x2) x5 (17 : Fin 27) 33 rfl _ (fun cc j => ?_) ![272, 0] rfl rfl inb_S432x16384_S16x16384_272_0 x
    rw [r_eq, row_read]
    dsimp only
    rw [slab17_apply, row_apply x5 (17 : Fin 27) _ rfl rfl]
  · -- slab 16
    intro x
    refine slab_ok (k1_pay5 x0 x1 x2) x5 (16 : Fin 27) 32 rfl _ (fun cc j => ?_) ![256, 0] rfl rfl inb_S432x16384_S16x16384_256_0 x
    unfold kernelRun1_A.sl.r_3
    rw [r_eq, row_read]
    dsimp only
    rw [slab16_apply, row_apply x5 (16 : Fin 27) _ rfl rfl]
  · -- slab 15
    intro x
    refine slab_ok (k1_pay5 x0 x1 x2) x5 (15 : Fin 27) 31 rfl _ (fun cc j => ?_) ![240, 0] rfl rfl inb_S432x16384_S16x16384_240_0 x
    rw [r_eq, row_read]
    dsimp only
    rw [slab15_apply, row_apply x5 (15 : Fin 27) _ rfl rfl]
  · -- slab 14
    intro x
    refine slab_ok (k1_pay5 x0 x1 x2) x5 (14 : Fin 27) 1 rfl _ (fun cc j => ?_) ![224, 0] rfl rfl inb_S432x16384_S16x16384_224_0 x
    rw [r_eq, row_read]
    dsimp only
    rw [slab14_apply, row_apply x5 (14 : Fin 27) _ rfl rfl]
  · -- slab 13
    intro x
    refine slab_ok (k1_pay5 x0 x1 x2) x5 (13 : Fin 27) 0 rfl _ (fun cc j => ?_) ![208, 0] rfl rfl inb_S432x16384_S16x16384_208_0 x
    rw [r_eq, row_read]
    dsimp only
    rw [slab13_apply, row_apply x5 (13 : Fin 27) _ rfl rfl]
    have e : (⟨(j.val + 0) % 16384, Nat.mod_lt _ (by norm_num)⟩ : Fin 16384) = j := Fin.ext (by
      show (j.val + 0) % 16384 = j.val; rw [Nat.add_zero, Nat.mod_eq_of_lt j.isLt])
    rw [e]
  · -- slab 12
    intro x
    refine slab_ok (k1_pay5 x0 x1 x2) x5 (12 : Fin 27) 16383 rfl _ (fun cc j => ?_) ![192, 0] rfl rfl inb_S432x16384_S16x16384_192_0 x
    rw [r_eq, row_read]
    dsimp only
    rw [slab12_apply, row_apply x5 (12 : Fin 27) _ rfl rfl]
  · -- slab 11
    intro x
    refine slab_ok (k1_pay5 x0 x1 x2) x5 (11 : Fin 27) 16353 rfl _ (fun cc j => ?_) ![176, 0] rfl rfl inb_S432x16384_S16x16384_176_0 x
    unfold kernelRun1_A.sl.r_2
    rw [r_eq, row_read]
    dsimp only
    rw [slab11_apply, row_apply x5 (11 : Fin 27) _ rfl rfl]
  · -- slab 10
    intro x
    refine slab_ok (k1_pay5 x0 x1 x2) x5 (10 : Fin 27) 16352 rfl _ (fun cc j => ?_) ![160, 0] rfl rfl inb_S432x16384_S16x16384_160_0 x
    rw [r_eq, row_read]
    dsimp only
    rw [slab10_apply, row_apply x5 (10 : Fin 27) _ rfl rfl]
  · -- slab 9
    intro x
    refine slab_ok (k1_pay5 x0 x1 x2) x5 (9 : Fin 27) 16351 rfl _ (fun cc j => ?_) ![144, 0] rfl rfl inb_S432x16384_S16x16384_144_0 x
    rw [r_eq, row_read]
    dsimp only
    rw [slab9_apply, row_apply x5 (9 : Fin 27) _ rfl rfl]
  · -- slab 8
    intro x
    refine slab_ok (k1_pay5 x0 x1 x2) x5 (8 : Fin 27) 15393 rfl _ (fun cc j => ?_) ![128, 0] rfl rfl inb_S432x16384_S16x16384_128_0 x
    rw [r_eq, row_read]
    dsimp only
    rw [slab8_apply, row_apply x5 (8 : Fin 27) _ rfl rfl]
  · -- slab 7
    intro x
    refine slab_ok (k1_pay5 x0 x1 x2) x5 (7 : Fin 27) 15392 rfl _ (fun cc j => ?_) ![112, 0] rfl rfl inb_S432x16384_S16x16384_112_0 x
    unfold kernelRun1_A.sl.r_1
    rw [r_eq, row_read]
    dsimp only
    rw [slab7_apply, row_apply x5 (7 : Fin 27) _ rfl rfl]
  · -- slab 6
    intro x
    refine slab_ok (k1_pay5 x0 x1 x2) x5 (6 : Fin 27) 15391 rfl _ (fun cc j => ?_) ![96, 0] rfl rfl inb_S432x16384_S16x16384_96_0 x
    rw [r_eq, row_read]
    dsimp only
    rw [slab6_apply, row_apply x5 (6 : Fin 27) _ rfl rfl]
  · -- slab 5
    intro x
    refine slab_ok (k1_pay5 x0 x1 x2) x5 (5 : Fin 27) 15361 rfl _ (fun cc j => ?_) ![80, 0] rfl rfl inb_S432x16384_S16x16384_80_0 x
    rw [r_eq, row_read]
    dsimp only
    rw [slab5_apply, row_apply x5 (5 : Fin 27) _ rfl rfl]
  · -- slab 4
    intro x
    refine slab_ok (k1_pay5 x0 x1 x2) x5 (4 : Fin 27) 15360 rfl _ (fun cc j => ?_) ![64, 0] rfl rfl inb_S432x16384_S16x16384_64_0 x
    rw [r_eq, row_read]
    dsimp only
    rw [slab4_apply, row_apply x5 (4 : Fin 27) _ rfl rfl]
  · -- slab 3
    intro x
    refine slab_ok (k1_pay5 x0 x1 x2) x5 (3 : Fin 27) 15359 rfl _ (fun cc j => ?_) ![48, 0] rfl rfl inb_S432x16384_S16x16384_48_0 x
    rw [r_eq, row_read]
    dsimp only
    rw [slab3_apply, row_apply x5 (3 : Fin 27) _ rfl rfl]
  · -- slab 2
    intro x
    refine slab_ok (k1_pay5 x0 x1 x2) x5 (2 : Fin 27) 15329 rfl _ (fun cc j => ?_) ![32, 0] rfl rfl inb_S432x16384_S16x16384_32_0 x
    rw [x_read0, x_read1, x_read2, row_read]
    dsimp only
    rw [slab2_apply, row_apply x5 (2 : Fin 27) _ rfl rfl]
  · -- slab 1
    intro x
    refine slab_ok (k1_pay5 x0 x1 x2) x5 (1 : Fin 27) 15328 rfl _ (fun cc j => ?_) ![16, 0] rfl rfl inb_S432x16384_S16x16384_16_0 x
    rw [x_read0, x_read1, x_read2, row_read]
    dsimp only
    rw [slab1_apply, row_apply x5 (1 : Fin 27) _ rfl rfl]
  · -- slab 0
    intro x
    refine slab_ok (k1_pay5 x0 x1 x2) x5 (0 : Fin 27) 15327 rfl _ (fun cc j => ?_) ![0, 0] rfl rfl inb_S432x16384_S16x16384_0_0 x
    rw [x_read0, x_read1, x_read2, row_read]
    dsimp only
    rw [slab0_apply, row_apply x5 (0 : Fin 27) _ rfl rfl]

/-- The 27 slabs tile the scratch. -/
theorem cover (y : S432x16384.Idx) :
    ∃ p ∈ kernelRun1_A.sl.HS0_27 (F := Ideal) c arg1 harg1 arg2 harg2 arg3 harg3 arg6 harg6 x0 x1 x2 x5, y ∈ p.1.set :=
  View.cover_of_tiledL (kernelRun1_A.sl.HS0_27 (F := Ideal) c arg1 harg1 arg2 harg2 arg3 harg3 arg6 harg6 x0 x1 x2 x5) S16x16384.size (by sl_kernel_rfl) y

/-- The scratch after the 27 stores, read anywhere. -/
theorem scratch_apply (y : S432x16384.Idx) :
    View.canon (kernelRun1_A.sl.HS0_27 (F := Ideal) c arg1 harg1 arg2 harg2 arg3 harg3 arg6 harg6 x0 x1 x2 x5) y = col (k1_pay5 x0 x1 x2) x5 y :=
  View.canon_apply_of_pieces _ _ (pieces c arg1 harg1 arg2 harg2 arg3 harg3 arg6 harg6 x0 x1 x2 x5) y (cover c arg1 harg1 arg2 harg2 arg3 harg3 arg6 harg6 x0 x1 x2 x5 y)

/-- The whole scratch loaded back after the 27 stores. -/
theorem load_apply (r : Fin 432) (s : Fin 16384) :
    kernelRun1_A.sl.v251 (F := Ideal) c arg1 harg1 arg2 harg2 arg3 harg3 arg6 harg6 arg8 x0 x1 x2 x5 (ix2 r s) = col (k1_pay5 x0 x1 x2) x5 (ix2 r s) := by
  unfold kernelRun1_A.sl.v251
  rw [View.readCov_eq_canon']
  show View.canon _ ((Rect.unit (s := S432x16384) ![0, 0] ![432, 16384] inb_S432x16384_S432x16384_0_0).toLoadRect.idx (ix2 r s)) = _
  rw [scratch_apply]
  congr 1; funext a; apply Fin.ext
  match a with
  | ⟨0, _⟩ => show 0 + 1 * r.val = r.val; omega
  | ⟨1, _⟩ => show 0 + 1 * s.val = s.val; omega

end

/-- The output payload at (0, o, s): the 432-term contraction, then the bias column. -/
theorem pay4_apply (v250 : Vec Ideal S16x432 .f32) (v251 : Vec Ideal S432x16384 .f32) (v253 : Vec Ideal S16x1 .f32)
    (o : Fin 16) (s : Fin 16384) :
    k1_pay4 v250 v251 v253 (ix3 (0 : Fin 1) o s)
      = (∑ r : Fin 432, v250 (ix2 o r) * v251 (ix2 r s)) + v253 (ix2 o (0 : Fin 1)) := by
  unfold k1_pay4
  rw [shapeCast_apply (s := S16x16384) (t := S1x16x16384) _ _ (ix3 (0 : Fin 1) o s) (ix2 o s) (by
    rw [Shape.rowMajor_val_two, Shape.rowMajor_val_three]
    show o.val * 16384 + s.val = (0 * 16 + o.val) * 16384 + s.val
    omega)]
  refine congrArg₂ (fun a b : EReal => a + b) ?_ ?_
  · exact Cert.LibDense.plain_matmul_apply none v250 v251 o s
  · exact broadcastTo_apply (s := S16x1) (t := S16x16384) v253 _ (ix2 o s) (ix2 o (0 : Fin 1)) (fun a => by match a with | ⟨0, _⟩ => rfl | ⟨1, _⟩ => rfl)

/-- The normalised block at (c, i): x (c, i) * scale c + shift c with the scale and shift columns the host passed in. -/
theorem pay5_apply (x0 : Vec Ideal S1x16x16384 .f32) (x1 x2 : Vec Ideal S16x1 .f32) (c : Fin 16) (i : Fin 16384) :
    k1_pay5 x0 x1 x2 (ix2 c i) = x0 (ix3 (0 : Fin 1) c i) * x1 (ix2 c (0 : Fin 1)) + x2 (ix2 c (0 : Fin 1)) := by
  unfold k1_pay5
  rw [shapeCast_self, shapeCast_self]
  refine congrArg₂ (fun a b : EReal => a + b) (congrArg₂ (fun a b : EReal => a * b) ?_ ?_) ?_
  · exact shapeCast_apply _ _ _ _ (by
      rw [Shape.rowMajor_val_three, Shape.rowMajor_val_two]
      show (0 * 16 + c.val) * 16384 + i.val = c.val * 16384 + i.val
      omega)
  · exact broadcastTo_apply (s := S16x1) (t := S16x16384) x1 _ (ix2 c i) (ix2 c (0 : Fin 1)) (fun a => by match a with | ⟨0, _⟩ => rfl | ⟨1, _⟩ => rfl)
  · exact broadcastTo_apply (s := S16x1) (t := S16x16384) x2 _ (ix2 c i) (ix2 c (0 : Fin 1)) (fun a => by match a with | ⟨0, _⟩ => rfl | ⟨1, _⟩ => rfl)

end Cert.ReferenceIdeal.Conv

end
-- ==== Proof.RFinal.lean ====
/-
  The output block of the reference's second kernel at one grid point, entry by entry, and, after the region, its
  16 x 16 x 16384 output array: entry (n, o, s) is the 432-term contraction of the weights of o against the scratch function
  of item n's row block (with the scale and shift columns the host computed) at voxel s, plus the bias of o. Grid point n
  writes block (n, all, all); every other window's block is its whole array; the sixteen blocks tile the array.
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.RConv
import Idealize.ShloMosaic.Lib.Pipeline.FrameBody
set_option maxRecDepth 16384

noncomputable section

namespace Cert.ReferenceIdeal.Final

open Cert.ReferenceIdeal Cert.ReferenceIdeal.Gen
open Idealize.ShloMosaic Idealize.ShloMosaic.ValueIdx Idealize.ShloMosaic.TcCoe
open Idealize.SL.Sem
open Cert.ReferenceIdeal.Conv
open Idealize.ShloMosaic.Pipeline (Dat)

/-- Entry (o, s) of the output block from the six input blocks. -/
def outR (x0 : Vec Ideal S1x16x16384 .f32) (x1 x2 : Vec Ideal S16x1 .f32) (x3 : Vec Ideal S16x432 .f32) (x4 : Vec Ideal S16x1 .f32)
    (x5 : Vec Ideal S27x16384 .f32) (o : Fin 16) (s : Fin 16384) : EReal :=
  (∑ r : Fin 432, x3 (ix2 o r) * col (k1_pay5 x0 x1 x2) x5 (ix2 r s)) + x4 (ix2 o (0 : Fin 1))

section
variable (c : Dev nD) (i : grid1.Coords) (arg1 : Memref sig .tc .vmem S1x16x16384 .f32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x432 .f32) (harg4 : arg4.IsWhole) (arg5 : Memref sig .tc .vmem S16x1 .f32) (harg5 : arg5.IsWhole) (arg6 : Memref sig .tc .vmem S27x16384 .f32) (harg6 : arg6.IsWhole) (arg7 : Memref sig .tc .vmem S1x16x16384 .f32) (harg7 : arg7.IsWhole) (arg8 : Memref sig .tc .vmem S432x16384 .f32) (harg8 : arg8.IsWhole)
    (x0 : Vec Ideal S1x16x16384 .f32) (x1 : Vec Ideal S16x1 .f32) (x2 : Vec Ideal S16x1 .f32) (x3 : Vec Ideal S16x432 .f32) (x4 : Vec Ideal S16x1 .f32) (x5 : Vec Ideal S27x16384 .f32)

theorem block_apply (o : Fin 16) (s : Fin 16384) :
    out1_A_6 (F := Ideal) c i arg1 harg1 arg2 harg2 arg3 harg3 arg4 harg4 arg5 harg5 arg6 harg6 arg7 harg7 arg8 harg8 x0 x1 x2 x3 x4 x5 (ix3 (0 : Fin 1) o s) = outR x0 x1 x2 x3 x4 x5 o s := by
  unfold outR out1_A_6
  rw [View.read_writes_eq_canon _ _ _ (cover1_A_6 c i arg1 harg1 arg2 harg2 arg3 harg3 arg4 harg4 arg5 harg5 arg6 harg6 arg7 harg7 arg8 harg8 x0 x1 x2 x3 x4 x5)]
  unfold kernelRun1_A
  dsimp only
  rw [View.canon_unit_zero hz3]
  rw [pay4_apply]
  refine congrArg₂ (fun a b : EReal => a + b) ?_ ?_
  · refine Finset.sum_congr rfl fun r _ => congrArg₂ (fun a b : EReal => a * b) ?_ ?_
    · rw [View.readAt_eq_ld, harg4.read_unread]
      exact congrFun (View.ld_unit_zero (S := S16x432) hz2 _ x3) _
    · exact load_apply c arg1 harg1 arg2 harg2 arg3 harg3 arg6 harg6 arg8 x0 x1 x2 x5 r s
  · rw [View.readAt_eq_ld, harg5.read_unread]
    exact congrFun (View.ld_unit_zero (S := S16x1) hz2 _ x4) _

end

variable (V : (c : Dev nD) → (b : Ref sig .tc) → Buf (Elt Ideal) ((c : Thread nD τ).loc b))

/-- The output array's entry from the region's input arrays. -/
def GR (A0 : S16x16x16384.Idx → EReal) (A1 A2 : S16x1.Idx → EReal) (A3 : S16x432.Idx → EReal) (A4 : S16x1.Idx → EReal)
    (A5 : S27x16384.Idx → EReal) (i : S16x16x16384.Idx) : EReal :=
  outR (fun y => A0 (ix3 (⟨(i 0).val, (i 0).isLt⟩ : Fin 16) (⟨(y 1).val, (y 1).isLt⟩ : Fin 16) (⟨(y 2).val, (y 2).isLt⟩ : Fin 16384)))
    A1 A2 A3 A4 A5 (⟨(i 1).val, (i 1).isLt⟩ : Fin 16) (⟨(i 2).val, (i 2).isLt⟩ : Fin 16384)

/-- The printed index maps over the grid. -/
theorem idx_facts1 : ∀ t : Fin cfg1.N,
    win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_0.index t (0 : Fin 3) = t.val
    ∧ win1_0.index t (1 : Fin 3) = 0
    ∧ win1_0.index t (2 : Fin 3) = 0
    ∧ win1_6.index t (0 : Fin 3) = t.val
    ∧ win1_6.index t (1 : Fin 3) = 0
    ∧ win1_6.index t (2 : Fin 3) = 0 :=
  (by decide +kernel : ∀ t : Fin grid1.N, _)

set_option maxRecDepth 200000 in
theorem iblk_1 (c : Dev nD) (t : Fin cfg1.N) : iblk1 (F := Ideal) V c 1 t = V c main_v20 := by
  funext y
  unfold iblk1
  obtain ⟨f0, f1, f2, f3, f4, f5, f6, f7, f8, f9, f10, f11, f12, f13, f14, f15⟩ := idx_facts1 t
  show V c main_v20 (((cfg1.win 1).blk t).view.emb y) = V c main_v20 y
  congr 1; funext a; apply Fin.ext
  match a with
  | ⟨0, _⟩ => show win1_1.index t (0 : Fin 2) * 16 + 1 * (y 0).val = (y 0).val; omega
  | ⟨1, _⟩ => show win1_1.index t (1 : Fin 2) * 1 + 1 * (y 1).val = (y 1).val; omega

set_option maxRecDepth 200000 in
theorem iblk_2 (c : Dev nD) (t : Fin cfg1.N) : iblk1 (F := Ideal) V c 2 t = V c main_v21 := by
  funext y
  unfold iblk1
  obtain ⟨f0, f1, f2, f3, f4, f5, f6, f7, f8, f9, f10, f11, f12, f13, f14, f15⟩ := idx_facts1 t
  show V c main_v21 (((cfg1.win 2).blk t).view.emb y) = V c main_v21 y
  congr 1; funext a; apply Fin.ext
  match a with
  | ⟨0, _⟩ => show win1_2.index t (0 : Fin 2) * 16 + 1 * (y 0).val = (y 0).val; omega
  | ⟨1, _⟩ => show win1_2.index t (1 : Fin 2) * 1 + 1 * (y 1).val = (y 1).val; omega

set_option maxRecDepth 200000 in
theorem iblk_3 (c : Dev nD) (t : Fin cfg1.N) : iblk1 (F := Ideal) V c 3 t = V c main_arg1 := by
  funext y
  unfold iblk1
  obtain ⟨f0, f1, f2, f3, f4, f5, f6, f7, f8, f9, f10, f11, f12, f13, f14, f15⟩ := idx_facts1 t
  show V c main_arg1 (((cfg1.win 3).blk t).view.emb y) = V c main_arg1 y
  congr 1; funext a; apply Fin.ext
  match a with
  | ⟨0, _⟩ => show win1_3.index t (0 : Fin 2) * 16 + 1 * (y 0).val = (y 0).val; omega
  | ⟨1, _⟩ => show win1_3.index t (1 : Fin 2) * 432 + 1 * (y 1).val = (y 1).val; omega

set_option maxRecDepth 200000 in
theorem iblk_4 (c : Dev nD) (t : Fin cfg1.N) : iblk1 (F := Ideal) V c 4 t = V c main_arg2 := by
  funext y
  unfold iblk1
  obtain ⟨f0, f1, f2, f3, f4, f5, f6, f7, f8, f9, f10, f11, f12, f13, f14, f15⟩ := idx_facts1 t
  show V c main_arg2 (((cfg1.win 4).blk t).view.emb y) = V c main_arg2 y
  congr 1; funext a; apply Fin.ext
  match a with
  | ⟨0, _⟩ => show win1_4.index t (0 : Fin 2) * 16 + 1 * (y 0).val = (y 0).val; omega
  | ⟨1, _⟩ => show win1_4.index t (1 : Fin 2) * 1 + 1 * (y 1).val = (y 1).val; omega

set_option maxRecDepth 200000 in
theorem iblk_5 (c : Dev nD) (t : Fin cfg1.N) : iblk1 (F := Ideal) V c 5 t = V c main_arg3 := by
  funext y
  unfold iblk1
  obtain ⟨f0, f1, f2, f3, f4, f5, f6, f7, f8, f9, f10, f11, f12, f13, f14, f15⟩ := idx_facts1 t
  show V c main_arg3 (((cfg1.win 5).blk t).view.emb y) = V c main_arg3 y
  congr 1; funext a; apply Fin.ext
  match a with
  | ⟨0, _⟩ => show win1_5.index t (0 : Fin 2) * 27 + 1 * (y 0).val = (y 0).val; omega
  | ⟨1, _⟩ => show win1_5.index t (1 : Fin 2) * 16384 + 1 * (y 1).val = (y 1).val; omega

set_option maxRecDepth 200000 in
theorem iblk_0 (c : Dev nD) (t : Fin cfg1.N) :
    iblk1 (F := Ideal) V c 0 t = fun y => V c main_v0 (ix3 (⟨t.val, t.isLt⟩ : Fin 16) (⟨(y 1).val, (y 1).isLt⟩ : Fin 16) (⟨(y 2).val, (y 2).isLt⟩ : Fin 16384)) := by
  funext y
  unfold iblk1
  obtain ⟨f0, f1, f2, f3, f4, f5, f6, f7, f8, f9, f10, f11, f12, f13, f14, f15⟩ := idx_facts1 t
  have hy0 : (y 0).val = 0 := by have h : (y 0).val < 1 := (y 0).isLt; omega
  show V c main_v0 (((cfg1.win 0).blk t).view.emb y) = _
  congr 1; funext a; apply Fin.ext
  match a with
  | ⟨0, _⟩ => show win1_0.index t (0 : Fin 3) * 1 + 1 * (y 0).val = t.val; omega
  | ⟨1, _⟩ => show win1_0.index t (1 : Fin 3) * 16 + 1 * (y 1).val = (y 1).val; omega
  | ⟨2, _⟩ => show win1_0.index t (2 : Fin 3) * 16384 + 1 * (y 2).val = (y 2).val; omega

/-- The output block at point t, entry by entry. -/
theorem out_at (c : Dev nD) (t : Fin cfg1.N) (y : S1x16x16384.Idx) :
    outsAt1 (F := Ideal) V c t y
      = GR (V c main_v0) (V c main_v20) (V c main_v21) (V c main_arg1) (V c main_arg2) (V c main_arg3)
          (ix3 (⟨t.val, t.isLt⟩ : Fin 16) (⟨(y 1).val, (y 1).isLt⟩ : Fin 16) (⟨(y 2).val, (y 2).isLt⟩ : Fin 16384)) := by
  obtain ⟨z, o, s, rfl⟩ : ∃ (z : Fin 1) (o : Fin 16) (s : Fin 16384), y = ix3 z o s := ⟨y 0, y 1, y 2, eq_ix3 y⟩
  obtain rfl : z = 0 := Subsingleton.elim _ _
  unfold outsAt1
  rw [block_apply]
  rw [iblk_0 V c t, iblk_1 V c t, iblk_2 V c t, iblk_3 V c t, iblk_4 V c t, iblk_5 V c t]
  rfl

set_option maxRecDepth 200000 in
theorem flushed6_eq (c : Dev nD) (t : Fin cfg1.N) :
    (dat1 (F := Ideal) V c).flushed 6 t = ((cfg1.win 6).blk t).view.read (Elt Ideal)
      (GR (V c main_v0) (V c main_v20) (V c main_v21) (V c main_arg1) (V c main_arg2) (V c main_arg3)) := by
  show (cfg1.win 6).cut (grid1.coords t) ((dat1 V c).after 6 t) = _
  rw [after1_6]
  funext y
  show outsAt1 V c t y = GR _ _ _ _ _ _ (((cfg1.win 6).blk t).view.emb y)
  rw [out_at]
  obtain ⟨f0, f1, f2, f3, f4, f5, f6, f7, f8, f9, f10, f11, f12, f13, f14, f15⟩ := idx_facts1 t
  have hy0 : (y 0).val = 0 := by have h : (y 0).val < 1 := (y 0).isLt; omega
  congr 1; funext a; apply Fin.ext
  match a with
  | ⟨0, _⟩ => show t.val = win1_6.index t (0 : Fin 3) * 1 + 1 * (y 0).val; omega
  | ⟨1, _⟩ => show (y 1).val = win1_6.index t (1 : Fin 3) * 16 + 1 * (y 1).val; omega
  | ⟨2, _⟩ => show (y 2).val = win1_6.index t (2 : Fin 3) * 16384 + 1 * (y 2).val; omega

theorem mem_blk6 (t : Fin cfg1.N) (i : S16x16x16384.Idx) :
    i ∈ ((cfg1.win 6).blk t).view.set ↔ ∀ a : Fin 3, win1_6.index t a * S1x16x16384.size a ≤ (i a).val
      ∧ (i a).val < win1_6.index t a * S1x16x16384.size a + S1x16x16384.size a := by
  show i ∈ ((View.whole main_v22).slice (win1_6.rect t)).set ↔ _
  rw [View.set_slice_whole, Rect.mem_set_unit]
  exact Iff.rfl

/-- After the region the output array is the output function of the region's input arrays. -/
theorem final6 (c : Dev nD) : (dat1 (F := Ideal) V c).arrAt 6 cfg1.N
    = GR (V c main_v0) (V c main_v20) (V c main_v21) (V c main_arg1) (V c main_arg2) (V c main_arg3) :=
  (dat1 V c).arrAt_eq_of_cover 6 _ (fun t _ => flushed6_eq V c t) (fun i => by
    have hi0 : (i 0).val < 16 := (i 0).isLt
    have hi1 : (i 1).val < 16 := (i 1).isLt
    have hi2 : (i 2).val < 16384 := (i 2).isLt
    refine ⟨⟨(i 0).val, hi0⟩, flush1_6 _, ?_⟩
    rw [mem_blk6]
    obtain ⟨f0, f1, f2, f3, f4, f5, f6, f7, f8, f9, f10, f11, f12, f13, f14, f15⟩ := idx_facts1 ⟨(i 0).val, hi0⟩
    intro a
    match a with
    | ⟨0, _⟩ => show win1_6.index ⟨(i 0).val, hi0⟩ (0 : Fin 3) * 1 ≤ (i 0).val ∧ (i 0).val < win1_6.index ⟨(i 0).val, hi0⟩ (0 : Fin 3) * 1 + 1; simp only [f13]; omega
    | ⟨1, _⟩ => show win1_6.index ⟨(i 0).val, hi0⟩ (1 : Fin 3) * 16 ≤ (i 1).val ∧ (i 1).val < win1_6.index ⟨(i 0).val, hi0⟩ (1 : Fin 3) * 16 + 16; omega
    | ⟨2, _⟩ => show win1_6.index ⟨(i 0).val, hi0⟩ (2 : Fin 3) * 16384 ≤ (i 2).val ∧ (i 2).val < win1_6.index ⟨(i 0).val, hi0⟩ (2 : Fin 3) * 16384 + 16384; omega)

end Cert.ReferenceIdeal.Final

end
-- ==== Proof.RStats.lean ====
/-
  The first kernel of the reference: for batch item n and channel ch it accumulates the sum of the item's voxels of that
  channel, and of their squares, over two grid points, each covering half of the 16384 voxels: the first zeroes the
  accumulator and adds the first 8192 voxels, the second adds the last 8192. The accumulator's block (n, all channels, 0) is
  written back after the second point, and the sixteen blocks tile each 16 x 16 x 1 array.
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import Idealize.ShloMosaic.Lib.Pipeline.FrameBody
set_option maxRecDepth 16384

noncomputable section

namespace Cert.ReferenceIdeal.Stats

open Cert.ReferenceIdeal Cert.ReferenceIdeal.Gen
open Idealize.ShloMosaic Idealize.ShloMosaic.ValueIdx Idealize.ShloMosaic.TcCoe
open Idealize.SL.Sem
open Idealize.ShloMosaic.Pipeline (Dat)
open Idealize.ShloMosaic.Tactic

theorem hz3 : (![0, 0, 0] : Fin 3 → ℕ) = fun _ => 0 := funext fun a => by fin_cases a <;> rfl

/-- The half row viewed 16 x 8192, at the index a lane sum inserts. -/
theorem row_at (x0 : Vec Ideal S1x16x8192 .f32) (ch : Fin 16) (k : Fin 8192) (h : S16x8192.Reduces [1] S16) :
    shapeCast S16x8192 x0 shapeCasts_S1x16x8192_S16x8192 (h.lift (ix1 ch) k) = x0 (ix3 (0 : Fin 1) ch k) :=
  shapeCast_apply _ _ _ _ (by
    rw [Shape.rowMajor_val_three, Shape.rowMajor_val_two]
    show (0 * 16 + ch.val) * 8192 + k.val = ch.val * 8192 + k.val
    omega)

/-- The zeroed accumulator. -/
theorem pay1_apply (y : S1x16x1.Idx) : k0_pay1 (F := Ideal) y = 0 := by
  unfold k0_pay1
  have h0 : (y 0).val = 0 := by have h : (y 0).val < 1 := (y 0).isLt; omega
  have h2 : (y 2).val = 0 := by have h : (y 2).val < 1 := (y 2).isLt; omega
  rw [shapeCast_apply (s := S16x1) (t := S1x16x1) _ _ y (ix2 (⟨(y 1).val, (y 1).isLt⟩ : Fin 16) (0 : Fin 1)) (by
    rw [Shape.rowMajor_val_two, Shape.rowMajor_val_three]
    show (y 1).val * 1 + 0 = ((y 0).val * 16 + (y 1).val) * 1 + (y 2).val
    omega)]
  exact Ideal.ofBits_zero_f32

theorem pay2_apply (y : S1x16x1.Idx) : k0_pay2 (F := Ideal) y = 0 := by
  unfold k0_pay2
  have h0 : (y 0).val = 0 := by have h : (y 0).val < 1 := (y 0).isLt; omega
  have h2 : (y 2).val = 0 := by have h : (y 2).val < 1 := (y 2).isLt; omega
  rw [shapeCast_apply (s := S16x1) (t := S1x16x1) _ _ y (ix2 (⟨(y 1).val, (y 1).isLt⟩ : Fin 16) (0 : Fin 1)) (by
    rw [Shape.rowMajor_val_two, Shape.rowMajor_val_three]
    show (y 1).val * 1 + 0 = ((y 0).val * 16 + (y 1).val) * 1 + (y 2).val
    omega)]
  exact Ideal.ofBits_zero_f32

/-- One point's update of the sum: the accumulator plus the half row's sum. -/
theorem pay4_apply (x0 : Vec Ideal S1x16x8192 .f32) (acc : Vec Ideal S1x16x1 .f32) (y : S1x16x1.Idx) :
    k0_pay4 x0 acc y = acc y + ∑ j : Fin 8192, x0 (ix3 (0 : Fin 1) (⟨(y 1).val, (y 1).isLt⟩ : Fin 16) j) := by
  unfold k0_pay4 k0_pay3
  have h0 : (y 0).val = 0 := by have h : (y 0).val < 1 := (y 0).isLt; omega
  have h2 : (y 2).val = 0 := by have h : (y 2).val < 1 := (y 2).isLt; omega
  rw [shapeCast_apply (s := S16x1) (t := S1x16x1) _ _ y (ix2 (⟨(y 1).val, (y 1).isLt⟩ : Fin 16) (0 : Fin 1)) (by
    rw [Shape.rowMajor_val_two, Shape.rowMajor_val_three]
    show (y 1).val * 1 + 0 = ((y 0).val * 16 + (y 1).val) * 1 + (y 2).val
    omega)]
  refine congrArg₂ (fun a b : EReal => a + b) ?_ ?_
  · exact shapeCast_apply (s := S1x16x1) (t := S16x1) _ _ _ y (by
      rw [Shape.rowMajor_val_two, Shape.rowMajor_val_three]
      show ((y 0).val * 16 + (y 1).val) * 1 + (y 2).val = (y 1).val * 1 + 0
      omega)
  · refine (shapeCast_apply (s := S16) (t := S16x1) _ _ _ (ix1 (⟨(y 1).val, (y 1).isLt⟩ : Fin 16)) (by
      rw [Shape.rowMajor_val_one, Shape.rowMajor_val_two]
      show (y 1).val = (y 1).val * 1 + 0
      omega)).trans ?_
    refine (Ideal.multiReduction_add_single _ _ _ _ _ _).trans ?_
    exact Finset.sum_congr rfl fun k _ => row_at x0 _ k _

/-- One point's update of the sum of squares. -/
theorem pay5_apply (x0 : Vec Ideal S1x16x8192 .f32) (acc : Vec Ideal S1x16x1 .f32) (y : S1x16x1.Idx) :
    k0_pay5 x0 acc y = acc y + ∑ j : Fin 8192, x0 (ix3 (0 : Fin 1) (⟨(y 1).val, (y 1).isLt⟩ : Fin 16) j)
      * x0 (ix3 (0 : Fin 1) (⟨(y 1).val, (y 1).isLt⟩ : Fin 16) j) := by
  unfold k0_pay5 k0_pay3
  have h0 : (y 0).val = 0 := by have h : (y 0).val < 1 := (y 0).isLt; omega
  have h2 : (y 2).val = 0 := by have h : (y 2).val < 1 := (y 2).isLt; omega
  rw [shapeCast_apply (s := S16x1) (t := S1x16x1) _ _ y (ix2 (⟨(y 1).val, (y 1).isLt⟩ : Fin 16) (0 : Fin 1)) (by
    rw [Shape.rowMajor_val_two, Shape.rowMajor_val_three]
    show (y 1).val * 1 + 0 = ((y 0).val * 16 + (y 1).val) * 1 + (y 2).val
    omega)]
  refine congrArg₂ (fun a b : EReal => a + b) ?_ ?_
  · exact shapeCast_apply (s := S1x16x1) (t := S16x1) _ _ _ y (by
      rw [Shape.rowMajor_val_two, Shape.rowMajor_val_three]
      show ((y 0).val * 16 + (y 1).val) * 1 + (y 2).val = (y 1).val * 1 + 0
      omega)
  · refine (shapeCast_apply (s := S16) (t := S16x1) _ _ _ (ix1 (⟨(y 1).val, (y 1).isLt⟩ : Fin 16)) (by
      rw [Shape.rowMajor_val_one, Shape.rowMajor_val_two]
      show (y 1).val = (y 1).val * 1 + 0
      omega)).trans ?_
    refine (Ideal.multiReduction_add_single _ _ _ _ _ _).trans ?_
    exact Finset.sum_congr rfl fun k _ => congrArg₂ (fun a b : EReal => a * b) (row_at x0 _ k _) (row_at x0 _ k _)

section
variable (c : Dev nD) (i : grid0.Coords) (arg2 : Memref sig .tc .vmem S1x16x8192 .f32) (harg2 : arg2.IsWhole) (arg3 : Memref sig .tc .vmem S1x16x1 .f32) (harg3 : arg3.IsWhole) (arg4 : Memref sig .tc .vmem S1x16x1 .f32) (harg4 : arg4.IsWhole)

theorem x_read (x0 : Vec Ideal S1x16x8192 .f32) (inb : ∀ a, (![0, 0, 0] : Fin 3 → ℕ) a + S1x16x8192.size a ≤ S1x16x8192.size a) :
    View.readAt (Elt Ideal) arg2.view (Rect.unit (s := S1x16x8192) ![0, 0, 0] S1x16x8192.size inb).toLoadRect (harg2.unread x0) = x0 := by
  rw [View.readAt_eq_ld, harg2.read_unread, View.ld_unit_zero (S := S1x16x8192) hz3]

/-- Case A (an item's first point), the sums: the zeroed accumulator updated. -/
theorem outA1 (hc0 : cond0_0 i) (x0 : Vec Ideal S1x16x8192 .f32) :
    out0_A_1 (F := Ideal) c i arg2 harg2 arg3 harg3 arg4 harg4 hc0 x0 = k0_pay4 x0 (k0_pay1 (F := Ideal)) := by
  unfold out0_A_1
  rw [View.read_writes_eq_canon _ _ _ (cover0_A_1 c i arg2 harg2 arg3 harg3 arg4 harg4 hc0 x0)]
  unfold kernelRun0_A
  dsimp only
  rw [View.canon_cons_unit_zero hz3, x_read]
  unfold kernelRun0_A.sl.v5 kernelRun0_A.sl.H1_1
  rw [View.readCov_unit_zero _ hz3]

/-- Case B (an item's second point), the sums: the carried accumulator updated. -/
theorem outB1 (hc0 : ¬ cond0_0 i) (x0 : Vec Ideal S1x16x8192 .f32) (xo1 xo2 : Vec Ideal S1x16x1 .f32) :
    out0_B_1 (F := Ideal) c i arg2 harg2 arg3 harg3 arg4 harg4 hc0 x0 xo1 xo2 = k0_pay4 x0 xo1 := by
  unfold out0_B_1
  rw [View.read_writes_eq_canon _ _ _ (cover0_B_1 c i arg2 harg2 arg3 harg3 arg4 harg4 hc0 x0 xo1 xo2)]
  unfold kernelRun0_B
  dsimp only
  rw [View.canon_unit_zero hz3, x_read]
  rw [View.readAt_eq_ld, harg3.read_unread, View.ld_unit_zero (S := S1x16x1) hz3]

/-- Case A, the sums of squares. -/
theorem outA2 (hc0 : cond0_0 i) (x0 : Vec Ideal S1x16x8192 .f32) :
    out0_A_2 (F := Ideal) c i arg2 harg2 arg3 harg3 arg4 harg4 hc0 x0 = k0_pay5 x0 (k0_pay2 (F := Ideal)) := by
  unfold out0_A_2
  rw [View.read_writes_eq_canon _ _ _ (cover0_A_2 c i arg2 harg2 arg3 harg3 arg4 harg4 hc0 x0)]
  unfold kernelRun0_A
  dsimp only
  rw [View.canon_cons_unit_zero hz3, x_read]
  unfold kernelRun0_A.sl.v13 kernelRun0_A.sl.H2_1
  rw [View.readCov_unit_zero _ hz3]

/-- Case B, the sums of squares. -/
theorem outB2 (hc0 : ¬ cond0_0 i) (x0 : Vec Ideal S1x16x8192 .f32) (xo1 xo2 : Vec Ideal S1x16x1 .f32) :
    out0_B_2 (F := Ideal) c i arg2 harg2 arg3 harg3 arg4 harg4 hc0 x0 xo1 xo2 = k0_pay5 x0 xo2 := by
  unfold out0_B_2
  rw [View.read_writes_eq_canon _ _ _ (cover0_B_2 c i arg2 harg2 arg3 harg3 arg4 harg4 hc0 x0 xo1 xo2)]
  unfold kernelRun0_B
  dsimp only
  rw [View.canon_unit_zero hz3, x_read]
  rw [View.readAt_eq_ld, harg4.read_unread, View.ld_unit_zero (S := S1x16x1) hz3]

end

end Cert.ReferenceIdeal.Stats

end
-- ==== Proof.RStatsArr.lean ====
/-
  After the first region of the reference: its two 16 x 16 x 1 arrays hold, at (n, ch, 0), the zero accumulator plus the
  sum of the first 8192 voxels of channel ch of item n, plus the sum of the last 8192 (and the same for the squares). Item n
  is covered by grid points 2n (first half: the accumulator is zeroed, then updated) and 2n + 1 (second half: the carried
  accumulator is updated, then its block (n, all, 0) is written back).
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.RStats
set_option maxRecDepth 16384

noncomputable section

namespace Cert.ReferenceIdeal.StatsArr

open Cert.ReferenceIdeal Cert.ReferenceIdeal.Gen
open Idealize.ShloMosaic Idealize.ShloMosaic.ValueIdx Idealize.ShloMosaic.TcCoe
open Idealize.SL.Sem
open Cert.ReferenceIdeal.Stats
open Idealize.ShloMosaic.Pipeline (Dat)

variable (V : (c : Dev nD) → (b : Ref sig .tc) → Buf (Elt Ideal) ((c : Thread nD τ).loc b))

/-- The accumulated sum of channel (i 1) of item (i 0): zero, plus the first half, plus the second half. -/
def accSum (X : S16x16x16384.Idx → EReal) (i : S16x16x1.Idx) : EReal :=
  ((0 : EReal) + ∑ j : Fin 8192, X (ix3 (⟨(i 0).val, (i 0).isLt⟩ : Fin 16) (⟨(i 1).val, (i 1).isLt⟩ : Fin 16) (⟨j.val, by have := j.isLt; omega⟩ : Fin 16384)))
    + ∑ j : Fin 8192, X (ix3 (⟨(i 0).val, (i 0).isLt⟩ : Fin 16) (⟨(i 1).val, (i 1).isLt⟩ : Fin 16) (⟨8192 + j.val, by have := j.isLt; omega⟩ : Fin 16384))

/-- The same for the squares. -/
def accSumSq (X : S16x16x16384.Idx → EReal) (i : S16x16x1.Idx) : EReal :=
  ((0 : EReal) + ∑ j : Fin 8192, X (ix3 (⟨(i 0).val, (i 0).isLt⟩ : Fin 16) (⟨(i 1).val, (i 1).isLt⟩ : Fin 16) (⟨j.val, by have := j.isLt; omega⟩ : Fin 16384))
        * X (ix3 (⟨(i 0).val, (i 0).isLt⟩ : Fin 16) (⟨(i 1).val, (i 1).isLt⟩ : Fin 16) (⟨j.val, by have := j.isLt; omega⟩ : Fin 16384)))
    + ∑ j : Fin 8192, X (ix3 (⟨(i 0).val, (i 0).isLt⟩ : Fin 16) (⟨(i 1).val, (i 1).isLt⟩ : Fin 16) (⟨8192 + j.val, by have := j.isLt; omega⟩ : Fin 16384))
        * X (ix3 (⟨(i 0).val, (i 0).isLt⟩ : Fin 16) (⟨(i 1).val, (i 1).isLt⟩ : Fin 16) (⟨8192 + j.val, by have := j.isLt; omega⟩ : Fin 16384))

/-- The printed index maps over the 32 points: point t is half t mod 2 of item t / 2. -/
theorem idx_facts0 : ∀ t : Fin cfg0.N,
    win0_0.index t (0 : Fin 3) = t.val / 2 ∧ win0_0.index t (1 : Fin 3) = 0 ∧ win0_0.index t (2 : Fin 3) = t.val % 2
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0 :=
  (by decide +kernel : ∀ t : Fin grid0.N, _)

set_option maxRecDepth 200000 in
/-- The input block of point t, entry by entry. -/
theorem iblk_apply (c : Dev nD) (t : Fin cfg0.N) (ch : Fin 16) (j : Fin 8192) :
    iblk0 (F := Ideal) V c 0 t (ix3 (0 : Fin 1) ch j)
      = V c main_v0 (ix3 (⟨t.val / 2, by have h : t.val < 32 := t.isLt; omega⟩ : Fin 16) ch
          (⟨t.val % 2 * 8192 + j.val, by have := j.isLt; omega⟩ : Fin 16384)) := by
  unfold iblk0
  obtain ⟨e0, e1, e2, -⟩ := idx_facts0 t
  show V c main_v0 (((cfg0.win 0).blk t).view.emb (ix3 (0 : Fin 1) ch j)) = _
  congr 1; funext a; apply Fin.ext
  match a with
  | ⟨0, _⟩ => show win0_0.index t (0 : Fin 3) * 1 + 1 * 0 = t.val / 2; omega
  | ⟨1, _⟩ => show win0_0.index t (1 : Fin 3) * 16 + 1 * ch.val = ch.val; omega
  | ⟨2, _⟩ => show win0_0.index t (2 : Fin 3) * 8192 + 1 * j.val = t.val % 2 * 8192 + j.val; omega

/-- What the accumulators hold after an item's second point. -/
theorem acc_at (c : Dev nD) (t : Fin cfg0.N) (h1 : t.val % 2 = 1) (y : S1x16x1.Idx) :
    (outsAt0 (F := Ideal) V c t.val t.isLt).1 y
        = accSum (V c main_v0) (ix3 (⟨t.val / 2, by have h : t.val < 32 := t.isLt; omega⟩ : Fin 16) (⟨(y 1).val, (y 1).isLt⟩ : Fin 16) (0 : Fin 1))
      ∧ (outsAt0 (F := Ideal) V c t.val t.isLt).2 y
        = accSumSq (V c main_v0) (ix3 (⟨t.val / 2, by have h : t.val < 32 := t.isLt; omega⟩ : Fin 16) (⟨(y 1).val, (y 1).isLt⟩ : Fin 16) (0 : Fin 1)) := by
  have ht : t.val < 32 := t.isLt
  have hlt : t.val - 1 < cfg0.N := Nat.lt_of_le_of_lt (Nat.sub_le _ _) t.isLt
  have hB := outsAt0_B V c t (by omega)
  have hA : outsAt0 V c (t.val - 1) hlt = _ := outsAt0_A V c ⟨t.val - 1, hlt⟩ (by show (t.val - 1) % 2 = 0; omega)
  rw [hB]
  dsimp only
  rw [outB1, outB2, pay4_apply, pay5_apply, hA]
  dsimp only
  rw [outA1, outA2, pay4_apply, pay5_apply, pay1_apply, pay2_apply]
  have q : (t.val - 1) / 2 = t.val / 2 := by omega
  have r0 : (t.val - 1) % 2 = 0 := by omega
  unfold accSum accSumSq
  constructor
  · refine congrArg₂ (fun a b : EReal => a + b) (congrArg (fun a : EReal => (0 : EReal) + a) (Finset.sum_congr rfl fun j _ => ?_)) (Finset.sum_congr rfl fun j _ => ?_)
    · rw [iblk_apply]; congr 1; funext a; apply Fin.ext
      match a with
      | ⟨0, _⟩ => exact q
      | ⟨1, _⟩ => rfl
      | ⟨2, _⟩ => show (t.val - 1) % 2 * 8192 + j.val = j.val; omega
    · rw [iblk_apply]; congr 1; funext a; apply Fin.ext
      match a with
      | ⟨0, _⟩ => rfl
      | ⟨1, _⟩ => rfl
      | ⟨2, _⟩ => show t.val % 2 * 8192 + j.val = 8192 + j.val; omega
  · refine congrArg₂ (fun a b : EReal => a + b) (congrArg (fun a : EReal => (0 : EReal) + a) (Finset.sum_congr rfl fun j _ => ?_)) (Finset.sum_congr rfl fun j _ => ?_)
    · rw [iblk_apply]
      have e : (ix3 (⟨(⟨t.val - 1, hlt⟩ : Fin cfg0.N).val / 2, by show (t.val - 1) / 2 < 16; omega⟩ : Fin 16) (⟨(y 1).val, (y 1).isLt⟩ : Fin 16)
            (⟨(⟨t.val - 1, hlt⟩ : Fin cfg0.N).val % 2 * 8192 + j.val, by show (t.val - 1) % 2 * 8192 + j.val < 16384; have := j.isLt; omega⟩ : Fin 16384) : S16x16x16384.Idx)
          = ix3 (⟨t.val / 2, by omega⟩ : Fin 16) (⟨(y 1).val, (y 1).isLt⟩ : Fin 16) (⟨j.val, by have := j.isLt; omega⟩ : Fin 16384) := by
        funext a; apply Fin.ext
        match a with
        | ⟨0, _⟩ => exact q
        | ⟨1, _⟩ => rfl
        | ⟨2, _⟩ => show (t.val - 1) % 2 * 8192 + j.val = j.val; omega
      exact congrArg₂ (fun a b : EReal => a * b) (congrArg (V c main_v0) e) (congrArg (V c main_v0) e)
    · rw [iblk_apply]
      have e : (ix3 (⟨t.val / 2, by omega⟩ : Fin 16) (⟨(y 1).val, (y 1).isLt⟩ : Fin 16)
            (⟨t.val % 2 * 8192 + j.val, by have := j.isLt; omega⟩ : Fin 16384) : S16x16x16384.Idx)
          = ix3 (⟨t.val / 2, by omega⟩ : Fin 16) (⟨(y 1).val, (y 1).isLt⟩ : Fin 16) (⟨8192 + j.val, by have := j.isLt; omega⟩ : Fin 16384) := by
        funext a; apply Fin.ext
        match a with
        | ⟨0, _⟩ => rfl
        | ⟨1, _⟩ => rfl
        | ⟨2, _⟩ => show t.val % 2 * 8192 + j.val = 8192 + j.val; omega
      exact congrArg₂ (fun a b : EReal => a * b) (congrArg (V c main_v0) e) (congrArg (V c main_v0) e)

set_option maxRecDepth 200000 in
/-- What an item's second point writes back to output 1. -/
theorem flushed1_eq (c : Dev nD) (t : Fin cfg0.N) (hf : (cfg0.win 1).flush t = true) :
    (dat0 (F := Ideal) V c).flushed 1 t = ((cfg0.win 1).blk t).view.read (Elt Ideal) (accSum (V c main_v0)) := by
  have h1 : t.val % 2 = 1 := (flush0_1 t).mp hf
  have ht : t.val < 32 := t.isLt
  show (cfg0.win 1).cut (grid0.coords t) ((dat0 V c).after 1 t) = _
  rw [after0_1]
  funext y
  show (outsAt0 V c t.val t.isLt).1 y = accSum (V c main_v0) (((cfg0.win 1).blk t).view.emb y)
  rw [(acc_at V c t h1 y).1]
  obtain ⟨e0, e1, e2, f0, f1, f2, g0, g1, g2⟩ := idx_facts0 t
  have hy0 : (y 0).val = 0 := by have h : (y 0).val < 1 := (y 0).isLt; omega
  have hy2 : (y 2).val = 0 := by have h : (y 2).val < 1 := (y 2).isLt; omega
  congr 1; funext a; apply Fin.ext
  match a with
  | ⟨0, _⟩ => show t.val / 2 = win0_1.index t (0 : Fin 3) * 1 + 1 * (y 0).val; omega
  | ⟨1, _⟩ => show (y 1).val = win0_1.index t (1 : Fin 3) * 16 + 1 * (y 1).val; omega
  | ⟨2, _⟩ => show 0 = win0_1.index t (2 : Fin 3) * 1 + 1 * (y 2).val; omega

theorem mem_blk1 (t : Fin cfg0.N) (i : S16x16x1.Idx) :
    i ∈ ((cfg0.win 1).blk t).view.set ↔ ∀ a : Fin 3, win0_1.index t a * S1x16x1.size a ≤ (i a).val
      ∧ (i a).val < win0_1.index t a * S1x16x1.size a + S1x16x1.size a := by
  show i ∈ ((View.whole main_v1_0).slice (win0_1.rect t)).set ↔ _
  rw [View.set_slice_whole, Rect.mem_set_unit]
  exact Iff.rfl

/-- After the region output 1 holds the accumulated sums. -/
theorem final1 (c : Dev nD) : (dat0 (F := Ideal) V c).arrAt 1 cfg0.N = accSum (V c main_v0) :=
  (dat0 V c).arrAt_eq_of_cover 1 (accSum (V c main_v0)) (fun t hf => flushed1_eq V c t hf) (fun i => by
    have hi0 : (i 0).val < 16 := (i 0).isLt
    have hi1 : (i 1).val < 16 := (i 1).isLt
    have hi2 : (i 2).val < 1 := (i 2).isLt
    have hN : 2 * (i 0).val + 1 < cfg0.N := by show 2 * (i 0).val + 1 < 32; omega
    refine ⟨⟨2 * (i 0).val + 1, hN⟩, (flush0_1 _).mpr (by show (2 * (i 0).val + 1) % 2 = 1; omega), ?_⟩
    rw [mem_blk1]
    obtain ⟨e0, e1, e2, f0, f1, f2, g0, g1, g2⟩ := idx_facts0 ⟨2 * (i 0).val + 1, hN⟩
    have q : (2 * (i 0).val + 1) / 2 = (i 0).val := by omega
    intro a
    match a with
    | ⟨0, _⟩ => show win0_1.index ⟨2 * (i 0).val + 1, hN⟩ (0 : Fin 3) * 1 ≤ (i 0).val ∧ (i 0).val < win0_1.index ⟨2 * (i 0).val + 1, hN⟩ (0 : Fin 3) * 1 + 1; simp only [f0]; omega
    | ⟨1, _⟩ => show win0_1.index ⟨2 * (i 0).val + 1, hN⟩ (1 : Fin 3) * 16 ≤ (i 1).val ∧ (i 1).val < win0_1.index ⟨2 * (i 0).val + 1, hN⟩ (1 : Fin 3) * 16 + 16; omega
    | ⟨2, _⟩ => show win0_1.index ⟨2 * (i 0).val + 1, hN⟩ (2 : Fin 3) * 1 ≤ (i 2).val ∧ (i 2).val < win0_1.index ⟨2 * (i 0).val + 1, hN⟩ (2 : Fin 3) * 1 + 1; omega)

set_option maxRecDepth 200000 in
/-- What an item's second point writes back to output 2. -/
theorem flushed2_eq (c : Dev nD) (t : Fin cfg0.N) (hf : (cfg0.win 2).flush t = true) :
    (dat0 (F := Ideal) V c).flushed 2 t = ((cfg0.win 2).blk t).view.read (Elt Ideal) (accSumSq (V c main_v0)) := by
  have h1 : t.val % 2 = 1 := (flush0_2 t).mp hf
  have ht : t.val < 32 := t.isLt
  show (cfg0.win 2).cut (grid0.coords t) ((dat0 V c).after 2 t) = _
  rw [after0_2]
  funext y
  show (outsAt0 V c t.val t.isLt).2 y = accSumSq (V c main_v0) (((cfg0.win 2).blk t).view.emb y)
  rw [(acc_at V c t h1 y).2]
  obtain ⟨e0, e1, e2, f0, f1, f2, g0, g1, g2⟩ := idx_facts0 t
  have hy0 : (y 0).val = 0 := by have h : (y 0).val < 1 := (y 0).isLt; omega
  have hy2 : (y 2).val = 0 := by have h : (y 2).val < 1 := (y 2).isLt; omega
  congr 1; funext a; apply Fin.ext
  match a with
  | ⟨0, _⟩ => show t.val / 2 = win0_2.index t (0 : Fin 3) * 1 + 1 * (y 0).val; omega
  | ⟨1, _⟩ => show (y 1).val = win0_2.index t (1 : Fin 3) * 16 + 1 * (y 1).val; omega
  | ⟨2, _⟩ => show 0 = win0_2.index t (2 : Fin 3) * 1 + 1 * (y 2).val; omega

theorem mem_blk2 (t : Fin cfg0.N) (i : S16x16x1.Idx) :
    i ∈ ((cfg0.win 2).blk t).view.set ↔ ∀ a : Fin 3, win0_2.index t a * S1x16x1.size a ≤ (i a).val
      ∧ (i a).val < win0_2.index t a * S1x16x1.size a + S1x16x1.size a := by
  show i ∈ ((View.whole main_v1_1).slice (win0_2.rect t)).set ↔ _
  rw [View.set_slice_whole, Rect.mem_set_unit]
  exact Iff.rfl

/-- After the region output 2 holds the accumulated sums of squares. -/
theorem final2 (c : Dev nD) : (dat0 (F := Ideal) V c).arrAt 2 cfg0.N = accSumSq (V c main_v0) :=
  (dat0 V c).arrAt_eq_of_cover 2 (accSumSq (V c main_v0)) (fun t hf => flushed2_eq V c t hf) (fun i => by
    have hi0 : (i 0).val < 16 := (i 0).isLt
    have hi1 : (i 1).val < 16 := (i 1).isLt
    have hi2 : (i 2).val < 1 := (i 2).isLt
    have hN : 2 * (i 0).val + 1 < cfg0.N := by show 2 * (i 0).val + 1 < 32; omega
    refine ⟨⟨2 * (i 0).val + 1, hN⟩, (flush0_2 _).mpr (by show (2 * (i 0).val + 1) % 2 = 1; omega), ?_⟩
    rw [mem_blk2]
    obtain ⟨e0, e1, e2, f0, f1, f2, g0, g1, g2⟩ := idx_facts0 ⟨2 * (i 0).val + 1, hN⟩
    have q : (2 * (i 0).val + 1) / 2 = (i 0).val := by omega
    intro a
    match a with
    | ⟨0, _⟩ => show win0_2.index ⟨2 * (i 0).val + 1, hN⟩ (0 : Fin 3) * 1 ≤ (i 0).val ∧ (i 0).val < win0_2.index ⟨2 * (i 0).val + 1, hN⟩ (0 : Fin 3) * 1 + 1; simp only [g0]; omega
    | ⟨1, _⟩ => show win0_2.index ⟨2 * (i 0).val + 1, hN⟩ (1 : Fin 3) * 16 ≤ (i 1).val ∧ (i 1).val < win0_2.index ⟨2 * (i 0).val + 1, hN⟩ (1 : Fin 3) * 16 + 16; omega
    | ⟨2, _⟩ => show win0_2.index ⟨2 * (i 0).val + 1, hN⟩ (2 : Fin 3) * 1 ≤ (i 2).val ∧ (i 2).val < win0_2.index ⟨2 * (i 0).val + 1, hN⟩ (2 : Fin 3) * 1 + 1; omega)

end Cert.ReferenceIdeal.StatsArr

end
-- ==== Proof.BNSpec.lean ====
/-
  The batch-norm affine map of one channel from its two sums, on the extended reals, as both programs compute it:
  mean = S / M, variance = max (Q / M - mean * mean, 0), scale = gamma * rsqrt (variance + eps), shift = beta - mean * scale,
  with M = 262144 (the number of summed entries), eps and 0 the programs' own f32 words.
-/
import Idealize.ShloMosaic.PureOps.Ideal

noncomputable section

namespace Cert.BN

open Idealize.ShloMosaic

/-- scale = gamma * rsqrt (max (Q/M - (S/M)*(S/M), 0) + eps). -/
def scaleAt (S Q g : EReal) : EReal :=
  g * Ideal.rsqrt (max (Ideal.div Q (Ideal.ofBits .f32 0x48800000#32)
      - Ideal.div S (Ideal.ofBits .f32 0x48800000#32) * Ideal.div S (Ideal.ofBits .f32 0x48800000#32))
    (Ideal.ofBits .f32 0x00000000#32) + Ideal.ofBits .f32 0x3727C5AC#32)

/-- shift = beta - (S/M) * scale. -/
def shiftAt (S Q g b : EReal) : EReal :=
  b - Ideal.div S (Ideal.ofBits .f32 0x48800000#32) * scaleAt S Q g

end Cert.BN

end
-- ==== Proof.RHost.lean ====
/-
  What the second region of the reference finds in its input arrays, read back to the launch memory: the reshaped input; the
  weights, the bias and the masks as launched; and the scale and shift columns the host computed from the accumulated sums:
  at channel ch, with S and Q the initial value 0 plus the sums over the sixteen items of the two accumulated arrays,
  scale = gamma ch * rsqrt (max (Q/M - (S/M)*(S/M), 0) + eps) and shift = beta ch - (S/M) * scale.
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.RStatsArr
import proofs.«140524_g2000606239268051_pallasbulk_354_8_alg».proof.Proof.BNSpec
import Idealize.ShloMosaic.Lib.StableHlo.Run
set_option maxRecDepth 16384

noncomputable section

namespace Cert.ReferenceIdeal.Host

open Cert.ReferenceIdeal Cert.ReferenceIdeal.Gen
open Idealize.ShloMosaic Idealize.ShloMosaic.ValueIdx Idealize.ShloMosaic.TcCoe
open Idealize.SL.Sem
open Cert.ReferenceIdeal.Stats Cert.ReferenceIdeal.StatsArr
open Idealize.ShloMosaic.Pipeline (Dat)
open Idealize.ShloMosaic.Tactic

variable (m : (ℓ : Loc nD τ sig) → Buf (Elt Ideal) ℓ) (ρ : Dev nD → PrngReg)

theorem W2_arg1 (c : Dev nD) : W2 (F := Ideal) m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W2_arg2 (c : Dev nD) : W2 (F := Ideal) m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem W2_arg3 (c : Dev nD) : W2 (F := Ideal) m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem W2_arg4 (c : Dev nD) : W2 (F := Ideal) m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem W2_arg5 (c : Dev nD) : W2 (F := Ideal) m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-- The reshaped input, as the first region finds it. -/
theorem V1_v0 (c : Dev nD) :
    (V1 (F := Ideal) m ρ c main_v0 : S16x16x16384.Idx → EReal)
      = shapeCast S16x16x16384 (m ((c : Thread nD τ).loc main_arg0)) shapeCasts_S16x16x16x32x32_S16x16x16384 := by
  show StableHlo.after hostOps0 (W0 m ρ c) (Proc.devRef .tc main_v0) = _
  after_results
  rfl

theorem W2_v0 (c : Dev nD) : W2 (F := Ideal) m ρ c (Proc.devRef .tc main_v0) = V1 m ρ c main_v0 :=
  calc W2 m ρ c (Proc.devRef .tc main_v0)
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0

/-- The second region finds the reshaped input unchanged. -/
theorem V3_v0 (c : Dev nD) : V3 (F := Ideal) m ρ c main_v0 = V1 m ρ c main_v0 :=
  calc W3 m ρ c (Proc.devRef .tc main_v0)
    _ = W2 m ρ c (Proc.devRef .tc main_v0) := StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = V1 m ρ c main_v0 := W2_v0 m ρ c

theorem W2_v1_0 (c : Dev nD) : W2 (F := Ideal) m ρ c (Proc.devRef .tc main_v1_0) = accSum (V1 m ρ c main_v0) :=
  (W2_arr m ρ c 1).trans (final1 (V1 m ρ) c)

theorem W2_v1_1 (c : Dev nD) : W2 (F := Ideal) m ρ c (Proc.devRef .tc main_v1_1) = accSumSq (V1 m ρ c main_v0) :=
  (W2_arr m ρ c 2).trans (final2 (V1 m ρ) c)

theorem V3_arg1 (c : Dev nD) : V3 (F := Ideal) m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := W2_arg1 m ρ c

theorem V3_arg2 (c : Dev nD) : V3 (F := Ideal) m ρ c main_arg2 = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := W2_arg2 m ρ c

theorem V3_arg3 (c : Dev nD) : V3 (F := Ideal) m ρ c main_arg3 = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := W2_arg3 m ρ c

/-- The host's sum over the sixteen items of a 16 x 16 x 1 array viewed 16 x 16, at channel ch: the initial 0 plus the sum. -/
theorem hsum_apply (A : S16x16x1.Idx → EReal) (ch : Fin 16) (h' : S16x16.ReducesTo [0] S16) (hu : 0 < S_.numel) :
    Host.reduceAdd (F := Ideal) (shapeCast S16x16 A shapeCasts_S16x16x1_S16x16) (constant (F := Ideal) S_ .f32 0x00000000#32) h' hu (ix1 ch)
      = (0 : EReal) + ∑ n : Fin 16, A (ix3 n ch (0 : Fin 1)) := by
  unfold Host.reduceAdd
  refine (Ideal.hostReduceAdd_single h' (by decide) _ _ _).trans ?_
  refine congrArg₂ (fun a b : EReal => a + b) Ideal.ofBits_zero_f32 (Finset.sum_congr rfl fun n _ => ?_)
  exact shapeCast_apply _ _ _ _ (by
    rw [Shape.rowMajor_val_three, Shape.rowMajor_val_two]
    show (n.val * 16 + ch.val) * 1 + 0 = n.val * 16 + ch.val
    omega)

/-- The mean as the host computes it: the sum over the items (from the initial 0) divided by M. -/
def meanVec (A : FVec Ideal S16x16x1 .f32) : FVec Ideal S16 .f32 :=
  Host.divf (F := Ideal)
    (Host.reduceAdd (F := Ideal) (shapeCast S16x16 A shapeCasts_S16x16x1_S16x16) (constant (F := Ideal) S_ .f32 0x00000000#32) reducesTo_S16x16_S16_d0 h_S_)
    (broadcastInDim S16 ![] bcast_S_S16 (constant (F := Ideal) S_ .f32 0x48800000#32))

/-- The scale vector as the host computes it. -/
def scaleVec (A0 A1 : FVec Ideal S16x16x1 .f32) (g : FVec Ideal S16 .f32) : FVec Ideal S16 .f32 :=
  mulf (F := Ideal) g (Host.rsqrt (F := Ideal) (addf (F := Ideal)
    (maximumf (F := Ideal) (subf (F := Ideal) (meanVec A1) (mulf (F := Ideal) (meanVec A0) (meanVec A0)))
      (broadcastInDim S16 ![] bcast_S_S16 (constant (F := Ideal) S_ .f32 0x00000000#32)))
    (broadcastInDim S16 ![] bcast_S_S16 (constant (F := Ideal) S_ .f32 0x3727C5AC#32))))

/-- The shift vector as the host computes it. -/
def shiftVec (A0 A1 : FVec Ideal S16x16x1 .f32) (g be : FVec Ideal S16 .f32) : FVec Ideal S16 .f32 :=
  subf (F := Ideal) be (mulf (F := Ideal) (meanVec A0) (scaleVec A0 A1 g))

set_option maxHeartbeats 4000000 in
theorem V3_v20 (c : Dev nD) :
    (V3 (F := Ideal) m ρ c main_v20 : S16x1.Idx → EReal)
      = shapeCast S16x1 (scaleVec (W2 m ρ c (Proc.devRef .tc main_v1_0)) (W2 m ρ c (Proc.devRef .tc main_v1_1))
          (W2 m ρ c (Proc.devRef .tc main_arg4))) shapeCasts_S16_S16x1 := by
  show StableHlo.after hostOps1 (W2 m ρ c) (Proc.devRef .tc main_v20) = _
  after_results
  unfold scaleVec meanVec
  rfl

set_option maxHeartbeats 4000000 in
theorem V3_v21 (c : Dev nD) :
    (V3 (F := Ideal) m ρ c main_v21 : S16x1.Idx → EReal)
      = shapeCast S16x1 (shiftVec (W2 m ρ c (Proc.devRef .tc main_v1_0)) (W2 m ρ c (Proc.devRef .tc main_v1_1))
          (W2 m ρ c (Proc.devRef .tc main_arg4)) (W2 m ρ c (Proc.devRef .tc main_arg5))) shapeCasts_S16_S16x1 := by
  show StableHlo.after hostOps1 (W2 m ρ c) (Proc.devRef .tc main_v21) = _
  after_results
  unfold shiftVec scaleVec meanVec
  rfl

theorem mean_apply (A : FVec Ideal S16x16x1 .f32) (ch : Fin 16) :
    meanVec A (ix1 ch) = Ideal.div ((0 : EReal) + ∑ n : Fin 16, A (ix3 n ch (0 : Fin 1))) (Ideal.ofBits .f32 0x48800000#32) := by
  unfold meanVec
  exact congrArg (fun a : EReal => Ideal.div a _) (hsum_apply A ch _ _)

theorem scale_apply (A0 A1 : FVec Ideal S16x16x1 .f32) (g : FVec Ideal S16 .f32) (ch : Fin 16) :
    scaleVec A0 A1 g (ix1 ch) = Cert.BN.scaleAt ((0 : EReal) + ∑ n : Fin 16, A0 (ix3 n ch (0 : Fin 1)))
      ((0 : EReal) + ∑ n : Fin 16, A1 (ix3 n ch (0 : Fin 1))) (g (ix1 ch)) := by
  unfold scaleVec Cert.BN.scaleAt
  exact (congrArg (fun a : EReal => g (ix1 ch) * a) (congrArg Ideal.rsqrt (congrArg (fun a : EReal => a + _)
    (congrArg (fun a : EReal => max a _) (congrArg₂ (fun a b : EReal => a - b) (mean_apply A1 ch)
      (congrArg₂ (fun a b : EReal => a * b) (mean_apply A0 ch) (mean_apply A0 ch)))))))

theorem shift_apply (A0 A1 : FVec Ideal S16x16x1 .f32) (g be : FVec Ideal S16 .f32) (ch : Fin 16) :
    shiftVec A0 A1 g be (ix1 ch) = Cert.BN.shiftAt ((0 : EReal) + ∑ n : Fin 16, A0 (ix3 n ch (0 : Fin 1)))
      ((0 : EReal) + ∑ n : Fin 16, A1 (ix3 n ch (0 : Fin 1))) (g (ix1 ch)) (be (ix1 ch)) := by
  unfold shiftVec Cert.BN.shiftAt
  exact congrArg (fun a : EReal => be (ix1 ch) - a) (congrArg₂ (fun a b : EReal => a * b) (mean_apply A0 ch) (scale_apply A0 A1 g ch))

theorem col_apply (v : S16.Idx → EReal) (ch : Fin 16) :
    shapeCast S16x1 v shapeCasts_S16_S16x1 (ix2 ch (0 : Fin 1)) = v (ix1 ch) :=
  shapeCast_apply _ _ _ _ (by
    rw [Shape.rowMajor_val_one, Shape.rowMajor_val_two]
    show ch.val = ch.val * 1 + 0
    omega)

/-- The scale column at channel ch. -/
theorem v20_apply (c : Dev nD) (ch : Fin 16) :
    V3 (F := Ideal) m ρ c main_v20 (ix2 ch (0 : Fin 1))
      = Cert.BN.scaleAt ((0 : EReal) + ∑ n : Fin 16, accSum (V1 m ρ c main_v0) (ix3 n ch (0 : Fin 1)))
          ((0 : EReal) + ∑ n : Fin 16, accSumSq (V1 m ρ c main_v0) (ix3 n ch (0 : Fin 1)))
          (m ((c : Thread nD τ).loc main_arg4) (ix1 ch)) := by
  refine (congrFun (V3_v20 m ρ c) (ix2 ch (0 : Fin 1))).trans ?_
  rw [col_apply, scale_apply, W2_v1_0 m ρ c, W2_v1_1 m ρ c, W2_arg4 m ρ c]

/-- The shift column at channel ch. -/
theorem v21_apply (c : Dev nD) (ch : Fin 16) :
    V3 (F := Ideal) m ρ c main_v21 (ix2 ch (0 : Fin 1))
      = Cert.BN.shiftAt ((0 : EReal) + ∑ n : Fin 16, accSum (V1 m ρ c main_v0) (ix3 n ch (0 : Fin 1)))
          ((0 : EReal) + ∑ n : Fin 16, accSumSq (V1 m ρ c main_v0) (ix3 n ch (0 : Fin 1)))
          (m ((c : Thread nD τ).loc main_arg4) (ix1 ch)) (m ((c : Thread nD τ).loc main_arg5) (ix1 ch)) := by
  refine (congrFun (V3_v21 m ρ c) (ix2 ch (0 : Fin 1))).trans ?_
  rw [col_apply, shift_apply, W2_v1_0 m ρ c, W2_v1_1 m ρ c, W2_arg4 m ρ c, W2_arg5 m ρ c]

end Cert.ReferenceIdeal.Host

end
-- ==== Proof.RValue.lean ====
/-
  The reference's second region's output array as a function of the launch memory and of the scale and shift columns the host
  computed, and the program's result buffer as that array reshaped.
-/
import proofs.«140524_g2000606239268051_pallasbulk_354_8_alg».proof.Proof.Gen.ReferenceIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.RFinal
import proofs.«140524_g2000606239268051_pallasbulk_354_8_alg».proof.Proof.RHost
import Idealize.ShloMosaic.Lib.StableHlo.Run
set_option maxRecDepth 16384

noncomputable section

namespace Cert.ReferenceIdeal.Value

open Cert.ReferenceIdeal Cert.ReferenceIdeal.Gen
open Idealize.ShloMosaic Idealize.ShloMosaic.ValueIdx Idealize.ShloMosaic.TcCoe
open Idealize.SL.Sem
open Cert.ReferenceIdeal.Final Cert.ReferenceIdeal.Host
open Idealize.ShloMosaic.Pipeline (Dat)
open Idealize.ShloMosaic.Tactic

variable (m : (ℓ : Loc nD τ sig) → Buf (Elt Ideal) ℓ) (ρ : Dev nD → PrngReg)

/-- The reshaped input. -/
def x3Of (x : S16x16x16x32x32.Idx → EReal) : S16x16x16384.Idx → EReal :=
  shapeCast S16x16x16384 x shapeCasts_S16x16x16x32x32_S16x16x16384

theorem V1_v0' (c : Dev nD) : (V1 (F := Ideal) m ρ c main_v0 : S16x16x16384.Idx → EReal) = x3Of (m ((c : Thread nD τ).loc main_arg0)) :=
  V1_v0 m ρ c

theorem array_eq (c : Dev nD) :
    (dat1 (F := Ideal) (V3 m ρ) c).arrAt 6 cfg1.N
      = GR (x3Of (m ((c : Thread nD τ).loc main_arg0))) (V3 m ρ c main_v20) (V3 m ρ c main_v21)
          (m ((c : Thread nD τ).loc main_arg1)) (m ((c : Thread nD τ).loc main_arg2)) (m ((c : Thread nD τ).loc main_arg3)) := by
  rw [final6 (V3 m ρ) c]
  rw [V3_v0 m ρ c, V3_arg1 m ρ c, V3_arg2 m ρ c, V3_arg3 m ρ c, V1_v0 m ρ c]
  rfl

/-- The program's result buffer is that array reshaped. -/
theorem result_eq (c : Dev nD) :
    (W5 (F := Ideal) m ρ c (Proc.devRef .tc main_v23) : S16x16x16x32x32.Idx → EReal)
      = shapeCast S16x16x16x32x32 ((dat1 (F := Ideal) (V3 m ρ) c).arrAt 6 cfg1.N) shapeCasts_S16x16x16384_S16x16x16x32x32 := by
  show StableHlo.after hostOps2 (W4 m ρ c) (Proc.devRef .tc main_v23) = _
  after_results
  exact congrArg (fun a => shapeCast S16x16x16x32x32 a shapeCasts_S16x16x16384_S16x16x16x32x32) (W4_arr m ρ c 6)

end Cert.ReferenceIdeal.Value

end
-- ==== Proof.KNorm.lean ====
/-
  The padded, batch-normalised row block of the kernel program's second kernel, entry by entry: lanes 0..1023 and
  17408..18431 of every channel are zero (one zero plane at each end of the depth axis), and lane 1024 + i of channel c is
  x (c, i) * scale c + shift c, the scale and shift of channel c computed inside the kernel from the sixteen per-item sums and
  sums of squares of that channel.
-/
import proofs.«140524_g2000606239268051_pallasbulk_354_8_alg».proof.Proof.Gen.KernelIdeal.Frame
import proofs.«140524_g2000606239268051_pallasbulk_354_8_alg».proof.Proof.LibRoll
import proofs.«140524_g2000606239268051_pallasbulk_354_8_alg».proof.Proof.ConvTaps
import Idealize.ShloMosaic.Lib.Pipeline.Value
import Idealize.ShloMosaic.Lib.ValueIdx
import Idealize.ShloMosaic.PureOps.Ideal.Laws
import proofs.«140524_g2000606239268051_pallasbulk_354_8_alg».proof.Proof.BNSpec
set_option maxRecDepth 16384

noncomputable section

namespace Cert.KernelIdeal.Norm

open Cert.KernelIdeal Cert.KernelIdeal.Gen
open Idealize.ShloMosaic Idealize.ShloMosaic.ValueIdx Idealize.ShloMosaic.TcCoe
open Idealize.SL.Sem

/-- The sum over the sixteen items of a 16 x 16 x 1 array of per-item sums, at channel c. -/
theorem sumN_apply (x : Vec Ideal S16x16x1 .f32) (c : Fin 16) (h : S16x16x1.Reduces [0] S16x1) (hφ : FKind.Formats .f32)
    (hacc : (0x00000000#32 : BitVec 32) = FKind.add.neutral .f32 hφ) :
    multiReduction (F := Ideal) .add [0] S16x1 (shapeCast S16x16x1 x shapeCasts_S16x16x1_S16x16x1) 0x00000000#32 h hφ hacc (ix2 c (0 : Fin 1))
      = ∑ n : Fin 16, x (ix3 n c (0 : Fin 1)) := by
  refine (Ideal.multiReduction_add_single _ _ _ _ _ _).trans ?_
  refine Finset.sum_congr rfl fun n _ => ?_
  rw [shapeCast_self]
  congr 1; funext a; apply Fin.ext
  match a with
  | ⟨0, _⟩ => rfl
  | ⟨1, _⟩ => rfl
  | ⟨2, _⟩ => rfl

section Pad
variable (z : FVec Ideal S16x1024 .f32) (x : FVec Ideal S16x16384 .f32)
  (h : Shape.Concatenates (([⟨S16x1024, z⟩, ⟨S16x16384, x⟩, ⟨S16x1024, z⟩] : List ((s : Shape) × (s.Idx → EReal))).map (·.1)) S16x18432 1) (c : Fin 16) (j : Fin 18432)

/-- A 16384-lane block between two 1024-lane blocks: the first 1024 lanes. -/
theorem pad3_lo (h0 : j.val < 1024) :
    concatenate S16x18432 1 ([⟨S16x1024, z⟩, ⟨S16x16384, x⟩, ⟨S16x1024, z⟩] : List ((s : Shape) × (s.Idx → EReal))) h (ix2 c j) = z (ix2 c (⟨j.val, h0⟩ : Fin 1024)) :=
  concatenate_apply_piece (t := S16x18432) (1 : Fin 2) ([⟨S16x1024, z⟩, ⟨S16x16384, x⟩, ⟨S16x1024, z⟩] : List ((s : Shape) × (s.Idx → EReal))) h (ix2 c j) 0 (by show (0 : ℕ) < 3; decide) S16x1024 z rfl rfl 0 rfl
    (ix2 c (⟨j.val, h0⟩ : Fin 1024)) (fun b hb => by match b with | ⟨0, _⟩ => rfl | ⟨1, _⟩ => exact absurd rfl hb) (by show 0 + j.val = j.val; omega)

/-- The middle 16384 lanes. -/
theorem pad3_mid (h0 : 1024 ≤ j.val) (h1 : j.val < 17408) :
    concatenate S16x18432 1 ([⟨S16x1024, z⟩, ⟨S16x16384, x⟩, ⟨S16x1024, z⟩] : List ((s : Shape) × (s.Idx → EReal))) h (ix2 c j) = x (ix2 c (⟨j.val - 1024, by omega⟩ : Fin 16384)) :=
  concatenate_apply_piece (t := S16x18432) (1 : Fin 2) ([⟨S16x1024, z⟩, ⟨S16x16384, x⟩, ⟨S16x1024, z⟩] : List ((s : Shape) × (s.Idx → EReal))) h (ix2 c j) 1 (by show (1 : ℕ) < 3; decide) S16x16384 x rfl rfl 1024 rfl
    (ix2 c (⟨j.val - 1024, by omega⟩ : Fin 16384)) (fun b hb => by match b with | ⟨0, _⟩ => rfl | ⟨1, _⟩ => exact absurd rfl hb) (by show 1024 + (j.val - 1024) = j.val; omega)

/-- The last 1024 lanes. -/
theorem pad3_hi (h1 : 17408 ≤ j.val) :
    concatenate S16x18432 1 ([⟨S16x1024, z⟩, ⟨S16x16384, x⟩, ⟨S16x1024, z⟩] : List ((s : Shape) × (s.Idx → EReal))) h (ix2 c j) = z (ix2 c (⟨j.val - 17408, by have := j.isLt; omega⟩ : Fin 1024)) :=
  concatenate_apply_piece (t := S16x18432) (1 : Fin 2) ([⟨S16x1024, z⟩, ⟨S16x16384, x⟩, ⟨S16x1024, z⟩] : List ((s : Shape) × (s.Idx → EReal))) h (ix2 c j) 2 (by show (2 : ℕ) < 3; decide) S16x1024 z rfl rfl 17408 rfl
    (ix2 c (⟨j.val - 17408, by have := j.isLt; omega⟩ : Fin 1024)) (fun b hb => by match b with | ⟨0, _⟩ => rfl | ⟨1, _⟩ => exact absurd rfl hb) (by show 17408 + (j.val - 17408) = j.val; have := j.isLt; omega)

end Pad

/-- The normalised row of channel c, lane by lane (0 beyond the 16384 lanes). -/
def xnRow (x0 x1 : Vec Ideal S16x16x1 .f32) (x2 x3 : Vec Ideal S16x1 .f32) (x4 : Vec Ideal S1x16x16384 .f32) (c : Fin 16) (i : ℕ) : EReal :=
  if hi : i < 16384 then
    x4 (ix3 (0 : Fin 1) c (⟨i, hi⟩ : Fin 16384))
        * Cert.BN.scaleAt (∑ n : Fin 16, x0 (ix3 n c (0 : Fin 1))) (∑ n : Fin 16, x1 (ix3 n c (0 : Fin 1))) (x2 (ix2 c (0 : Fin 1)))
      + Cert.BN.shiftAt (∑ n : Fin 16, x0 (ix3 n c (0 : Fin 1))) (∑ n : Fin 16, x1 (ix3 n c (0 : Fin 1))) (x2 (ix2 c (0 : Fin 1)))
          (x3 (ix2 c (0 : Fin 1)))
  else 0

theorem pay3_apply (x0 x1 : Vec Ideal S16x16x1 .f32) (x2 x3 : Vec Ideal S16x1 .f32) (x4 : Vec Ideal S1x16x16384 .f32)
    (c : Fin 16) (j : Fin 18432) :
    k1_pay3 x0 x1 x2 x3 x4 (ix2 c j) = Cert.ConvTaps.padded (xnRow x0 x1 x2 x3 x4 c) j.val := by
  have hj := j.isLt
  unfold Cert.ConvTaps.padded
  by_cases h0 : j.val < 1024
  · rw [if_neg (by omega)]
    unfold k1_pay3
    refine (pad3_lo _ _ _ c j h0).trans ?_
    exact Ideal.ofBits_zero_f32
  · by_cases h1 : j.val < 17408
    · rw [if_pos ⟨by omega, h1⟩]
      unfold xnRow
      rw [dif_pos (by omega : j.val - 1024 < 16384)]
      unfold Cert.BN.shiftAt Cert.BN.scaleAt
      unfold k1_pay3
      refine (pad3_mid _ _ _ c j (by omega) h1).trans ?_
      refine congrArg₂ (fun a b : EReal => a + b) (congrArg₂ (fun a b : EReal => a * b) ?_ ?_) ?_
      · exact shapeCast_apply _ _ _ _ (by
          rw [Shape.rowMajor_val_three, Shape.rowMajor_val_two]
          show (0 * 16 + c.val) * 16384 + (j.val - 1024) = c.val * 16384 + (j.val - 1024)
          omega)
      · refine (broadcastTo_apply (s := S16x1) (t := S16x16384) _ _ _ (ix2 c (0 : Fin 1)) (fun a => by match a with | ⟨0, _⟩ => rfl | ⟨1, _⟩ => rfl)).trans ?_
        exact (congrArg₂ (fun a b : EReal => a * b) (congrFun (shapeCast_self _ _) _)
        (congrArg Ideal.rsqrt (congrArg₂ (fun a b : EReal => a + b)
          (congrArg₂ (fun a b : EReal => max a b)
            (congrArg₂ (fun a b : EReal => a - b) (congrArg (fun a : EReal => Ideal.div a _) (sumN_apply x1 c _ _ _))
              (congrArg₂ (fun a b : EReal => a * b) (congrArg (fun a : EReal => Ideal.div a _) (sumN_apply x0 c _ _ _)) (congrArg (fun a : EReal => Ideal.div a _) (sumN_apply x0 c _ _ _))))
            rfl) rfl)))
      · refine (broadcastTo_apply (s := S16x1) (t := S16x16384) _ _ _ (ix2 c (0 : Fin 1)) (fun a => by match a with | ⟨0, _⟩ => rfl | ⟨1, _⟩ => rfl)).trans ?_
        exact (congrArg₂ (fun a b : EReal => a - b) (congrFun (shapeCast_self _ _) _)
          (congrArg₂ (fun a b : EReal => a * b) (congrArg (fun a : EReal => Ideal.div a _) (sumN_apply x0 c _ _ _))
            (congrArg₂ (fun a b : EReal => a * b) (congrFun (shapeCast_self _ _) _)
        (congrArg Ideal.rsqrt (congrArg₂ (fun a b : EReal => a + b)
          (congrArg₂ (fun a b : EReal => max a b)
            (congrArg₂ (fun a b : EReal => a - b) (congrArg (fun a : EReal => Ideal.div a _) (sumN_apply x1 c _ _ _))
              (congrArg₂ (fun a b : EReal => a * b) (congrArg (fun a : EReal => Ideal.div a _) (sumN_apply x0 c _ _ _)) (congrArg (fun a : EReal => Ideal.div a _) (sumN_apply x0 c _ _ _))))
            rfl) rfl)))))
    · rw [if_neg (by omega)]
      unfold k1_pay3
      refine (pad3_hi _ _ _ c j (by omega)).trans ?_
      exact Ideal.ofBits_zero_f32

end Cert.KernelIdeal.Norm

end
-- ==== Proof.Bridge.lean ====
/-
  Two regroupings of finite sums in a commutative monoid, in the forms the two programs produce them: a 16384-term sum taken in
  two halves of 8192 onto a zero, and a bias with three 144-term contractions added one after the other against one 432-term
  contraction with the bias added last.
-/
import proofs.«140524_g2000606239268051_pallasbulk_354_8_alg».proof.Proof.ConvTaps
import Mathlib.Algebra.BigOperators.Fin

open scoped BigOperators

namespace Cert.Bridge

/-- Zero plus the first 8192 terms, plus the last 8192 terms, is the sum of all 16384. -/
theorem sum_halves {R : Type*} [AddCommMonoid R] (f : ℕ → R) :
    ((0 : R) + ∑ j : Fin 8192, f j.val) + ∑ j : Fin 8192, f (8192 + j.val) = ∑ j : Fin 16384, f j.val := by
  rw [zero_add, Fin.sum_univ_eq_sum_range (fun j => f j) 8192, Fin.sum_univ_eq_sum_range (fun j => f (8192 + j)) 8192,
    Fin.sum_univ_eq_sum_range (fun j => f j) 16384, show (16384 : ℕ) = 8192 + 8192 from rfl, Finset.sum_range_add]

/-- The bias with three 144-term contractions added one after the other is the 432-term contraction plus the bias. -/
theorem contraction_fin {R : Type*} [AddCommMonoid R] (b : R) (g : ℕ → R) :
    ((b + ∑ r : Fin 144, g r.val) + ∑ r : Fin 144, g (144 + r.val)) + ∑ r : Fin 144, g (288 + r.val)
      = (∑ r : Fin 432, g r.val) + b := by
  rw [Fin.sum_univ_eq_sum_range (fun r => g r) 144, Fin.sum_univ_eq_sum_range (fun r => g (144 + r)) 144,
    Fin.sum_univ_eq_sum_range (fun r => g (288 + r)) 144, Fin.sum_univ_eq_sum_range (fun r => g r) 432]
  exact Cert.ConvTaps.contraction_split b g

end Cert.Bridge
-- ==== Proof.Join.lean ====
/-
  The two output functions agree. For arrays X (the reshaped input), w, b, M (weights, bias, masks), g, be (gamma, beta), with M
  the boundary masks, and with the scale and shift columns the reference's host computes from its accumulated sums, the
  reference's output function and the kernel program's output function are equal at every (n, o, s):
  the two programs' sums of a channel are one sum taken whole or in halves onto a zero; so their scale and shift agree and
  their normalised rows agree; a gathered entry of the kernel program's scratch read through depth window kd is the
  reference's gathered entry of tap kd*9 + u (Proof/ConvTaps.lean, with both masks read as boundary masks); and the bias with
  three 144-term contractions added in turn is the 432-term contraction plus the bias.
-/
import proofs.«140524_g2000606239268051_pallasbulk_354_8_alg».proof.Proof.KValue
import proofs.«140524_g2000606239268051_pallasbulk_354_8_alg».proof.Proof.RFinal
import proofs.«140524_g2000606239268051_pallasbulk_354_8_alg».proof.Proof.RStatsArr
import proofs.«140524_g2000606239268051_pallasbulk_354_8_alg».proof.Proof.KNorm
import proofs.«140524_g2000606239268051_pallasbulk_354_8_alg».proof.Proof.Bridge
import proofs.«140524_g2000606239268051_pallasbulk_354_8_alg».proof.Proof.MaskContract

set_option maxRecDepth 16384

noncomputable section

namespace Cert.Join

open Idealize.ShloMosaic Idealize.ShloMosaic.ValueIdx

abbrev SX : Shape := ⟨3, ![16, 16, 16384]⟩
abbrev SS : Shape := ⟨3, ![16, 16, 1]⟩
abbrev SW : Shape := ⟨2, ![16, 432]⟩
abbrev SB : Shape := ⟨2, ![16, 1]⟩
abbrev SM : Shape := ⟨2, ![27, 16384]⟩
abbrev SG : Shape := ⟨1, ![16]⟩

/-- The masks are the boundary masks. -/
def MaskOK (M : SM.Idx → EReal) : Prop :=
  ∀ (kd kh kw : Fin 3) (d : Fin 16) (h w : Fin 32) (T : Fin 27) (S : Fin 16384),
    T.val = (kd.val * 3 + kh.val) * 3 + kw.val → S.val = (d.val * 32 + h.val) * 32 + w.val →
    M (ix2 T S) = Cert.ConvTaps.mask kd.val kh.val kw.val d.val h.val w.val

/-- A channel's sum over an item, whole, is the sum in two halves onto zero. -/
theorem acc_eq (X : SX.Idx → EReal) (n c : Fin 16) :
    Cert.ReferenceIdeal.StatsArr.accSum X (ix3 n c (0 : Fin 1)) = Cert.KernelIdeal.Stats.rowSum X (ix3 n c (0 : Fin 1)) := by
  unfold Cert.ReferenceIdeal.StatsArr.accSum Cert.KernelIdeal.Stats.rowSum
  let f : ℕ → EReal := fun j => if h : j < 16384 then X (ix3 n c (⟨j, h⟩ : Fin 16384)) else 0
  have e := Cert.Bridge.sum_halves f
  have e1 : ∀ (j : ℕ) (h : j < 16384), f j = X (ix3 n c (⟨j, h⟩ : Fin 16384)) := fun j h => dif_pos h
  refine Eq.trans ?_ (e.trans ?_)
  · refine congrArg₂ (fun a b : EReal => a + b) (congrArg (fun a : EReal => (0 : EReal) + a) (Finset.sum_congr rfl fun j _ => ?_))
      (Finset.sum_congr rfl fun j _ => ?_)
    · exact (e1 j.val (by have := j.isLt; omega)).symm
    · exact (e1 (8192 + j.val) (by have := j.isLt; omega)).symm
  · exact Finset.sum_congr rfl fun j _ => e1 j.val j.isLt

theorem accSq_eq (X : SX.Idx → EReal) (n c : Fin 16) :
    Cert.ReferenceIdeal.StatsArr.accSumSq X (ix3 n c (0 : Fin 1)) = Cert.KernelIdeal.Stats.rowSumSq X (ix3 n c (0 : Fin 1)) := by
  unfold Cert.ReferenceIdeal.StatsArr.accSumSq Cert.KernelIdeal.Stats.rowSumSq
  let f : ℕ → EReal := fun j => if h : j < 16384 then X (ix3 n c (⟨j, h⟩ : Fin 16384)) * X (ix3 n c (⟨j, h⟩ : Fin 16384)) else 0
  have e := Cert.Bridge.sum_halves f
  have e1 : ∀ (j : ℕ) (h : j < 16384), f j = X (ix3 n c (⟨j, h⟩ : Fin 16384)) * X (ix3 n c (⟨j, h⟩ : Fin 16384)) := fun j h => dif_pos h
  refine Eq.trans ?_ (e.trans ?_)
  · refine congrArg₂ (fun a b : EReal => a + b) (congrArg (fun a : EReal => (0 : EReal) + a) (Finset.sum_congr rfl fun j _ => ?_))
      (Finset.sum_congr rfl fun j _ => ?_)
    · exact (e1 j.val (by have := j.isLt; omega)).symm
    · exact (e1 (8192 + j.val) (by have := j.isLt; omega)).symm
  · exact Finset.sum_congr rfl fun j _ => e1 j.val j.isLt

/-- Item n's row block of the reshaped input. -/
def blkOf (X : SX.Idx → EReal) (n : Fin 16) : (⟨3, ![1, 16, 16384]⟩ : Shape).Idx → EReal :=
  fun y => X (ix3 n (⟨(y 1).val, (y 1).isLt⟩ : Fin 16) (⟨(y 2).val, (y 2).isLt⟩ : Fin 16384))

section
variable (X : SX.Idx → EReal) (g be : SG.Idx → EReal) (gcol becol sc' sh' : SB.Idx → EReal) (n : Fin 16)
  (hg : ∀ ch : Fin 16, gcol (ix2 ch (0 : Fin 1)) = g (ix1 ch)) (hbe : ∀ ch : Fin 16, becol (ix2 ch (0 : Fin 1)) = be (ix1 ch))
  (hsc : ∀ ch : Fin 16, sc' (ix2 ch (0 : Fin 1)) = Cert.BN.scaleAt
    ((0 : EReal) + ∑ k : Fin 16, Cert.ReferenceIdeal.StatsArr.accSum X (ix3 k ch (0 : Fin 1)))
    ((0 : EReal) + ∑ k : Fin 16, Cert.ReferenceIdeal.StatsArr.accSumSq X (ix3 k ch (0 : Fin 1))) (g (ix1 ch)))
  (hsh : ∀ ch : Fin 16, sh' (ix2 ch (0 : Fin 1)) = Cert.BN.shiftAt
    ((0 : EReal) + ∑ k : Fin 16, Cert.ReferenceIdeal.StatsArr.accSum X (ix3 k ch (0 : Fin 1)))
    ((0 : EReal) + ∑ k : Fin 16, Cert.ReferenceIdeal.StatsArr.accSumSq X (ix3 k ch (0 : Fin 1))) (g (ix1 ch)) (be (ix1 ch)))

include hg hbe hsc hsh in
/-- The reference's normalised entry is the kernel program's normalised row at that lane. -/
theorem row_eq (c : Fin 16) (i : ℕ) (hi : i < 16384) :
    blkOf X n (ix3 (0 : Fin 1) c (⟨i, hi⟩ : Fin 16384)) * sc' (ix2 c (0 : Fin 1)) + sh' (ix2 c (0 : Fin 1))
      = Cert.KernelIdeal.Norm.xnRow (Cert.KernelIdeal.Stats.rowSum X) (Cert.KernelIdeal.Stats.rowSumSq X) gcol becol (blkOf X n) c i := by
  unfold Cert.KernelIdeal.Norm.xnRow
  rw [dif_pos hi, hsc c, hsh c, hg c, hbe c, zero_add, zero_add]
  rw [Finset.sum_congr rfl (fun k _ => acc_eq X k c), Finset.sum_congr rfl (fun k _ => accSq_eq X k c)]

end

section Col
variable (A0 A1 : SS.Idx → EReal) (A2 A3 sc' sh' : SB.Idx → EReal) (blk : (⟨3, ![1, 16, 16384]⟩ : Shape).Idx → EReal)
  (M : SM.Idx → EReal) (hM : MaskOK M)
  (hrow : ∀ (c : Fin 16) (i : ℕ) (hi : i < 16384),
    blk (ix3 (0 : Fin 1) c (⟨i, hi⟩ : Fin 16384)) * sc' (ix2 c (0 : Fin 1)) + sh' (ix2 c (0 : Fin 1))
      = Cert.KernelIdeal.Norm.xnRow A0 A1 A2 A3 blk c i)

include hM hrow in
/-- A gathered entry of the kernel program's scratch, read through depth window kd, is the reference's gathered entry. -/
theorem col_eq (kd : Fin 3) (r : Fin 144) (s : Fin 16384) (j : Fin 18432) (hj : j.val = kd.val * 1024 + s.val)
    (R : Fin 432) (hR : R.val = kd.val * 144 + r.val) :
    Cert.KernelIdeal.Scratch.col (Cert.KernelIdeal.Gen.k1_pay3 A0 A1 A2 A3 blk) (Cert.KernelIdeal.Value.hwOf M) (ix2 r j)
      = Cert.ReferenceIdeal.Conv.col (Cert.ReferenceIdeal.Gen.k1_pay5 blk sc' sh') M (ix2 R s) := by
  have hr := r.isLt; have hs := s.isLt; have hkd := kd.isLt
  have hsd : (s.val / 1024 * 32 + s.val / 32 % 32) * 32 + s.val % 32 = s.val := by
    have h1 := Nat.div_add_mod s.val 32
    have h2 := Nat.div_add_mod (s.val / 32) 32
    have h3 : s.val / 32 / 32 = s.val / 1024 := by rw [Nat.div_div_eq_div_mul]
    omega
  unfold Cert.KernelIdeal.Scratch.col Cert.ReferenceIdeal.Conv.col
  rw [Cert.KernelIdeal.Norm.pay3_apply, Cert.ReferenceIdeal.Conv.pay5_apply]
  unfold Cert.KernelIdeal.Value.hwOf
  rw [Cert.KernelIdeal.Host.hw_apply]
  rw [hrow]
  have a0 : ((ix2 r j : (⟨2, ![144, 18432]⟩ : Shape).Idx) 0).val = r.val := rfl
  have a1 : ((ix2 r j : (⟨2, ![144, 18432]⟩ : Shape).Idx) 1).val = j.val := rfl
  have b0 : ((ix2 R s : (⟨2, ![432, 16384]⟩ : Shape).Idx) 0).val = R.val := rfl
  have b1 : ((ix2 R s : (⟨2, ![432, 16384]⟩ : Shape).Idx) 1).val = s.val := rfl
  simp only [a0, a1, b0, b1, Fin.val_mk]
  have q1 : R.val / 16 = kd.val * 9 + r.val / 16 := by omega
  have q2 : R.val % 16 = r.val % 16 := by omega
  have q3 : R.val / 16 / 9 = kd.val := by omega
  have q4 : R.val / 16 / 3 % 3 = r.val / 16 / 3 := by omega
  have q5 : R.val / 16 % 3 = r.val / 16 % 3 := by omega
  simp only [q3, q4, q5]
  simp only [q1, q2]
  have m1 := hM (1 : Fin 3) (⟨r.val / 16 / 3, by omega⟩ : Fin 3) (⟨r.val / 16 % 3, by omega⟩ : Fin 3) (0 : Fin 16)
    (⟨s.val / 32 % 32, by omega⟩ : Fin 32) (⟨s.val % 32, by omega⟩ : Fin 32) (⟨9 + r.val / 16, by omega⟩ : Fin 27)
    (⟨j.val % 1024, by omega⟩ : Fin 16384)
    (by show 9 + r.val / 16 = (1 * 3 + r.val / 16 / 3) * 3 + r.val / 16 % 3; omega)
    (by show j.val % 1024 = (0 * 32 + s.val / 32 % 32) * 32 + s.val % 32; omega)
  have m2 := hM kd (⟨r.val / 16 / 3, by omega⟩ : Fin 3) (⟨r.val / 16 % 3, by omega⟩ : Fin 3) (⟨s.val / 1024, by omega⟩ : Fin 16)
    (⟨s.val / 32 % 32, by omega⟩ : Fin 32) (⟨s.val % 32, by omega⟩ : Fin 32) (⟨kd.val * 9 + r.val / 16, by omega⟩ : Fin 27)
    (⟨s.val, s.isLt⟩ : Fin 16384)
    (by show kd.val * 9 + r.val / 16 = (kd.val * 3 + r.val / 16 / 3) * 3 + r.val / 16 % 3; omega)
    (by show s.val = (s.val / 1024 * 32 + s.val / 32 % 32) * 32 + s.val % 32; omega)
  rw [m1, m2]
  have tap := Cert.ConvTaps.tap_eq (Cert.KernelIdeal.Norm.xnRow A0 A1 A2 A3 blk (⟨r.val % 16, Nat.mod_lt _ (by norm_num)⟩ : Fin 16))
    kd.val (r.val / 16 / 3) (r.val / 16 % 3) (s.val / 1024) (s.val / 32 % 32) (s.val % 32) kd.isLt (by omega) (by omega) (by omega)
    (by omega) (by omega)
  rw [hsd] at tap
  rw [hj]
  exact tap

end Col

section Main
variable (X : SX.Idx → EReal) (w : SW.Idx → EReal) (b : SB.Idx → EReal) (M : SM.Idx → EReal) (g be : SG.Idx → EReal)
  (gcol becol sc' sh' : SB.Idx → EReal) (W0 W1 W2 : (⟨2, ![16, 144]⟩ : Shape).Idx → EReal)
  (hM : MaskOK M)
  (hg : ∀ ch : Fin 16, gcol (ix2 ch (0 : Fin 1)) = g (ix1 ch)) (hbe : ∀ ch : Fin 16, becol (ix2 ch (0 : Fin 1)) = be (ix1 ch))
  (hsc : ∀ ch : Fin 16, sc' (ix2 ch (0 : Fin 1)) = Cert.BN.scaleAt
    ((0 : EReal) + ∑ k : Fin 16, Cert.ReferenceIdeal.StatsArr.accSum X (ix3 k ch (0 : Fin 1)))
    ((0 : EReal) + ∑ k : Fin 16, Cert.ReferenceIdeal.StatsArr.accSumSq X (ix3 k ch (0 : Fin 1))) (g (ix1 ch)))
  (hsh : ∀ ch : Fin 16, sh' (ix2 ch (0 : Fin 1)) = Cert.BN.shiftAt
    ((0 : EReal) + ∑ k : Fin 16, Cert.ReferenceIdeal.StatsArr.accSum X (ix3 k ch (0 : Fin 1)))
    ((0 : EReal) + ∑ k : Fin 16, Cert.ReferenceIdeal.StatsArr.accSumSq X (ix3 k ch (0 : Fin 1))) (g (ix1 ch)) (be (ix1 ch)))
  (hW0 : ∀ (o : Fin 16) (r : Fin 144), W0 (ix2 o r) = w (ix2 o (⟨r.val, by have := r.isLt; omega⟩ : Fin 432)))
  (hW1 : ∀ (o : Fin 16) (r : Fin 144), W1 (ix2 o r) = w (ix2 o (⟨144 + r.val, by have := r.isLt; omega⟩ : Fin 432)))
  (hW2 : ∀ (o : Fin 16) (r : Fin 144), W2 (ix2 o r) = w (ix2 o (⟨288 + r.val, by have := r.isLt; omega⟩ : Fin 432)))

include hM hg hbe hsc hsh hW0 hW1 hW2 in
/-- The reference's output function is the kernel program's. -/
theorem main_eq (n o : Fin 16) (s : Fin 16384) :
    Cert.ReferenceIdeal.Final.GR X sc' sh' w b M (ix3 n o s)
      = Cert.KernelIdeal.Final.GK (Cert.KernelIdeal.Stats.rowSum X) (Cert.KernelIdeal.Stats.rowSumSq X) gcol becol X W0 W1 W2 b
          (Cert.KernelIdeal.Value.hwOf M) (ix3 n o s) := by
  have hs := s.isLt
  show (∑ r : Fin 432, w (ix2 o r) * Cert.ReferenceIdeal.Conv.col (Cert.ReferenceIdeal.Gen.k1_pay5 (blkOf X n) sc' sh') M (ix2 r s))
        + b (ix2 o (0 : Fin 1))
      = ((b (ix2 o (0 : Fin 1))
          + ∑ r : Fin 144, W0 (ix2 o r) * Cert.KernelIdeal.Scratch.col
              (Cert.KernelIdeal.Gen.k1_pay3 (Cert.KernelIdeal.Stats.rowSum X) (Cert.KernelIdeal.Stats.rowSumSq X) gcol becol (blkOf X n))
              (Cert.KernelIdeal.Value.hwOf M) (ix2 r (⟨(0 : Fin 3).val * 1024 + s.val, by simp; omega⟩ : Fin 18432)))
          + ∑ r : Fin 144, W1 (ix2 o r) * Cert.KernelIdeal.Scratch.col
              (Cert.KernelIdeal.Gen.k1_pay3 (Cert.KernelIdeal.Stats.rowSum X) (Cert.KernelIdeal.Stats.rowSumSq X) gcol becol (blkOf X n))
              (Cert.KernelIdeal.Value.hwOf M) (ix2 r (⟨(1 : Fin 3).val * 1024 + s.val, by simp; omega⟩ : Fin 18432)))
        + ∑ r : Fin 144, W2 (ix2 o r) * Cert.KernelIdeal.Scratch.col
            (Cert.KernelIdeal.Gen.k1_pay3 (Cert.KernelIdeal.Stats.rowSum X) (Cert.KernelIdeal.Stats.rowSumSq X) gcol becol (blkOf X n))
            (Cert.KernelIdeal.Value.hwOf M) (ix2 r (⟨(2 : Fin 3).val * 1024 + s.val, by simp; omega⟩ : Fin 18432))
  have hrow := row_eq X g be gcol becol sc' sh' n hg hbe hsc hsh
  let gf : ℕ → EReal := fun r => if h : r < 432 then
    w (ix2 o (⟨r, h⟩ : Fin 432)) * Cert.ReferenceIdeal.Conv.col (Cert.ReferenceIdeal.Gen.k1_pay5 (blkOf X n) sc' sh') M (ix2 (⟨r, h⟩ : Fin 432) s) else 0
  have hgf : ∀ (r : ℕ) (h : r < 432), gf r
      = w (ix2 o (⟨r, h⟩ : Fin 432)) * Cert.ReferenceIdeal.Conv.col (Cert.ReferenceIdeal.Gen.k1_pay5 (blkOf X n) sc' sh') M (ix2 (⟨r, h⟩ : Fin 432) s) :=
    fun r h => dif_pos h
  have eR : (∑ r : Fin 432, w (ix2 o r) * Cert.ReferenceIdeal.Conv.col (Cert.ReferenceIdeal.Gen.k1_pay5 (blkOf X n) sc' sh') M (ix2 r s))
      = ∑ r : Fin 432, gf r.val := Finset.sum_congr rfl fun r _ => (hgf r.val r.isLt).symm
  have e0 : (∑ r : Fin 144, W0 (ix2 o r) * Cert.KernelIdeal.Scratch.col
        (Cert.KernelIdeal.Gen.k1_pay3 (Cert.KernelIdeal.Stats.rowSum X) (Cert.KernelIdeal.Stats.rowSumSq X) gcol becol (blkOf X n))
        (Cert.KernelIdeal.Value.hwOf M) (ix2 r (⟨(0 : Fin 3).val * 1024 + s.val, by simp; omega⟩ : Fin 18432)))
      = ∑ r : Fin 144, gf r.val := Finset.sum_congr rfl fun r _ => by
    have hr := r.isLt
    rw [hW0 o r, col_eq _ _ _ _ sc' sh' _ M hM hrow (0 : Fin 3) r s _ rfl (⟨r.val, by omega⟩ : Fin 432) (by show r.val = 0 * 144 + r.val; omega),
      hgf r.val (by omega)]
  have e1 : (∑ r : Fin 144, W1 (ix2 o r) * Cert.KernelIdeal.Scratch.col
        (Cert.KernelIdeal.Gen.k1_pay3 (Cert.KernelIdeal.Stats.rowSum X) (Cert.KernelIdeal.Stats.rowSumSq X) gcol becol (blkOf X n))
        (Cert.KernelIdeal.Value.hwOf M) (ix2 r (⟨(1 : Fin 3).val * 1024 + s.val, by simp; omega⟩ : Fin 18432)))
      = ∑ r : Fin 144, gf (144 + r.val) := Finset.sum_congr rfl fun r _ => by
    have hr := r.isLt
    rw [hW1 o r, col_eq _ _ _ _ sc' sh' _ M hM hrow (1 : Fin 3) r s _ rfl (⟨144 + r.val, by omega⟩ : Fin 432) (by show 144 + r.val = 1 * 144 + r.val; omega),
      hgf (144 + r.val) (by omega)]
  have e2 : (∑ r : Fin 144, W2 (ix2 o r) * Cert.KernelIdeal.Scratch.col
        (Cert.KernelIdeal.Gen.k1_pay3 (Cert.KernelIdeal.Stats.rowSum X) (Cert.KernelIdeal.Stats.rowSumSq X) gcol becol (blkOf X n))
        (Cert.KernelIdeal.Value.hwOf M) (ix2 r (⟨(2 : Fin 3).val * 1024 + s.val, by simp; omega⟩ : Fin 18432)))
      = ∑ r : Fin 144, gf (288 + r.val) := Finset.sum_congr rfl fun r _ => by
    have hr := r.isLt
    rw [hW2 o r, col_eq _ _ _ _ sc' sh' _ M hM hrow (2 : Fin 3) r s _ rfl (⟨288 + r.val, by omega⟩ : Fin 432) (by show 288 + r.val = 2 * 144 + r.val; omega),
      hgf (288 + r.val) (by omega)]
  rw [eR, e0, e1, e2]
  exact (Cert.Bridge.contraction_fin _ gf).symm

end Main

end Cert.Join

end
-- ==== Proof.Agree.lean ====
/-
  What is left of the algebraic claim once both runs are read: from launch memories that agree on the six argument arrays, of
  which the precondition holds (every input finite, the mask input the boundary masks), the kernel program's result buffer
  and the reference program's result buffer hold the same extended reals.

  Both sides compute, for batch item n, output channel o and voxel s,
      bias o + sum over taps t and input channels c of  weight (o, t*16 + c) * xn (n, c, voxel shifted by t) * [shift stays inside],
  with xn = x * scale + shift the batch-normalised input, scale c = gamma c * rsqrt (max (Q c / M - (S c / M)^2, 0) + eps),
  shift c = beta c - (S c / M) * scale c, S c and Q c the sums of x and of x*x over the batch and the voxels, M = 262144.
  The kernel program sums a channel's row whole per batch item and finishes the statistics inside its second kernel, which
  gathers 9 in-plane taps over a zero-padded row and contracts three depth windows one after the other onto the bias; the
  reference sums the row in two halves into an accumulator, finishes the statistics on the host, gathers all 27 taps with
  wrap-around rotations and boundary masks and contracts once, adding the bias last (Proof/ConvTaps.lean joins the two gathers,
  Proof/MaskContract.lean reads the masks out of the precondition).
-/
import proofs.«140524_g2000606239268051_pallasbulk_354_8_alg».proof.Defs
import proofs.«140524_g2000606239268051_pallasbulk_354_8_alg».proof.Proof.KernelRun
import proofs.«140524_g2000606239268051_pallasbulk_354_8_alg».proof.Proof.ReferenceRun
import proofs.«140524_g2000606239268051_pallasbulk_354_8_alg».proof.Proof.MaskContract
import proofs.«140524_g2000606239268051_pallasbulk_354_8_alg».proof.Proof.KValue
import proofs.«140524_g2000606239268051_pallasbulk_354_8_alg».proof.Proof.RValue
import proofs.«140524_g2000606239268051_pallasbulk_354_8_alg».proof.Proof.Join

set_option maxRecDepth 16384

noncomputable section

namespace Cert.Agree

open Idealize.ShloMosaic Idealize.ShloMosaic.ValueIdx Idealize.ShloMosaic.TcCoe Idealize.SL.Sem

variable [hPre : Cert.Pre_finite_inputs.Facts]

/-- The two result buffers agree. -/
theorem results_agree
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.KernelIdeal.nD) :
    Cert.ReferenceIdeal.Gen.W5 (F := Ideal) m' g' c (Proc.devRef .tc Cert.ReferenceIdeal.main_v23)
      = Cert.KernelIdeal.Gen.W5 (F := Ideal) m g c (Proc.devRef .tc Cert.KernelIdeal.main_v12) := by
  obtain ⟨h0, h1, h2, h3, h4, h5⟩ := hagree c
  refine (Cert.ReferenceIdeal.Value.result_eq m' g' c).trans (Eq.trans ?_ (Cert.KernelIdeal.Value.result_eq m g c).symm)
  refine congrArg (fun a => shapeCast Cert.KernelIdeal.S16x16x16x32x32 a Cert.KernelIdeal.Facts₀.shapeCasts_S16x16x16384_S16x16x16x32x32) ?_
  rw [Cert.ReferenceIdeal.Value.array_eq m' g' c, Cert.KernelIdeal.Value.array_eq m g c, h0, h1, h2, h3]
  funext i
  obtain ⟨n, o, s, rfl⟩ : ∃ (n o : Fin 16) (s : Fin 16384), i = ix3 n o s := ⟨i 0, i 1, i 2, eq_ix3 i⟩
  refine Cert.Join.main_eq (Cert.KernelIdeal.Value.x3Of (m ((c.tc : Thread Cert.KernelIdeal.nD Cert.KernelIdeal.τ).loc Cert.KernelIdeal.main_arg0)))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    _ _ _ _ _ _ _ ?hM ?hg ?hbe ?hsc ?hsh ?hW0 ?hW1 ?hW2 n o s
  case hM =>
    intro kd kh kw d h w T S hT hS
    exact Cert.MaskContract.masks_eq _ _ _ _ _ _ (hpre c) kd kh kw d h w T S hT hS
  case hg => exact fun ch => Cert.KernelIdeal.Host.col_apply _ ch
  case hbe => exact fun ch => Cert.KernelIdeal.Host.col_apply _ ch
  case hsc =>
    intro ch
    have e := Cert.ReferenceIdeal.Host.v20_apply m' g' c ch
    rw [Cert.ReferenceIdeal.Value.V1_v0' m' g' c, h0, h4] at e
    exact e
  case hsh =>
    intro ch
    have e := Cert.ReferenceIdeal.Host.v21_apply m' g' c ch
    rw [Cert.ReferenceIdeal.Value.V1_v0' m' g' c, h0, h4, h5] at e
    exact e
  case hW0 =>
    intro o r
    refine (Cert.KernelIdeal.Host.slab_apply _ 0 _ (by omega) o r).trans ?_
    congr 2
    exact Fin.ext (by show 0 + r.val = r.val; omega)
  case hW1 => exact fun o r => Cert.KernelIdeal.Host.slab_apply _ 144 _ (by omega) o r
  case hW2 => exact fun o r => Cert.KernelIdeal.Host.slab_apply _ 288 _ (by omega) o r

end Cert.Agree

end
-- ==== Proof.lean ====
/-
  The certificate: the three programs run (terminate, fault-free, arguments unchanged), the idealized kernel is the printed
  kernel read at the ideal instance with no rewrite to account for, and from agreeing arguments under the precondition the
  idealized kernel and the idealized reference end with the same result array.

  The frames are the programs' generated frame certificates. For the last claim each idealized program's run is stated with
  its result buffer read (Proof/KernelRun.lean, Proof/ReferenceRun.lean: the contents the last host stretch leaves, a fold of
  host stretches and of the two regions' write-backs from the launch memory), and the two folds' result buffers are shown
  equal (Proof/Agree.lean).
-/
import proofs.«140524_g2000606239268051_pallasbulk_354_8_alg».proof.Defs
import proofs.«140524_g2000606239268051_pallasbulk_354_8_alg».proof.Proof.Gen.Kernel
import proofs.«140524_g2000606239268051_pallasbulk_354_8_alg».proof.Proof.Gen.Kernel.Frame
import proofs.«140524_g2000606239268051_pallasbulk_354_8_alg».proof.Proof.Gen.KernelIdeal
import proofs.«140524_g2000606239268051_pallasbulk_354_8_alg».proof.Proof.Gen.KernelIdeal.Frame
import proofs.«140524_g2000606239268051_pallasbulk_354_8_alg».proof.Proof.Gen.ReferenceIdeal
import proofs.«140524_g2000606239268051_pallasbulk_354_8_alg».proof.Proof.Gen.ReferenceIdeal.Frame
import proofs.«140524_g2000606239268051_pallasbulk_354_8_alg».proof.Proof.Gen.Pre_finite_inputs
import proofs.«140524_g2000606239268051_pallasbulk_354_8_alg».proof.Proof.KernelRun
import proofs.«140524_g2000606239268051_pallasbulk_354_8_alg».proof.Proof.ReferenceRun
import proofs.«140524_g2000606239268051_pallasbulk_354_8_alg».proof.Proof.Agree
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    fun m ρ m' ρ' hpre hagree =>
      ⟨fun c => Cert.KernelIdeal.Gen.W5 (F := Ideal) m ρ c (Proc.devRef .tc Cert.KernelIdeal.main_v12),
        Cert.KernelIdeal.RunV.run_result (F := Ideal) m ρ,
        (θ_run Cert.ReferenceIdeal.defs _ _).mono
          (fun _ h c => ⟨(h c).1.trans (Cert.Agree.results_agree m ρ m' ρ' hpre hagree c), (h c).2⟩)
          (Cert.ReferenceIdeal.RunV.run_result (F := Ideal) m' ρ')⟩⟩

end Cert.Proof

end
